-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x131 : Shape := ⟨2, ![500000, 131]⟩
abbrev S3x32x513x513 : Shape := ⟨4, ![3, 32, 513, 513]⟩
abbrev S227x256 : Shape := ⟨2, ![227, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S500000x131 : S_.BroadcastsInDim S500000x131 (![] : Fin 0 → Fin S500000x131.rank)
  reducesTo_S500000x131_S_d0_1 : S500000x131.ReducesTo [0, 1] S_
  h_S_ : 0 < S_.numel
  bcast_S_S3x32x513x513 : S_.BroadcastsInDim S3x32x513x513 (![] : Fin 0 → Fin S3x32x513x513.rank)
  reducesTo_S3x32x513x513_S_d0_1_2_3 : S3x32x513x513.ReducesTo [0, 1, 2, 3] S_
  bcast_S_S227x256 : S_.BroadcastsInDim S227x256 (![] : Fin 0 → Fin S227x256.rank)
  reducesTo_S227x256_S_d0_1 : S227x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S500000x131 .f32) (main_arg1 : FVec F S3x32x513x513 .f32) (main_arg2 : FVec F S227x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S500000x131 .f32 := Host.absf main_arg0
  let main_cst : FVec F S_ .f32 := constant S_ .f32 0x7F800000#32
  let main_v1 : FVec F S500000x131 .f32 := broadcastInDim S500000x131 ![] bcast_S_S500000x131 main_cst
  let main_v2 : IVec S500000x131 1 := cmpf .olt main_v0 main_v1
  let main_c : IVec S_ 1 := constantI S_ 1 1#1
  let main_v3 : IVec S_ 1 := (fun x v => Host.reduce IntOp.andi x v reducesTo_S500000x131_S_d0_1 h_S_) main_v2 main_c
  let main_v4 : FVec F S3x32x513x513 .f32 := Host.absf main_arg1
  let main_cst_0 : FVec F S_ .f32 := constant S_ .f32 0x7F800000#32
  let main_v5 : FVec F S3x32x513x513 .f32 := broadcastInDim S3x32x513x513 ![] bcast_S_S3x32x513x513 main_cst_0
  let main_v6 : IVec S3x32x513x513 1 := cmpf .olt main_v4 main_v5
  let main_c_1 : IVec S_ 1 := constantI S_ 1 1#1
  let main_v7 : IVec S_ 1 := (fun x v => Host.reduce IntOp.andi x v reducesTo_S3x32x513x513_S_d0_1_2_3 h_S_) main_v6 main_c_1
  let main_v8 : IVec S_ 1 := andi main_v3 main_v7
  let main_v9 : FVec F S227x256 .f32 := Host.absf main_arg2
  let main_cst_2 : FVec F S_ .f32 := constant S_ .f32 0x7F800000#32
  let main_v10 : FVec F S227x256 .f32 := broadcastInDim S227x256 ![] bcast_S_S227x256 main_cst_2
  let main_v11 : IVec S227x256 1 := cmpf .olt main_v9 main_v10
  let main_c_3 : IVec S_ 1 := constantI S_ 1 1#1
  let main_v12 : IVec S_ 1 := (fun x v => Host.reduce IntOp.andi x v reducesTo_S227x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S500000x131 : Shape := ⟨2, ![500000, 131]⟩
abbrev S3x32x513x513 : Shape := ⟨4, ![3, 32, 513, 513]⟩
abbrev S227x256 : Shape := ⟨2, ![227, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2 : Shape := ⟨1, ![2]⟩
abbrev S500000x3 : Shape := ⟨2, ![500000, 3]⟩
abbrev S_ : Shape := ⟨0, ![]⟩
abbrev S2x1 : Shape := ⟨2, ![2, 1]⟩
abbrev S500000x2 : Shape := ⟨2, ![500000, 2]⟩
abbrev S1x500000x2 : Shape := ⟨3, ![1, 500000, 2]⟩
abbrev S3x500000x2 : Shape := ⟨3, ![3, 500000, 2]⟩
abbrev S3x513x513x32 : Shape := ⟨4, ![3, 513, 513, 32]⟩
abbrev S3x500000x1 : Shape := ⟨3, ![3, 500000, 1]⟩
abbrev S3x500000 : Shape := ⟨2, ![3, 500000]⟩
abbrev S3x263169x32 : Shape := ⟨3, ![3, 263169, 32]⟩
abbrev S3x500000x32 : Shape := ⟨3, ![3, 500000, 32]⟩
abbrev S500000x3x32 : Shape := ⟨3, ![500000, 3, 32]⟩
abbrev S500000x96 : Shape := ⟨2, ![500000, 96]⟩
abbrev S131x256 : Shape := ⟨2, ![131, 256]⟩
abbrev S96x256 : Shape := ⟨2, ![96, 256]⟩
abbrev S1x256 : Shape := ⟨2, ![1, 256]⟩
abbrev S1x1 : Shape := ⟨2, ![1, 1]⟩
abbrev S500000x1 : Shape := ⟨2, ![500000, 1]⟩
abbrev S10000x131 : Shape := ⟨2, ![10000, 131]⟩
abbrev S10000x96 : Shape := ⟨2, ![10000, 96]⟩
abbrev S10000x1 : Shape := ⟨2, ![10000, 1]⟩
abbrev S10000x256 : Shape := ⟨2, ![10000, 256]⟩
abbrev S10000 : Shape := ⟨1, ![10000]⟩
abbrev S500000 : Shape := ⟨1, ![500000]⟩

abbrev nBuf : Space → Nat
  | .hbm => 149
  | .vmem => 13
  | .smem => 0
  | _ => 0

abbrev hbmTy0_0 (i : Nat) : BufTy := match i % 128 with
  | 0 => ⟨S500000x131, .f32⟩
  | 1 => ⟨S3x32x513x513, .f32⟩
  | 2 => ⟨S227x256, .f32⟩
  | 3 => ⟨S256, .f32⟩
  | 4 => ⟨S256x256, .f32⟩
  | 5 => ⟨S256, .f32⟩
  | 6 => ⟨S256x1, .f32⟩
  | 7 => ⟨S1, .f32⟩
  | 8 => ⟨S2, .i32⟩
  | 9 => ⟨S2, .i32⟩
  | 10 => ⟨S2, .i32⟩
  | 11 => ⟨S500000x3, .f32⟩
  | 12 => ⟨S_, .i32⟩
  | 13 => ⟨S2, .i32⟩
  | 14 => ⟨S2, .i1⟩
  | 15 => ⟨S_, .i32⟩
  | 16 => ⟨S2, .i32⟩
  | 17 => ⟨S2, .i32⟩
  | 18 => ⟨S2, .i32⟩
  | 19 => ⟨S2x1, .i32⟩
  | 20 => ⟨S500000x2, .f32⟩
  | 21 => ⟨S_, .i32⟩
  | 22 => ⟨S2, .i32⟩
  | 23 => ⟨S2, .i1⟩
  | 24 => ⟨S_, .i32⟩
  | 25 => ⟨S2, .i32⟩
  | 26 => ⟨S2, .i32⟩
  | 27 => ⟨S2, .i32⟩
  | 28 => ⟨S2x1, .i32⟩
  | 29 => ⟨S500000x2, .f32⟩
  | 30 => ⟨S_, .i32⟩
  | 31 => ⟨S2, .i32⟩
  | 32 => ⟨S2, .i1⟩
  | 33 => ⟨S_, .i32⟩
  | 34 => ⟨S2, .i32⟩
  | 35 => ⟨S2, .i32⟩
  | 36 => ⟨S2, .i32⟩
  | 37 => ⟨S2x1, .i32⟩
  | 38 => ⟨S500000x2, .f32⟩
  | 39 => ⟨S1x500000x2, .f32⟩
  | 40 => ⟨S1x500000x2, .f32⟩
  | 41 => ⟨S1x500000x2, .f32⟩
  | 42 => ⟨S3x500000x2, .f32⟩
  | 43 => ⟨S3x513x513x32, .f32⟩
  | 44 => ⟨S_, .f32⟩
  | 45 => ⟨S3x500000x2, .f32⟩
  | 46 => ⟨S3x500000x2, .f32⟩
  | 47 => ⟨S_, .f32⟩
  | 48 => ⟨S3x500000x2, .f32⟩
  | 49 => ⟨S3x500000x2, .f32⟩
  | 50 => ⟨S_, .f32⟩
  | 51 => ⟨S3x500000x2, .f32⟩
  | 52 => ⟨S3x500000x2, .f32⟩
  | 53 => ⟨S_, .f32⟩
  | 54 => ⟨S_, .i32⟩
  | 55 => ⟨S_, .f32⟩
  | 56 => ⟨S3x500000x2, .f32⟩
  | 57 => ⟨S3x500000x2, .f32⟩
  | 58 => ⟨S_, .f32⟩
  | 59 => ⟨S3x500000x2, .f32⟩
  | 60 => ⟨S3x500000x2, .f32⟩
  | 61 => ⟨S3x500000x1, .f32⟩
  | 62 => ⟨S3x500000, .f32⟩
  | 63 => ⟨S3x500000x1, .f32⟩
  | 64 => ⟨S3x500000, .f32⟩
  | 65 => ⟨S3x500000, .f32⟩
  | 66 => ⟨S3x500000, .f32⟩
  | 67 => ⟨S3x500000, .i32⟩
  | 68 => ⟨S3x500000, .i32⟩
  | 69 => ⟨S_, .i32⟩
  | 70 => ⟨S3x500000, .i32⟩
  | 71 => ⟨S3x500000, .i32⟩
  | 72 => ⟨S_, .i32⟩
  | 73 => ⟨S3x500000, .i32⟩
  | 74 => ⟨S3x500000, .i32⟩
  | 75 => ⟨S_, .i32⟩
  | 76 => ⟨S3x500000, .i32⟩
  | 77 => ⟨S3x500000, .i32⟩
  | 78 => ⟨S_, .i32⟩
  | 79 => ⟨S3x500000, .i32⟩
  | 80 => ⟨S3x500000, .i32⟩
  | 81 => ⟨S3x500000, .f32⟩
  | 82 => ⟨S3x500000x1, .f32⟩
  | 83 => ⟨S3x500000, .f32⟩
  | 84 => ⟨S3x500000x1, .f32⟩
  | 85 => ⟨S3x263169x32, .f32⟩
  | 86 => ⟨S_, .i32⟩
  | 87 => ⟨S3x500000, .i32⟩
  | 88 => ⟨S3x500000, .i32⟩
  | 89 => ⟨S3x500000, .i32⟩
  | 90 => ⟨S3x500000x1, .i32⟩
  | 91 => ⟨S3x500000x32, .f32⟩
  | 92 => ⟨S_, .i32⟩
  | 93 => ⟨S3x500000, .i32⟩
  | 94 => ⟨S3x500000, .i32⟩
  | 95 => ⟨S3x500000, .i32⟩
  | 96 => ⟨S3x500000x1, .i32⟩
  | 97 => ⟨S3x500000x32, .f32⟩
  | 98 => ⟨S_, .i32⟩
  | 99 => ⟨S3x500000, .i32⟩
  | 100 => ⟨S3x500000, .i32⟩
  | 101 => ⟨S3x500000, .i32⟩
  | 102 => ⟨S3x500000x1, .i32⟩
  | 103 => ⟨S3x500000x32, .f32⟩
  | 104 => ⟨S_, .i32⟩
  | 105 => ⟨S3x500000, .i32⟩
  | 106 => ⟨S3x500000, .i32⟩
  | 107 => ⟨S3x500000, .i32⟩
  | 108 => ⟨S3x500000x1, .i32⟩
  | 109 => ⟨S3x500000x32, .f32⟩
  | 110 => ⟨S_, .f32⟩
  | 111 => ⟨S3x500000x1, .f32⟩
  | 112 => ⟨S3x500000x1, .f32⟩
  | 113 => ⟨S3x500000x32, .f32⟩
  | 114 => ⟨S3x500000x32, .f32⟩
  | 115 => ⟨S3x500000x32, .f32⟩
  | 116 => ⟨S3x500000x32, .f32⟩
  | 117 => ⟨S3x500000x32, .f32⟩
  | 118 => ⟨S_, .f32⟩
  | 119 => ⟨S3x500000x1, .f32⟩
  | 120 => ⟨S3x500000x1, .f32⟩
  | 121 => ⟨S3x500000x32, .f32⟩
  | 122 => ⟨S3x500000x32, .f32⟩
  | 123 => ⟨S3x500000x32, .f32⟩
  | 124 => ⟨S3x500000x32, .f32⟩
  | 125 => ⟨S3x500000x32, .f32⟩
  | 126 => ⟨S_, .f32⟩
  | 127 => ⟨S3x500000x1, .f32⟩
  | _ => ⟨S500000x131, .f32⟩

abbrev hbmTy0_1 (i : Nat) : BufTy := match i % 128 with
  | 0 => ⟨S3x500000x1, .f32⟩
  | 1 => ⟨S3x500000x32, .f32⟩
  | 2 => ⟨S3x500000x32, .f32⟩
  | 3 => ⟨S3x500000x32, .f32⟩
  | 4 => ⟨S3x500000x32, .f32⟩
  | 5 => ⟨S3x500000x32, .f32⟩
  | 6 => ⟨S500000x3x32, .f32⟩
  | 7 => ⟨S500000x96, .f32⟩
  | 8 => ⟨S500000x131, .bf16⟩
  | 9 => ⟨S500000x96, .bf16⟩
  | 10 => ⟨S131x256, .f32⟩
  | 11 => ⟨S131x256, .bf16⟩
  | 12 => ⟨S96x256, .f32⟩
  | 13 => ⟨S96x256, .bf16⟩
  | 14 => ⟨S256x256, .bf16⟩
  | 15 => ⟨S1x256, .f32⟩
  | 16 => ⟨S1x256, .f32⟩
  | 17 => ⟨S1x256, .f32⟩
  | 18 => ⟨S1x1, .f32⟩
  | 19 => ⟨S500000x1, .f32⟩
  | 20 => ⟨S500000, .f32⟩
  | _ => ⟨S500000x131, .f32⟩

abbrev hbmTy (i : Nat) : BufTy := match i / 128 with
  | 0 => hbmTy0_0 i
  | 1 => hbmTy0_1 i
  | _ => ⟨S500000x131, .f32⟩

abbrev bufTy : (tb : Table) → Fin (tcTables nBuf tb) → BufTy
  | .hbm, ⟨i, _⟩ => hbmTy i
  | .local _ .vmem, ⟨0, _⟩ => ⟨S10000x131, .bf16⟩
  | .local _ .vmem, ⟨1, _⟩ => ⟨S10000x131, .bf16⟩
  | .local _ .vmem, ⟨2, _⟩ => ⟨S10000x96, .bf16⟩
  | .local _ .vmem, ⟨3, _⟩ => ⟨S10000x96, .bf16⟩
  | .local _ .vmem, ⟨4, _⟩ => ⟨S131x256, .bf16⟩
  | .local _ .vmem, ⟨5, _⟩ => ⟨S96x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S1x256, .f32⟩
  | .local _ .vmem, ⟨10, _⟩ => ⟨S1x1, .f32⟩
  | .local _ .vmem, ⟨11, _⟩ => ⟨S10000x1, .f32⟩
  | .local _ .vmem, ⟨12, _⟩ => ⟨S10000x1, .f32⟩
  | _, _ => ⟨S500000x131, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_c_2 : Ref sig .tc := ⟨.hbm, 12, rfl⟩
abbrev main_v1 : Ref sig .tc := ⟨.hbm, 13, rfl⟩
abbrev main_v2 : Ref sig .tc := ⟨.hbm, 14, rfl⟩
abbrev main_c_3 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_4 : Ref sig .tc := ⟨.hbm, 21, rfl⟩
abbrev main_v8 : Ref sig .tc := ⟨.hbm, 22, rfl⟩
abbrev main_v9 : Ref sig .tc := ⟨.hbm, 23, rfl⟩
abbrev main_c_5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_6 : Ref sig .tc := ⟨.hbm, 30, rfl⟩
abbrev main_v15 : Ref sig .tc := ⟨.hbm, 31, rfl⟩
abbrev main_v16 : Ref sig .tc := ⟨.hbm, 32, rfl⟩
abbrev main_c_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_c_11 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_c_15 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_16 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call1_v0 : Ref sig .tc := ⟨.hbm, 90, rfl⟩
abbrev main_v58 : Ref sig .tc := ⟨.hbm, 91, rfl⟩
abbrev main_c_17 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call2_v0 : Ref sig .tc := ⟨.hbm, 96, rfl⟩
abbrev main_v62 : Ref sig .tc := ⟨.hbm, 97, rfl⟩
abbrev main_c_18 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_v0 : Ref sig .tc := ⟨.hbm, 102, rfl⟩
abbrev main_v66 : Ref sig .tc := ⟨.hbm, 103, rfl⟩
abbrev main_c_19 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call4_v0 : Ref sig .tc := ⟨.hbm, 108, rfl⟩
abbrev main_v70 : Ref sig .tc := ⟨.hbm, 109, rfl⟩
abbrev main_cst_20 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_21 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_22 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x131 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S131x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S500000x131_S500000x3_0_128 : S500000x131.Slices ![0, 128] S500000x3
  bcast_S_S2 : S_.BroadcastsInDim S2 (![] : Fin 0 → Fin S2.rank)
  bcast_S2_S2x1_0 : S2.BroadcastsInDim S2x1 (![0] : Fin 1 → Fin S2x1.rank)
  bcast_S500000x2_S1x500000x2_1_2 : S500000x2.BroadcastsInDim S1x500000x2 (![1, 2] : Fin 2 → Fin S1x500000x2.rank)
  concatenates_S1x500000x2_S1x500000x2_S1x500000x2_S3x500000x2_d0 : Shape.Concatenates [S1x500000x2, S1x500000x2, S1x500000x2] S3x500000x2 0
  transposes_S3x32x513x513_S3x513x513x32_0_2_3_1 : S3x32x513x513.Transposes [0, 2, 3, 1] S3x513x513x32
  bcast_S_S3x500000x2 : S_.BroadcastsInDim S3x500000x2 (![] : Fin 0 → Fin S3x500000x2.rank)
  slices_S3x500000x2_S3x500000x1_0_0_0 : S3x500000x2.Slices ![0, 0, 0] S3x500000x1
  shapeCasts_S3x500000x1_S3x500000 : S3x500000x1.ShapeCasts S3x500000
  slices_S3x500000x2_S3x500000x1_0_0_1 : S3x500000x2.Slices ![0, 0, 1] S3x500000x1
  bcast_S_S3x500000 : S_.BroadcastsInDim S3x500000 (![] : Fin 0 → Fin S3x500000.rank)
  bcast_S3x500000_S3x500000x1_0_1 : S3x500000.BroadcastsInDim S3x500000x1 (![0, 1] : Fin 2 → Fin S3x500000x1.rank)
  shapeCasts_S3x513x513x32_S3x263169x32 : S3x513x513x32.ShapeCasts S3x263169x32
  bcast_S_S3x500000x1 : S_.BroadcastsInDim S3x500000x1 (![] : Fin 0 → Fin S3x500000x1.rank)
  bcast_S3x500000x1_S3x500000x32_0_1_2 : S3x500000x1.BroadcastsInDim S3x500000x32 (![0, 1, 2] : Fin 3 → Fin S3x500000x32.rank)
  transposes_S3x500000x32_S500000x3x32_1_0_2 : S3x500000x32.Transposes [1, 0, 2] S500000x3x32
  shapeCasts_S500000x3x32_S500000x96 : S500000x3x32.ShapeCasts S500000x96
  bitsLt_bf16_f32 : FTy.bits .bf16 < FTy.bits .f32
  slices_S227x256_S131x256_0_0 : S227x256.Slices ![0, 0] S131x256
  slices_S227x256_S96x256_131_0 : S227x256.Slices ![131, 0] S96x256
  shapeCasts_S256x1_S1x256 : S256x1.ShapeCasts S1x256
  shapeCasts_S256_S1x256 : S256.ShapeCasts S1x256
  shapeCasts_S1_S1x1 : S1.ShapeCasts S1x1
  inb_S10000x131_S10000x131_0_0 : ∀ a, (![0, 0] : Fin 2 → Nat) a + S10000x131.size a ≤ S10000x131.size a
  h_S10000x131 : 0 < S10000x131.numel
  shapeCasts_S10000x131_S10000x131 : S10000x131.ShapeCasts S10000x131
  inb_S10000x96_S10000x96_0_0 : ∀ a, (![0, 0] : Fin 2 → Nat) a + S10000x96.size a ≤ S10000x96.size a
  h_S10000x96 : 0 < S10000x96.numel
  shapeCasts_S10000x96_S10000x96 : S10000x96.ShapeCasts S10000x96
  inb_S131x256_S131x256_0_0 : ∀ a, (![0, 0] : Fin 2 → Nat) a + S131x256.size a ≤ S131x256.size a
  h_S131x256 : 0 < S131x256.numel
  shapeCasts_S131x256_S131x256 : S131x256.ShapeCasts S131x256
  inb_S96x256_S96x256_0_0 : ∀ a, (![0, 0] : Fin 2 → Nat) a + S96x256.size a ≤ S96x256.size a
  h_S96x256 : 0 < S96x256.numel
  shapeCasts_S96x256_S96x256 : S96x256.ShapeCasts S96x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S10000x256_S10000 : S10000x256.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  gather_S500000x3_S2x1_S500000x2_0_1_n_n_1_1_5000001_wf : GatherDims.WF S500000x3 S2x1 S500000x2 [0] [1] [] [1] [] 1 ![500000, 1]
  gather_S3x263169x32_S3x500000x1_S3x500000x32_2_1_0_0_1_2_1132_wf : GatherDims.WF S3x263169x32 S3x500000x1 S3x500000x32 [2] [1] [0] [1] [0] 2 ![1, 1, 32]
  dot_S10000x131_S131x256_S10000x256_1_0_0_1_n_n_wf : DotDims.WF S10000x131 S131x256 S10000x256 [1] [0] [0] [1] [] []
  dot_S10000x96_S96x256_S10000x256_1_0_0_1_n_n_wf : DotDims.WF S10000x96 S96x256 S10000x256 [1] [0] [0] [1] [] []
  dot_S10000x256_S256x256_S10000x256_1_0_0_1_n_n_wf : DotDims.WF S10000x256 S256x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x131.size a ≤ S500000x131.size a
  hwx0_0 : ∀ i : grid0.Coords, EltTy.bits .bf16 = 32 ∨ (Rect.block (s := S500000x131) S10000x131.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x96.size a ≤ S500000x96.size a
  hwx0_1 : ∀ i : grid0.Coords, EltTy.bits .bf16 = 32 ∨ (Rect.block (s := S500000x96) S10000x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S131x256.size a ≤ S131x256.size a
  hwx0_2 : ∀ i : grid0.Coords, EltTy.bits .bf16 = 32 ∨ (Rect.block (s := S131x256) S131x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x256.size a ≤ S96x256.size a
  hwx0_3 : ∀ i : grid0.Coords, EltTy.bits .bf16 = 32 ∨ (Rect.block (s := S96x256) S96x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x1.size a ≤ S500000x1.size a
  hwx0_9 : ∀ i : grid0.Coords, EltTy.bits .f32 = 32 ∨ (Rect.block (s := S500000x1) S10000x1.size (cc0_transform_9 i) (hinb0_9 i)).WholeWords (EltTy.packing .f32)

variable [Facts₀]

def gather_S500000x3_S2x1_S500000x2_0_1_n_n_1_1_5000001 : GatherDims S500000x3 S2x1 S500000x2 where
  offsetDims := [0]
  collapsedSliceDims := [1]
  operandBatchingDims := []
  startIndicesBatchingDims := []
  startIndexMap := [1]
  indexVectorDim := 1
  sliceSizes := ![500000, 1]
  wf := gather_S500000x3_S2x1_S500000x2_0_1_n_n_1_1_5000001_wf
def gather_S3x263169x32_S3x500000x1_S3x500000x32_2_1_0_0_1_2_1132 : GatherDims S3x263169x32 S3x500000x1 S3x500000x32 where
  offsetDims := [2]
  collapsedSliceDims := [1]
  operandBatchingDims := [0]
  startIndicesBatchingDims := [0]
  startIndexMap := [1]
  indexVectorDim := 2
  sliceSizes := ![1, 1, 32]
  wf := gather_S3x263169x32_S3x500000x1_S3x500000x32_2_1_0_0_1_2_1132_wf
def dot_S10000x131_S131x256_S10000x256_1_0_0_1_n_n : DotDims S10000x131 S131x256 S10000x256 where
  lhsContracting := [1]
  rhsContracting := [0]
  lhsNonContracting := [0]
  rhsNonContracting := [1]
  lhsBatch := []
  rhsBatch := []
  wf := dot_S10000x131_S131x256_S10000x256_1_0_0_1_n_n_wf
def dot_S10000x96_S96x256_S10000x256_1_0_0_1_n_n : DotDims S10000x96 S96x256 S10000x256 where
  lhsContracting := [1]
  rhsContracting := [0]
  lhsNonContracting := [0]
  rhsNonContracting := [1]
  lhsBatch := []
  rhsBatch := []
  wf := dot_S10000x96_S96x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

abbrev win0_0 : Pipeline.Window sig grid0 :=
  Pipeline.Window.ofSpec (Memref.whole main_v94) S10000x131.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v95) S10000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v97) S131x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v99) S96x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v102) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v100) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v103) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v101) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v104) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v105) S10000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x131 : Shape := ⟨2, ![500000, 131]⟩
abbrev S3x32x513x513 : Shape := ⟨4, ![3, 32, 513, 513]⟩
abbrev S227x256 : Shape := ⟨2, ![227, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2 : Shape := ⟨1, ![2]⟩
abbrev S500000x128 : Shape := ⟨2, ![500000, 128]⟩
abbrev S500000x3 : Shape := ⟨2, ![500000, 3]⟩
abbrev S_ : Shape := ⟨0, ![]⟩
abbrev S2x1 : Shape := ⟨2, ![2, 1]⟩
abbrev S500000x2 : Shape := ⟨2, ![500000, 2]⟩
abbrev S1x500000x2 : Shape := ⟨3, ![1, 500000, 2]⟩
abbrev S3x500000x2 : Shape := ⟨3, ![3, 500000, 2]⟩
abbrev S3x500000x1 : Shape := ⟨3, ![3, 500000, 1]⟩
abbrev S3x500000 : Shape := ⟨2, ![3, 500000]⟩
abbrev S3x32x500000 : Shape := ⟨3, ![3, 32, 500000]⟩
abbrev S3x1x500000 : Shape := ⟨3, ![3, 1, 500000]⟩
abbrev S3x500000x32 : Shape := ⟨3, ![3, 500000, 32]⟩
abbrev S500000x3x32 : Shape := ⟨3, ![500000, 3, 32]⟩
abbrev S500000x96 : Shape := ⟨2, ![500000, 96]⟩
abbrev S500000x227 : Shape := ⟨2, ![500000, 227]⟩
abbrev S500000x256 : Shape := ⟨2, ![500000, 256]⟩
abbrev S1x256 : Shape := ⟨2, ![1, 256]⟩
abbrev S500000x1 : Shape := ⟨2, ![500000, 1]⟩
abbrev S1x1 : Shape := ⟨2, ![1, 1]⟩
abbrev S500000 : Shape := ⟨1, ![500000]⟩

abbrev nBuf : Space → Nat
  | .hbm => 208
  | .vmem => 0
  | .smem => 0
  | _ => 0

abbrev hbmTy0_0 (i : Nat) : BufTy := match i % 128 with
  | 0 => ⟨S500000x131, .f32⟩
  | 1 => ⟨S3x32x513x513, .f32⟩
  | 2 => ⟨S227x256, .f32⟩
  | 3 => ⟨S256, .f32⟩
  | 4 => ⟨S256x256, .f32⟩
  | 5 => ⟨S256, .f32⟩
  | 6 => ⟨S256x1, .f32⟩
  | 7 => ⟨S1, .f32⟩
  | 8 => ⟨S2, .i32⟩
  | 9 => ⟨S2, .i32⟩
  | 10 => ⟨S2, .i32⟩
  | 11 => ⟨S500000x128, .f32⟩
  | 12 => ⟨S500000x3, .f32⟩
  | 13 => ⟨S_, .i32⟩
  | 14 => ⟨S2, .i32⟩
  | 15 => ⟨S2, .i1⟩
  | 16 => ⟨S_, .i32⟩
  | 17 => ⟨S2, .i32⟩
  | 18 => ⟨S2, .i32⟩
  | 19 => ⟨S2, .i32⟩
  | 20 => ⟨S2x1, .i32⟩
  | 21 => ⟨S500000x2, .f32⟩
  | 22 => ⟨S_, .i32⟩
  | 23 => ⟨S2, .i32⟩
  | 24 => ⟨S2, .i1⟩
  | 25 => ⟨S_, .i32⟩
  | 26 => ⟨S2, .i32⟩
  | 27 => ⟨S2, .i32⟩
  | 28 => ⟨S2, .i32⟩
  | 29 => ⟨S2x1, .i32⟩
  | 30 => ⟨S500000x2, .f32⟩
  | 31 => ⟨S_, .i32⟩
  | 32 => ⟨S2, .i32⟩
  | 33 => ⟨S2, .i1⟩
  | 34 => ⟨S_, .i32⟩
  | 35 => ⟨S2, .i32⟩
  | 36 => ⟨S2, .i32⟩
  | 37 => ⟨S2, .i32⟩
  | 38 => ⟨S2x1, .i32⟩
  | 39 => ⟨S500000x2, .f32⟩
  | 40 => ⟨S1x500000x2, .f32⟩
  | 41 => ⟨S1x500000x2, .f32⟩
  | 42 => ⟨S1x500000x2, .f32⟩
  | 43 => ⟨S3x500000x2, .f32⟩
  | 44 => ⟨S_, .f32⟩
  | 45 => ⟨S3x500000x2, .f32⟩
  | 46 => ⟨S3x500000x2, .f32⟩
  | 47 => ⟨S_, .f32⟩
  | 48 => ⟨S3x500000x2, .f32⟩
  | 49 => ⟨S3x500000x2, .f32⟩
  | 50 => ⟨S_, .f32⟩
  | 51 => ⟨S3x500000x2, .f32⟩
  | 52 => ⟨S3x500000x2, .f32⟩
  | 53 => ⟨S_, .f32⟩
  | 54 => ⟨S_, .i32⟩
  | 55 => ⟨S_, .f32⟩
  | 56 => ⟨S3x500000x2, .f32⟩
  | 57 => ⟨S3x500000x2, .f32⟩
  | 58 => ⟨S_, .f32⟩
  | 59 => ⟨S3x500000x2, .f32⟩
  | 60 => ⟨S3x500000x2, .f32⟩
  | 61 => ⟨S3x500000x1, .f32⟩
  | 62 => ⟨S3x500000, .f32⟩
  | 63 => ⟨S3x500000x1, .f32⟩
  | 64 => ⟨S3x500000, .f32⟩
  | 65 => ⟨S3x500000, .f32⟩
  | 66 => ⟨S3x500000, .f32⟩
  | 67 => ⟨S3x500000, .i32⟩
  | 68 => ⟨S3x500000, .i32⟩
  | 69 => ⟨S_, .i32⟩
  | 70 => ⟨S3x500000, .i32⟩
  | 71 => ⟨S3x500000, .i32⟩
  | 72 => ⟨S_, .i32⟩
  | 73 => ⟨S3x500000, .i32⟩
  | 74 => ⟨S3x500000, .i32⟩
  | 75 => ⟨S_, .i32⟩
  | 76 => ⟨S3x500000, .i32⟩
  | 77 => ⟨S3x500000, .i32⟩
  | 78 => ⟨S_, .i32⟩
  | 79 => ⟨S3x500000, .i32⟩
  | 80 => ⟨S3x500000, .i32⟩
  | 81 => ⟨S3x500000, .f32⟩
  | 82 => ⟨S3x500000, .f32⟩
  | 83 => ⟨S_, .i32⟩
  | 84 => ⟨S3x500000, .i32⟩
  | 85 => ⟨S3x500000, .i1⟩
  | 86 => ⟨S_, .i32⟩
  | 87 => ⟨S3x500000, .i32⟩
  | 88 => ⟨S3x500000, .i32⟩
  | 89 => ⟨S3x500000, .i32⟩
  | 90 => ⟨S_, .i32⟩
  | 91 => ⟨S3x500000, .i32⟩
  | 92 => ⟨S3x500000, .i1⟩
  | 93 => ⟨S_, .i32⟩
  | 94 => ⟨S3x500000, .i32⟩
  | 95 => ⟨S3x500000, .i32⟩
  | 96 => ⟨S3x500000, .i32⟩
  | 97 => ⟨S3x500000x1, .i32⟩
  | 98 => ⟨S3x500000x1, .i32⟩
  | 99 => ⟨S3x500000x2, .i32⟩
  | 100 => ⟨S3x32x500000, .f32⟩
  | 101 => ⟨S_, .i32⟩
  | 102 => ⟨S3x500000, .i32⟩
  | 103 => ⟨S3x500000, .i1⟩
  | 104 => ⟨S_, .i32⟩
  | 105 => ⟨S3x500000, .i32⟩
  | 106 => ⟨S3x500000, .i32⟩
  | 107 => ⟨S3x500000, .i32⟩
  | 108 => ⟨S_, .i32⟩
  | 109 => ⟨S3x500000, .i32⟩
  | 110 => ⟨S3x500000, .i1⟩
  | 111 => ⟨S_, .i32⟩
  | 112 => ⟨S3x500000, .i32⟩
  | 113 => ⟨S3x500000, .i32⟩
  | 114 => ⟨S3x500000, .i32⟩
  | 115 => ⟨S3x500000x1, .i32⟩
  | 116 => ⟨S3x500000x1, .i32⟩
  | 117 => ⟨S3x500000x2, .i32⟩
  | 118 => ⟨S3x32x500000, .f32⟩
  | 119 => ⟨S_, .i32⟩
  | 120 => ⟨S3x500000, .i32⟩
  | 121 => ⟨S3x500000, .i1⟩
  | 122 => ⟨S_, .i32⟩
  | 123 => ⟨S3x500000, .i32⟩
  | 124 => ⟨S3x500000, .i32⟩
  | 125 => ⟨S3x500000, .i32⟩
  | 126 => ⟨S_, .i32⟩
  | 127 => ⟨S3x500000, .i32⟩
  | _ => ⟨S500000x131, .f32⟩

abbrev hbmTy0_1 (i : Nat) : BufTy := match i % 128 with
  | 0 => ⟨S3x500000, .i1⟩
  | 1 => ⟨S_, .i32⟩
  | 2 => ⟨S3x500000, .i32⟩
  | 3 => ⟨S3x500000, .i32⟩
  | 4 => ⟨S3x500000, .i32⟩
  | 5 => ⟨S3x500000x1, .i32⟩
  | 6 => ⟨S3x500000x1, .i32⟩
  | 7 => ⟨S3x500000x2, .i32⟩
  | 8 => ⟨S3x32x500000, .f32⟩
  | 9 => ⟨S_, .i32⟩
  | 10 => ⟨S3x500000, .i32⟩
  | 11 => ⟨S3x500000, .i1⟩
  | 12 => ⟨S_, .i32⟩
  | 13 => ⟨S3x500000, .i32⟩
  | 14 => ⟨S3x500000, .i32⟩
  | 15 => ⟨S3x500000, .i32⟩
  | 16 => ⟨S_, .i32⟩
  | 17 => ⟨S3x500000, .i32⟩
  | 18 => ⟨S3x500000, .i1⟩
  | 19 => ⟨S_, .i32⟩
  | 20 => ⟨S3x500000, .i32⟩
  | 21 => ⟨S3x500000, .i32⟩
  | 22 => ⟨S3x500000, .i32⟩
  | 23 => ⟨S3x500000x1, .i32⟩
  | 24 => ⟨S3x500000x1, .i32⟩
  | 25 => ⟨S3x500000x2, .i32⟩
  | 26 => ⟨S3x32x500000, .f32⟩
  | 27 => ⟨S_, .f32⟩
  | 28 => ⟨S3x500000, .f32⟩
  | 29 => ⟨S3x500000, .f32⟩
  | 30 => ⟨S3x1x500000, .f32⟩
  | 31 => ⟨S3x32x500000, .f32⟩
  | 32 => ⟨S3x32x500000, .f32⟩
  | 33 => ⟨S3x1x500000, .f32⟩
  | 34 => ⟨S3x32x500000, .f32⟩
  | 35 => ⟨S3x32x500000, .f32⟩
  | 36 => ⟨S3x32x500000, .f32⟩
  | 37 => ⟨S_, .f32⟩
  | 38 => ⟨S3x500000, .f32⟩
  | 39 => ⟨S3x500000, .f32⟩
  | 40 => ⟨S3x1x500000, .f32⟩
  | 41 => ⟨S3x32x500000, .f32⟩
  | 42 => ⟨S3x32x500000, .f32⟩
  | 43 => ⟨S3x1x500000, .f32⟩
  | 44 => ⟨S3x32x500000, .f32⟩
  | 45 => ⟨S3x32x500000, .f32⟩
  | 46 => ⟨S3x32x500000, .f32⟩
  | 47 => ⟨S_, .f32⟩
  | 48 => ⟨S3x500000, .f32⟩
  | 49 => ⟨S3x500000, .f32⟩
  | 50 => ⟨S3x1x500000, .f32⟩
  | 51 => ⟨S3x32x500000, .f32⟩
  | 52 => ⟨S3x32x500000, .f32⟩
  | 53 => ⟨S3x1x500000, .f32⟩
  | 54 => ⟨S3x32x500000, .f32⟩
  | 55 => ⟨S3x32x500000, .f32⟩
  | 56 => ⟨S3x32x500000, .f32⟩
  | 57 => ⟨S3x500000x32, .f32⟩
  | 58 => ⟨S500000x3x32, .f32⟩
  | 59 => ⟨S500000x96, .f32⟩
  | 60 => ⟨S500000x227, .f32⟩
  | 61 => ⟨S500000x256, .f32⟩
  | 62 => ⟨S1x256, .f32⟩
  | 63 => ⟨S500000x256, .f32⟩
  | 64 => ⟨S500000x256, .f32⟩
  | 65 => ⟨S_, .f32⟩
  | 66 => ⟨S500000x256, .f32⟩
  | 67 => ⟨S500000x256, .f32⟩
  | 68 => ⟨S500000x256, .f32⟩
  | 69 => ⟨S1x256, .f32⟩
  | 70 => ⟨S500000x256, .f32⟩
  | 71 => ⟨S500000x256, .f32⟩
  | 72 => ⟨S_, .f32⟩
  | 73 => ⟨S500000x256, .f32⟩
  | 74 => ⟨S500000x256, .f32⟩
  | 75 => ⟨S500000x1, .f32⟩
  | 76 => ⟨S1x1, .f32⟩
  | 77 => ⟨S500000x1, .f32⟩
  | 78 => ⟨S500000x1, .f32⟩
  | 79 => ⟨S500000, .f32⟩
  | _ => ⟨S500000x131, .f32⟩

abbrev hbmTy (i : Nat) : BufTy := match i / 128 with
  | 0 => hbmTy0_0 i
  | 1 => hbmTy0_1 i
  | _ => ⟨S500000x131, .f32⟩

abbrev bufTy : (tb : Table) → Fin (tcTables nBuf tb) → BufTy
  | .hbm, ⟨i, _⟩ => hbmTy i
  | _, _ => ⟨S500000x131, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_v0 : Ref sig .tc := ⟨.hbm, 11, rfl⟩
abbrev main_v1 : Ref sig .tc := ⟨.hbm, 12, rfl⟩
abbrev main_c_2 : Ref sig .tc := ⟨.hbm, 13, rfl⟩
abbrev main_v2 : Ref sig .tc := ⟨.hbm, 14, rfl⟩
abbrev main_v3 : Ref sig .tc := ⟨.hbm, 15, rfl⟩
abbrev main_c_3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_4 : Ref sig .tc := ⟨.hbm, 22, rfl⟩
abbrev main_v9 : Ref sig .tc := ⟨.hbm, 23, rfl⟩
abbrev main_v10 : Ref sig .tc := ⟨.hbm, 24, rfl⟩
abbrev main_c_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_c_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_c_11 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_c_15 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_16 : Ref sig .tc := ⟨.hbm, 83, rfl⟩
abbrev main_v52 : Ref sig .tc := ⟨.hbm, 84, rfl⟩
abbrev main_v53 : Ref sig .tc := ⟨.hbm, 85, rfl⟩
abbrev main_c_17 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_18 : Ref sig .tc := ⟨.hbm, 90, rfl⟩
abbrev main_v57 : Ref sig .tc := ⟨.hbm, 91, rfl⟩
abbrev main_v58 : Ref sig .tc := ⟨.hbm, 92, rfl⟩
abbrev main_c_19 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_20 : Ref sig .tc := ⟨.hbm, 101, rfl⟩
abbrev main_v66 : Ref sig .tc := ⟨.hbm, 102, rfl⟩
abbrev main_v67 : Ref sig .tc := ⟨.hbm, 103, rfl⟩
abbrev main_c_21 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_22 : Ref sig .tc := ⟨.hbm, 108, rfl⟩
abbrev main_v71 : Ref sig .tc := ⟨.hbm, 109, rfl⟩
abbrev main_v72 : Ref sig .tc := ⟨.hbm, 110, rfl⟩
abbrev main_c_23 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_24 : Ref sig .tc := ⟨.hbm, 119, rfl⟩
abbrev main_v80 : Ref sig .tc := ⟨.hbm, 120, rfl⟩
abbrev main_v81 : Ref sig .tc := ⟨.hbm, 121, rfl⟩
abbrev main_c_25 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_26 : Ref sig .tc := ⟨.hbm, 126, rfl⟩
abbrev main_v85 : Ref sig .tc := ⟨.hbm, 127, rfl⟩
abbrev main_v86 : Ref sig .tc := ⟨.hbm, 128, rfl⟩
abbrev main_c_27 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_28 : Ref sig .tc := ⟨.hbm, 137, rfl⟩
abbrev main_v94 : Ref sig .tc := ⟨.hbm, 138, rfl⟩
abbrev main_v95 : Ref sig .tc := ⟨.hbm, 139, rfl⟩
abbrev main_c_29 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_30 : Ref sig .tc := ⟨.hbm, 144, rfl⟩
abbrev main_v99 : Ref sig .tc := ⟨.hbm, 145, rfl⟩
abbrev main_v100 : Ref sig .tc := ⟨.hbm, 146, rfl⟩
abbrev main_c_31 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_32 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_33 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_34 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_call1_cst : Ref sig .tc := ⟨.hbm, 193, rfl⟩
abbrev main_call1_v0 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_call2_cst : Ref sig .tc := ⟨.hbm, 200, rfl⟩
abbrev main_call2_v0 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩

abbrev nD : Nat := 1
abbrev τ : Topo := Topo.v7x

variable {F : FTy → Type} [FloatOps F]

class Facts₀ : Prop where
  slices_S500000x131_S500000x128_0_0 : S500000x131.Slices ![0, 0] S500000x128
  slices_S500000x131_S500000x3_0_128 : S500000x131.Slices ![0, 128] S500000x3
  bcast_S_S2 : S_.BroadcastsInDim S2 (![] : Fin 0 → Fin S2.rank)
  bcast_S2_S2x1_0 : S2.BroadcastsInDim S2x1 (![0] : Fin 1 → Fin S2x1.rank)
  bcast_S500000x2_S1x500000x2_1_2 : S500000x2.BroadcastsInDim S1x500000x2 (![1, 2] : Fin 2 → Fin S1x500000x2.rank)
  concatenates_S1x500000x2_S1x500000x2_S1x500000x2_S3x500000x2_d0 : Shape.Concatenates [S1x500000x2, S1x500000x2, S1x500000x2] S3x500000x2 0
  bcast_S_S3x500000x2 : S_.BroadcastsInDim S3x500000x2 (![] : Fin 0 → Fin S3x500000x2.rank)
  slices_S3x500000x2_S3x500000x1_0_0_0 : S3x500000x2.Slices ![0, 0, 0] S3x500000x1
  shapeCasts_S3x500000x1_S3x500000 : S3x500000x1.ShapeCasts S3x500000
  slices_S3x500000x2_S3x500000x1_0_0_1 : S3x500000x2.Slices ![0, 0, 1] S3x500000x1
  bcast_S_S3x500000 : S_.BroadcastsInDim S3x500000 (![] : Fin 0 → Fin S3x500000.rank)
  bcast_S3x500000_S3x500000x1_0_1 : S3x500000.BroadcastsInDim S3x500000x1 (![0, 1] : Fin 2 → Fin S3x500000x1.rank)
  concatenates_S3x500000x1_S3x500000x1_S3x500000x2_d2 : Shape.Concatenates [S3x500000x1, S3x500000x1] S3x500000x2 2
  bcast_S3x500000_S3x1x500000_0_2 : S3x500000.BroadcastsInDim S3x1x500000 (![0, 2] : Fin 2 → Fin S3x1x500000.rank)
  bcast_S3x1x500000_S3x32x500000_0_1_2 : S3x1x500000.BroadcastsInDim S3x32x500000 (![0, 1, 2] : Fin 3 → Fin S3x32x500000.rank)
  transposes_S3x32x500000_S3x500000x32_0_2_1 : S3x32x500000.Transposes [0, 2, 1] S3x500000x32
  transposes_S3x500000x32_S500000x3x32_1_0_2 : S3x500000x32.Transposes [1, 0, 2] S500000x3x32
  shapeCasts_S500000x3x32_S500000x96 : S500000x3x32.ShapeCasts S500000x96
  concatenates_S500000x128_S500000x3_S500000x96_S500000x227_d1 : Shape.Concatenates [S500000x128, S500000x3, S500000x96] S500000x227 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S500000x3_S2x1_S500000x2_0_1_n_n_1_1_5000001_wf : GatherDims.WF S500000x3 S2x1 S500000x2 [0] [1] [] [1] [] 1 ![500000, 1]
  gather_S3x32x513x513_S3x500000x2_S3x32x500000_1_23_0_0_23_2_13211_wf : GatherDims.WF S3x32x513x513 S3x500000x2 S3x32x500000 [1] [2, 3] [0] [2, 3] [0] 2 ![1, 32, 1, 1]
  dot_S500000x227_S227x256_S500000x256_1_0_0_1_n_n_wf : DotDims.WF S500000x227 S227x256 S500000x256 [1] [0] [0] [1] [] []
  dot_S500000x256_S256x256_S500000x256_1_0_0_1_n_n_wf : DotDims.WF S500000x256 S256x256 S500000x256 [1] [0] [0] [1] [] []
  dot_S500000x256_S256x1_S500000x1_1_0_0_1_n_n_wf : DotDims.WF S500000x256 S256x1 S500000x1 [1] [0] [0] [1] [] []

variable [Facts₀]

def gather_S500000x3_S2x1_S500000x2_0_1_n_n_1_1_5000001 : GatherDims S500000x3 S2x1 S500000x2 where
  offsetDims := [0]
  collapsedSliceDims := [1]
  operandBatchingDims := []
  startIndicesBatchingDims := []
  startIndexMap := [1]
  indexVectorDim := 1
  sliceSizes := ![500000, 1]
  wf := gather_S500000x3_S2x1_S500000x2_0_1_n_n_1_1_5000001_wf
def gather_S3x32x513x513_S3x500000x2_S3x32x500000_1_23_0_0_23_2_13211 : GatherDims S3x32x513x513 S3x500000x2 S3x32x500000 where
  offsetDims := [1]
  collapsedSliceDims := [2, 3]
  operandBatchingDims := [0]
  startIndicesBatchingDims := [0]
  startIndexMap := [2, 3]
  indexVectorDim := 2
  sliceSizes := ![1, 32, 1, 1]
  wf := gather_S3x32x513x513_S3x500000x2_S3x32x500000_1_23_0_0_23_2_13211_wf
def dot_S500000x227_S227x256_S500000x256_1_0_0_1_n_n : DotDims S500000x227 S227x256 S500000x256 where
  lhsContracting := [1]
  rhsContracting := [0]
  lhsNonContracting := [0]
  rhsNonContracting := [1]
  lhsBatch := []
  rhsBatch := []
  wf := dot_S500000x227_S227x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.FrameBitsData.lean ====
/- THE FRAME RUN, part 1 (data): the buffer contents the region is entered with (the launch memory after the host
   operations before it), each window's block at a grid point, the rectangles the body reads and writes, what the
   body leaves in the output block, and the pipeline's proof data. Generic in the float instance. -/
import proofs.«108793_j65506841199156_2_alg».proof.Proof.Gen.Kernel.Launch
import proofs.«108793_j65506841199156_2_alg».proof.Proof.Gen.Kernel.Skeleton
import proofs.«108793_j65506841199156_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The eleven stretches of host operations that run before the region, in order: the grid coordinates taken from
    the last three feature columns, concatenated and scaled; their clip; floors, fractions and the first corner's
    index; then the four corner gathers, each behind its index broadcast, with the next corner's index arithmetic
    between them; last the bilinear blend and the casts, slices and reshapes of the region's operands. -/
abbrev hostBefore : List (List (HloOp τ sig (Elt F))) :=
  [hostOps0, hostOps0_1, hostOps0_2, hostOps0_3, hostOps0_4, hostOps0_5, hostOps0_6, hostOps0_7, hostOps0_8, hostOps0_9, hostOps0_10]

/-- Core `c`'s buffer contents when the region is entered, as a valuation: the launch memory after the host
    operations before the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every staging buffer is read or written whole -/

/-- The whole 10000×131 block of feature rows. -/
abbrev rectX : Rect S10000x131 := Rect.unit (s := S10000x131) ![0, 0] S10000x131.size inb_S10000x131_S10000x131_0_0
/-- The whole 10000×96 block of interpolated embedding rows. -/
abbrev rectE : Rect S10000x96 := Rect.unit (s := S10000x96) ![0, 0] S10000x96.size inb_S10000x96_S10000x96_0_0
/-- The whole 131×256 first-layer weight (feature part). -/
abbrev rectW0x : Rect S131x256 := Rect.unit (s := S131x256) ![0, 0] S131x256.size inb_S131x256_S131x256_0_0
/-- The whole 96×256 first-layer weight (embedding part). -/
abbrev rectW0e : Rect S96x256 := Rect.unit (s := S96x256) ![0, 0] S96x256.size inb_S96x256_S96x256_0_0
/-- A whole 1×256 row: the two hidden biases and the output weight laid as a row. -/
abbrev rectRow : Rect S1x256 := Rect.unit (s := S1x256) ![0, 0] S1x256.size inb_S1x256_S1x256_0_0
/-- The whole 256×256 second-layer weight. -/
abbrev rectW1 : Rect S256x256 := Rect.unit (s := S256x256) ![0, 0] S256x256.size inb_S256x256_S256x256_0_0
/-- The 1×1 output bias. -/
abbrev rectB2 : Rect S1x1 := Rect.unit (s := S1x1) ![0, 0] S1x1.size inb_S1x1_S1x1_0_0
/-- The whole 10000×1 block of output rows. -/
abbrev rectOut : Rect S10000x1 := Rect.unit (s := S10000x1) ![0, 0] S10000x1.size inb_S10000x1_S10000x1_0_0

/-! ## What the body leaves in the output window's buffer -/

/-- The output block after the body, from the nine input blocks: its one whole store, whose value is the
    two-hidden-layer perceptron of the rows (the skeleton's payloads) — first layer over the feature and embedding
    blocks with bias `x4`, second layer `x5` with bias `x6`, the output row `x7` reduced along the hidden
    axis, plus the output bias `x8`. -/
def outBlock (x0 : Vec F S10000x131 .bf16) (x1 : Vec F S10000x96 .bf16) (x2 : Vec F S131x256 .bf16) (x3 : Vec F S96x256 .bf16)
    (x4 : Vec F S1x256 .f32) (x5 : Vec F S256x256 .bf16) (x6 : Vec F S1x256 .f32) (x7 : Vec F S1x256 .f32) (x8 : Vec F S1x1 .f32) :
    Vec F S10000x1 .f32 :=
  View.canon [⟨rectOut, k0_pay1
    (k0_pay2 (View.ld x0 rectX) (View.ld x1 rectE) (View.ld x2 rectW0x) (View.ld x3 rectW0e) (View.ld x4 rectRow)
      (View.ld x5 rectW1) (View.ld x6 rectRow) (View.ld x7 rectRow))
    (k0_pay3 (View.ld x8 rectB2))⟩]

/-! ## The pipeline's proof data -/

/-- The proof data of the one pipeline on core `c`: the arrays as the region finds them; after the body at point
    `t` each input's buffer still at its block and the output's at `outBlock` of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t)
        (iblk m c 6 t) (iblk m c 7 t) (iblk m c 8 t)
  Φ _ := Pipeline.ΦA spec0 c
  q _ := fullShare
  owed _ := 0

/-- The proof data's arrays are the region-entry contents (the definition projected; the fold over the host prefix
    is never unfolded). -/
theorem A_eq (c : Dev nD) (w : Fin cfg0.W) : (dats m 0 c).A w = V m c (Pipeline.arrRef spec0 w) := by
  dsimp only [dats]

/-- What the body leaves, window by window: every input block in place, -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
/-- and the output block at the perceptron of the input blocks. -/
theorem after_out (c : Dev nD) (t : Fin cfg0.N) : (dats m 0 c).after 9 t
    = outBlock (iblk m c 0 t) (iblk m c 1 t) (iblk m c 2 t) (iblk m c 3 t) (iblk m c 4 t) (iblk m c 5 t)
        (iblk m c 6 t) (iblk m c 7 t) (iblk m c 8 t) := by dsimp only [dats]

end Cert.Kernel.Fr

end
-- ==== Proof.FrameBitsHost.lean ====
/- THE FRAME RUN, part 2 (the host program around the region): @main is the host operations before the region, the
   region, and one reshape after it; no host operation allocates or writes an argument array; each input window's
   staging buffer holds its block at every grid point; and the frame claim's post follows from the frame run's. -/
import proofs.«108793_j65506841199156_2_alg».proof.Proof.Gen.Kernel.Launch
import proofs.«108793_j65506841199156_2_alg».proof.Proof.Gen.Kernel.Skeleton
import proofs.«108793_j65506841199156_2_alg».proof.Proof.Gen.Kernel.Points
import proofs.«108793_j65506841199156_2_alg».proof.Proof.FrameBitsData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the eleven stretches of host operations before it, the region, the one reshape after
    it; it reduces to the region continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostBefore [hostOps1]
    (by simp only [hostBefore, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [hostBefore, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The reshape after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its result is the flattened output, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays: no host operation writes one -/

/-- The eight argument arrays of @main. -/
abbrev argRefs : List (Ref sig .tc) := [main_arg0, main_arg1, main_arg2, main_arg3, main_arg4, main_arg5, main_arg6, main_arg7]

/-- No host operation before the region writes an argument array (each writes its own result buffer, a
    different reference): the region finds every argument as launched. -/
theorem V_arg (c : Dev nD) (r : Ref sig .tc) (hr : r ∈ argRefs) : V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne ((by decide : ∀ r ∈ argRefs, r ≠ _) r hr)))

/-- Nor does the reshape after it, and no argument is an array of the pipeline: every argument ends as launched. -/
theorem W_arg (dats : (p : Fin _) → (c : Dev nD) → Dat τ (Elt F) Unit ℕ (UR sig nD τ) ℕ (cfgs p) c) (c : Dev nD)
    (r : Ref sig .tc) (hr : r ∈ argRefs) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne ((by decide : ∀ r ∈ argRefs, r ≠ _) r hr))),
    Pipeline.withArrays_of_ne _ c (V0 m c) _ r (fun w => (by decide : ∀ r ∈ argRefs, ∀ w, Pipeline.arrRef spec0 w ≠ r) r hr w)]
  exact V_arg m c r hr

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)
theorem V_main_arg5 (c : Dev nD) : V m c main_arg5 = m ((c : Thread nD τ).loc main_arg5) := V_arg m c main_arg5 (by decide)
theorem V_main_arg6 (c : Dev nD) : V m c main_arg6 = m ((c : Thread nD τ).loc main_arg6) := V_arg m c main_arg6 (by decide)
theorem V_main_arg7 (c : Dev nD) : V m c main_arg7 = m ((c : Thread nD τ).loc main_arg7) := V_arg m c main_arg7 (by decide)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_arg m dats c main_arg0 (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c main_arg1 (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c main_arg2 (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c main_arg3 (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c main_arg4 (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := W_arg m dats c main_arg5 (by decide)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := W_arg m dats c main_arg6 (by decide)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := W_arg m dats c main_arg7 (by decide)

/-! ## What the body finds in each input window's buffer -/

/-- Input window 0's current staging buffer holds its block at every point, fetched there or not (unfetched, the
    block index has not moved), for any proof data whose array is the region-entry contents and whose body leaves
    the block in place; the window is uncut and never idle. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is the region-entry contents and whose body leaves
    the block in place; the window is uncut and never idle. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is the region-entry contents and whose body leaves
    the block in place; the window is uncut and never idle. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is the region-entry contents and whose body leaves
    the block in place; the window is uncut and never idle. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is the region-entry contents and whose body leaves
    the block in place; the window is uncut and never idle. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is the region-entry contents and whose body leaves
    the block in place; the window is uncut and never idle. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data whose array is the region-entry contents and whose body leaves
    the block in place; the window is uncut and never idle. -/
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data whose array is the region-entry contents and whose body leaves
    the block in place; the window is uncut and never idle. -/
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data whose array is the region-entry contents and whose body leaves
    the block in place; the window is uncut and never idle. -/
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument array is staged by a window, so the run's post gives each at what the
    reshape after the region leaves, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

end Cert.Kernel.Fr

end
-- ==== Proof.FrameBitsBody.lean ====
/- THE FRAME RUN, part 3 (the kernel body): the body's one store covers the output block, and the body's triple on
   whole staging buffers: inputs kept, the output block left at the perceptron of the input blocks. -/
import proofs.«108793_j65506841199156_2_alg».proof.Proof.Gen.Kernel.Launch
import proofs.«108793_j65506841199156_2_alg».proof.Proof.Gen.Kernel.Skeleton
import proofs.«108793_j65506841199156_2_alg».proof.Proof.Gen.Kernel.Points
import proofs.«108793_j65506841199156_2_alg».proof.Proof.FrameBitsData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one store covers the output block -/

/-- The body's single store is through the whole-block rectangle, so it covers the output block. -/
theorem cover_out (p : Vec F S10000x1 .f32) (y : S10000x1.Idx) :
    ∃ pc ∈ ([⟨rectOut, p⟩] : List (View.Piece (Elt F) S10000x1 .f32)), y ∈ pc.1.set :=
  View.cover_of_tiled [⟨rectOut, p⟩] S10000x1.size (by rfl) y

/-! ## The body's triple -/

set_option maxHeartbeats 1000000 in
/-- The kernel body on whole staging memrefs — the nine inputs' at read contents `x0 … x8`, the output's at
    anything — runs to the continuation holding the inputs' as they were and the output's at `outBlock` of the
    inputs'. The body loads each input once and whole, loads the output buffer once (the value is not used), and
    stores the output block whole. -/
theorem sound_kernel (c : Dev nD) (E : Set ℕ) (i : grid0.Coords) (arg1 : Memref sig .tc .vmem S10000x131 .bf16) (harg1 : arg1.IsWhole) (arg2 : Memref sig .tc .vmem S10000x96 .bf16) (harg2 : arg2.IsWhole) (arg3 : Memref sig .tc .vmem S131x256 .bf16) (harg3 : arg3.IsWhole) (arg4 : Memref sig .tc .vmem S96x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S10000x1 .f32) (harg10 : arg10.IsWhole)
    (x0 : Vec F S10000x131 .bf16) (x1 : Vec F S10000x96 .bf16) (x2 : Vec F S131x256 .bf16) (x3 : Vec F S96x256 .bf16) (x4 : Vec F S1x256 .f32) (x5 : Vec F S256x256 .bf16) (x6 : Vec F S1x256 .f32) (x7 : Vec F S1x256 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

end Cert.Kernel.Fr

end
-- ==== Proof.FrameBits.lean ====
/- THE FRAME RUN, part 4: the body obligation at every grid point, the run of @main around its one region, and the
   frame — the program terminates without fault and leaves its argument arrays unchanged. Generic in the float
   instance. -/
import proofs.«108793_j65506841199156_2_alg».proof.Proof.Gen.Kernel.Launch
import proofs.«108793_j65506841199156_2_alg».proof.Proof.Gen.Kernel.Skeleton
import proofs.«108793_j65506841199156_2_alg».proof.Proof.Gen.Kernel.Points
import proofs.«108793_j65506841199156_2_alg».proof.Proof.FrameBitsHost
import proofs.«108793_j65506841199156_2_alg».proof.Proof.FrameBitsBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds, at the proof data -/

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d

/-! ## The body obligation, at a generic grid point -/

/-- What the body is called with at point `t`: the invariant, the core's debts, and the ten current staging
    buffers, each owned whole at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- And what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' staging buffers hold their blocks, so the body's triple applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main on the TensorCores
    terminates, and every final state has every array of the pipeline at what the library computes from the proof
    data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Fr

end
-- ==== Proof.FrameIdealData.lean ====
/- THE FRAME RUN, part 1 (data): the buffer contents the region is entered with (the launch memory after the host
   operations before it), each window's block at a grid point, the rectangles the body reads and writes, what the
   body leaves in the output block, and the pipeline's proof data. Generic in the float instance. -/
import proofs.«108793_j65506841199156_2_alg».proof.Proof.Gen.KernelIdeal.Launch
import proofs.«108793_j65506841199156_2_alg».proof.Proof.Gen.KernelIdeal.Skeleton
import proofs.«108793_j65506841199156_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The eleven stretches of host operations that run before the region, in order: the grid coordinates taken from
    the last three feature columns, concatenated and scaled; their clip; floors, fractions and the first corner's
    index; then the four corner gathers, each behind its index broadcast, with the next corner's index arithmetic
    between them; last the bilinear blend and the casts, slices and reshapes of the region's operands. -/
abbrev hostBefore : List (List (HloOp τ sig (Elt F))) :=
  [hostOps0, hostOps0_1, hostOps0_2, hostOps0_3, hostOps0_4, hostOps0_5, hostOps0_6, hostOps0_7, hostOps0_8, hostOps0_9, hostOps0_10]

/-- Core `c`'s buffer contents when the region is entered, as a valuation: the launch memory after the host
    operations before the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10]) (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every staging buffer is read or written whole -/

/-- The whole 10000×131 block of feature rows. -/
abbrev rectX : Rect S10000x131 := Rect.unit (s := S10000x131) ![0, 0] S10000x131.size inb_S10000x131_S10000x131_0_0
/-- The whole 10000×96 block of interpolated embedding rows. -/
abbrev rectE : Rect S10000x96 := Rect.unit (s := S10000x96) ![0, 0] S10000x96.size inb_S10000x96_S10000x96_0_0
/-- The whole 131×256 first-layer weight (feature part). -/
abbrev rectW0x : Rect S131x256 := Rect.unit (s := S131x256) ![0, 0] S131x256.size inb_S131x256_S131x256_0_0
/-- The whole 96×256 first-layer weight (embedding part). -/
abbrev rectW0e : Rect S96x256 := Rect.unit (s := S96x256) ![0, 0] S96x256.size inb_S96x256_S96x256_0_0
/-- A whole 1×256 row: the two hidden biases and the output weight laid as a row. -/
abbrev rectRow : Rect S1x256 := Rect.unit (s := S1x256) ![0, 0] S1x256.size inb_S1x256_S1x256_0_0
/-- The whole 256×256 second-layer weight. -/
abbrev rectW1 : Rect S256x256 := Rect.unit (s := S256x256) ![0, 0] S256x256.size inb_S256x256_S256x256_0_0
/-- The 1×1 output bias. -/
abbrev rectB2 : Rect S1x1 := Rect.unit (s := S1x1) ![0, 0] S1x1.size inb_S1x1_S1x1_0_0
/-- The whole 10000×1 block of output rows. -/
abbrev rectOut : Rect S10000x1 := Rect.unit (s := S10000x1) ![0, 0] S10000x1.size inb_S10000x1_S10000x1_0_0

/-! ## What the body leaves in the output window's buffer -/

/-- The output block after the body, from the nine input blocks: its one whole store, whose value is the
    two-hidden-layer perceptron of the rows (the skeleton's payloads) — first layer over the feature and embedding
    blocks with bias `x4`, second layer `x5` with bias `x6`, the output row `x7` reduced along the hidden
    axis, plus the output bias `x8`. -/
def outBlock (x0 : Vec F S10000x131 .bf16) (x1 : Vec F S10000x96 .bf16) (x2 : Vec F S131x256 .bf16) (x3 : Vec F S96x256 .bf16)
    (x4 : Vec F S1x256 .f32) (x5 : Vec F S256x256 .bf16) (x6 : Vec F S1x256 .f32) (x7 : Vec F S1x256 .f32) (x8 : Vec F S1x1 .f32) :
    Vec F S10000x1 .f32 :=
  View.canon [⟨rectOut, k0_pay1
    (k0_pay2 (View.ld x0 rectX) (View.ld x1 rectE) (View.ld x2 rectW0x) (View.ld x3 rectW0e) (View.ld x4 rectRow)
      (View.ld x5 rectW1) (View.ld x6 rectRow) (View.ld x7 rectRow))
    (k0_pay3 (View.ld x8 rectB2))⟩]

/-! ## The pipeline's proof data -/

/-- The proof data of the one pipeline on core `c`: the arrays as the region finds them; after the body at point
    `t` each input's buffer still at its block and the output's at `outBlock` of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t)
        (iblk m c 6 t) (iblk m c 7 t) (iblk m c 8 t)
  Φ _ := Pipeline.ΦA spec0 c
  q _ := fullShare
  owed _ := 0

/-- The proof data's arrays are the region-entry contents (the definition projected; the fold over the host prefix
    is never unfolded). -/
theorem A_eq (c : Dev nD) (w : Fin cfg0.W) : (dats m 0 c).A w = V m c (Pipeline.arrRef spec0 w) := by
  dsimp only [dats]

/-- What the body leaves, window by window: every input block in place, -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
/-- and the output block at the perceptron of the input blocks. -/
theorem after_out (c : Dev nD) (t : Fin cfg0.N) : (dats m 0 c).after 9 t
    = outBlock (iblk m c 0 t) (iblk m c 1 t) (iblk m c 2 t) (iblk m c 3 t) (iblk m c 4 t) (iblk m c 5 t)
        (iblk m c 6 t) (iblk m c 7 t) (iblk m c 8 t) := by dsimp only [dats]

end Cert.KernelIdeal.Fr

end
-- ==== Proof.FrameIdealHost.lean ====
/- THE FRAME RUN, part 2 (the host program around the region): @main is the host operations before the region, the
   region, and one reshape after it; no host operation allocates or writes an argument array; each input window's
   staging buffer holds its block at every grid point; and the frame claim's post follows from the frame run's. -/
import proofs.«108793_j65506841199156_2_alg».proof.Proof.Gen.KernelIdeal.Launch
import proofs.«108793_j65506841199156_2_alg».proof.Proof.Gen.KernelIdeal.Skeleton
import proofs.«108793_j65506841199156_2_alg».proof.Proof.Gen.KernelIdeal.Points
import proofs.«108793_j65506841199156_2_alg».proof.Proof.FrameIdealData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the eleven stretches of host operations before it, the region, the one reshape after
    it; it reduces to the region continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostBefore [hostOps1]
    (by simp only [hostBefore, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [hostBefore, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The reshape after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its result is the flattened output, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays: no host operation writes one -/

/-- The eight argument arrays of @main. -/
abbrev argRefs : List (Ref sig .tc) := [main_arg0, main_arg1, main_arg2, main_arg3, main_arg4, main_arg5, main_arg6, main_arg7]

/-- No host operation before the region writes an argument array (each writes its own result buffer, a
    different reference): the region finds every argument as launched. -/
theorem V_arg (c : Dev nD) (r : Ref sig .tc) (hr : r ∈ argRefs) : V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, hostOps0_5, hostOps0_6, hostOps0_7, hostOps0_8, hostOps0_9, hostOps0_10, StableHlo.TRef.unary, StableHlo.TRef.binary, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne ((by decide : ∀ r ∈ argRefs, r ≠ _) r hr)))

/-- Nor does the reshape after it, and no argument is an array of the pipeline: every argument ends as launched. -/
theorem W_arg (dats : (p : Fin _) → (c : Dev nD) → Dat τ (Elt F) Unit ℕ (UR sig nD τ) ℕ (cfgs p) c) (c : Dev nD)
    (r : Ref sig .tc) (hr : r ∈ argRefs) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne ((by decide : ∀ r ∈ argRefs, r ≠ _) r hr))),
    Pipeline.withArrays_of_ne _ c (V0 m c) _ r (fun w => (by decide : ∀ r ∈ argRefs, ∀ w, Pipeline.arrRef spec0 w ≠ r) r hr w)]
  exact V_arg m c r hr

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)
theorem V_main_arg5 (c : Dev nD) : V m c main_arg5 = m ((c : Thread nD τ).loc main_arg5) := V_arg m c main_arg5 (by decide)
theorem V_main_arg6 (c : Dev nD) : V m c main_arg6 = m ((c : Thread nD τ).loc main_arg6) := V_arg m c main_arg6 (by decide)
theorem V_main_arg7 (c : Dev nD) : V m c main_arg7 = m ((c : Thread nD τ).loc main_arg7) := V_arg m c main_arg7 (by decide)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_arg m dats c main_arg0 (by decide)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c main_arg1 (by decide)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c main_arg2 (by decide)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c main_arg3 (by decide)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c main_arg4 (by decide)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := W_arg m dats c main_arg5 (by decide)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := W_arg m dats c main_arg6 (by decide)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := W_arg m dats c main_arg7 (by decide)

/-! ## What the body finds in each input window's buffer -/

/-- Input window 0's current staging buffer holds its block at every point, fetched there or not (unfetched, the
    block index has not moved), for any proof data whose array is the region-entry contents and whose body leaves
    the block in place; the window is uncut and never idle. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is the region-entry contents and whose body leaves
    the block in place; the window is uncut and never idle. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data whose array is the region-entry contents and whose body leaves
    the block in place; the window is uncut and never idle. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data whose array is the region-entry contents and whose body leaves
    the block in place; the window is uncut and never idle. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data whose array is the region-entry contents and whose body leaves
    the block in place; the window is uncut and never idle. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data whose array is the region-entry contents and whose body leaves
    the block in place; the window is uncut and never idle. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data whose array is the region-entry contents and whose body leaves
    the block in place; the window is uncut and never idle. -/
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data whose array is the region-entry contents and whose body leaves
    the block in place; the window is uncut and never idle. -/
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data whose array is the region-entry contents and whose body leaves
    the block in place; the window is uncut and never idle. -/
theorem before_in8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument array is staged by a window, so the run's post gives each at what the
    reshape after the region leaves, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

end Cert.KernelIdeal.Fr

end
-- ==== Proof.FrameIdealBody.lean ====
/- THE FRAME RUN, part 3 (the kernel body): the body's one store covers the output block, and the body's triple on
   whole staging buffers: inputs kept, the output block left at the perceptron of the input blocks. -/
import proofs.«108793_j65506841199156_2_alg».proof.Proof.Gen.KernelIdeal.Launch
import proofs.«108793_j65506841199156_2_alg».proof.Proof.Gen.KernelIdeal.Skeleton
import proofs.«108793_j65506841199156_2_alg».proof.Proof.Gen.KernelIdeal.Points
import proofs.«108793_j65506841199156_2_alg».proof.Proof.FrameIdealData
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one store covers the output block -/

/-- The body's single store is through the whole-block rectangle, so it covers the output block. -/
theorem cover_out (p : Vec F S10000x1 .f32) (y : S10000x1.Idx) :
    ∃ pc ∈ ([⟨rectOut, p⟩] : List (View.Piece (Elt F) S10000x1 .f32)), y ∈ pc.1.set :=
  View.cover_of_tiled [⟨rectOut, p⟩] S10000x1.size (by rfl) y

/-! ## The body's triple -/

set_option maxHeartbeats 1000000 in
/-- The kernel body on whole staging memrefs — the nine inputs' at read contents `x0 … x8`, the output's at
    anything — runs to the continuation holding the inputs' as they were and the output's at `outBlock` of the
    inputs'. The body loads each input once and whole, loads the output buffer once (the value is not used), and
    stores the output block whole. -/
theorem sound_kernel (c : Dev nD) (E : Set ℕ) (i : grid0.Coords) (arg1 : Memref sig .tc .vmem S10000x131 .bf16) (harg1 : arg1.IsWhole) (arg2 : Memref sig .tc .vmem S10000x96 .bf16) (harg2 : arg2.IsWhole) (arg3 : Memref sig .tc .vmem S131x256 .bf16) (harg3 : arg3.IsWhole) (arg4 : Memref sig .tc .vmem S96x256 .bf16) (harg4 : arg4.IsWhole) (arg5 : Memref sig .tc .vmem S1x256 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S10000x1 .f32) (harg10 : arg10.IsWhole)
    (x0 : Vec F S10000x131 .bf16) (x1 : Vec F S10000x96 .bf16) (x2 : Vec F S131x256 .bf16) (x3 : Vec F S96x256 .bf16) (x4 : Vec F S1x256 .f32) (x5 : Vec F S256x256 .bf16) (x6 : Vec F S1x256 .f32) (x7 : Vec F S1x256 .f32) (x8 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover_out _)

end Cert.KernelIdeal.Fr

end
-- ==== Proof.FrameIdeal.lean ====
/- THE FRAME RUN, part 4: the body obligation at every grid point, the run of @main around its one region, and the
   frame — the program terminates without fault and leaves its argument arrays unchanged. Generic in the float
   instance. -/
import proofs.«108793_j65506841199156_2_alg».proof.Proof.Gen.KernelIdeal.Launch
import proofs.«108793_j65506841199156_2_alg».proof.Proof.Gen.KernelIdeal.Skeleton
import proofs.«108793_j65506841199156_2_alg».proof.Proof.Gen.KernelIdeal.Points
import proofs.«108793_j65506841199156_2_alg».proof.Proof.FrameIdealHost
import proofs.«108793_j65506841199156_2_alg».proof.Proof.FrameIdealBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds, at the proof data -/

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d
theorem before_in8 (c : Dev nD) (t : Fin cfg0.N) (d) : (dats m 0 c).before 8 t d = iblk m c 8 t :=
  before_in8_of m (dats m 0 c) (A_eq m c 8) (after_in8 m c) t d

/-! ## The body obligation, at a generic grid point -/

/-- What the body is called with at point `t`: the invariant, the core's debts, and the ten current staging
    buffers, each owned whole at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- And what it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' staging buffers hold their blocks, so the body's triple applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values, from any memory with zero counters: every weakly fair execution of @main on the TensorCores
    terminates, and every final state has every array of the pipeline at what the library computes from the proof
    data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Fr

end
-- ==== Proof.Spec.lean ====
/-
  The mathematics both programs are compared against, over the extended reals.

  A query point n has three coordinates, the last three of the 131 columns of x.  The clipped, rescaled coordinates
  g (plane p, point n, axis a) come out of the same chain of operations in both programs, so they are a parameter
  here; only g = min 512 (max 0 ·) matters, which puts every g in [0, 512].  From g: the cell corner words
  (floor, converted to 32-bit integers; the next cell, capped at 512) and the fractional parts.  A plane's feature
  is the bilinear blend of the four corner entries of P; the 96 features of a point (three planes of 32 channels)
  stand behind its 131 own columns as the 227 inputs of a three-layer perceptron with rectified hidden layers.
-/
import Idealize.ShloMosaic.PureOps.Ideal
import Idealize.ShloMosaic.Lib.ValueIdx

noncomputable section

namespace Cert.Spec

open Idealize.ShloMosaic Idealize.ShloMosaic.ValueIdx

/-- The arrays, as functions of literal-shaped indices. -/
abbrev ArrX := (⟨2, ![500000, 131]⟩ : Shape).Idx → EReal
abbrev ArrP := (⟨4, ![3, 32, 513, 513]⟩ : Shape).Idx → EReal
abbrev ArrG := (⟨3, ![3, 500000, 2]⟩ : Shape).Idx → EReal
abbrev ArrW0 := (⟨2, ![227, 256]⟩ : Shape).Idx → EReal
abbrev ArrB := (⟨1, ![256]⟩ : Shape).Idx → EReal
abbrev ArrW1 := (⟨2, ![256, 256]⟩ : Shape).Idx → EReal
abbrev ArrW2 := (⟨2, ![256, 1]⟩ : Shape).Idx → EReal
abbrev ArrB2 := (⟨1, ![1]⟩ : Shape).Idx → EReal

/-- The float one, as both programs spell it. -/
abbrev one : EReal := Ideal.ofBits .f32 0x3F800000#32
/-- The float zero, as both programs spell it. -/
abbrev zero : EReal := Ideal.ofBits .f32 0x00000000#32

/-- The whole part of a clipped coordinate. -/
def fl (g : ArrG) (p : Fin 3) (n : Fin 500000) (a : Fin 2) : EReal := Ideal.liftRound Int.floor (g (ix3 p n a))
/-- Its fractional part: the blending weight along axis a. -/
def frac (g : ArrG) (p : Fin 3) (n : Fin 500000) (a : Fin 2) : EReal := g (ix3 p n a) - fl g p n a
/-- The cell's lower corner along axis a, as a 32-bit word. -/
def lo (g : ArrG) (p : Fin 3) (n : Fin 500000) (a : Fin 2) : BitVec 32 := Ideal.fptosi 32 (fl g p n a)
/-- The cell's upper corner along axis a: the next grid line, capped at the last one. -/
def hi (g : ArrG) (p : Fin 3) (n : Fin 500000) (a : Fin 2) : BitVec 32 := IntOp.minsi (IntOp.addi (lo g p n a) 1#32) 512#32

/-- A corner word as a grid line 0 … 512. -/
def cell (w : BitVec 32) : Fin 513 := ⟨min w.toNat 512, by omega⟩

/-- The entry of plane p, channel ch at the grid lines the words (wy, wx) name. -/
def corner (P : ArrP) (p : Fin 3) (ch : Fin 32) (wy wx : BitVec 32) : EReal := P (ix4 p ch (cell wy) (cell wx))

/-- The bilinear blend: along x (axis 0) on the lower and the upper line, then along y (axis 1). -/
def feat (g : ArrG) (P : ArrP) (n : Fin 500000) (p : Fin 3) (ch : Fin 32) : EReal :=
  (corner P p ch (lo g p n 1) (lo g p n 0) * (one - frac g p n 0) + corner P p ch (lo g p n 1) (hi g p n 0) * frac g p n 0)
      * (one - frac g p n 1)
    + (corner P p ch (hi g p n 1) (lo g p n 0) * (one - frac g p n 0) + corner P p ch (hi g p n 1) (hi g p n 0) * frac g p n 0)
      * frac g p n 1

/-- The 96 features of a point in one row: plane-major, 32 channels each. -/
def featRow (g : ArrG) (P : ArrP) (n : Fin 500000) (q : Fin 96) : EReal :=
  feat g P n ⟨q.val / 32, by omega⟩ ⟨q.val % 32, by omega⟩

/-- The perceptron's 227 inputs: the point's own 131 columns, then its 96 features. -/
def netIn (ft : Fin 500000 → Fin 96 → EReal) (x : ArrX) (n : Fin 500000) (k : Fin 227) : EReal :=
  if h : k.val < 131 then x (ix2 n ⟨k.val, h⟩) else ft n ⟨k.val - 131, by omega⟩

/-- First hidden layer, the 227 inputs against W0 in ONE sum. -/
def hidden1 (ft : Fin 500000 → Fin 96 → EReal) (x : ArrX) (W0 : ArrW0) (b0 : ArrB) (n : Fin 500000) (j : Fin 256) : EReal :=
  max ((∑ k : Fin 227, netIn ft x n k * W0 (ix2 k j)) + b0 (ix1 j)) zero

/-- First hidden layer, the own columns and the features against their rows of W0 in TWO sums. -/
def hidden1Split (ft : Fin 500000 → Fin 96 → EReal) (x : ArrX) (W0 : ArrW0) (b0 : ArrB) (n : Fin 500000) (j : Fin 256) : EReal :=
  max (((∑ k : Fin 131, x (ix2 n k) * W0 (ix2 (⟨k.val, by omega⟩ : Fin 227) j))
      + (∑ k : Fin 96, ft n k * W0 (ix2 (⟨131 + k.val, by omega⟩ : Fin 227) j))) + b0 (ix1 j)) zero

/-- Second hidden layer over a first one. -/
def hidden2 (h1 : Fin 500000 → Fin 256 → EReal) (W1 : ArrW1) (b1 : ArrB) (n : Fin 500000) (j : Fin 256) : EReal :=
  max ((∑ k : Fin 256, h1 n k * W1 (ix2 k j)) + b1 (ix1 j)) zero

/-- The output over a second hidden layer. -/
def outOf (h2 : Fin 500000 → Fin 256 → EReal) (W2 : ArrW2) (b2 : ArrB2) (n : Fin 500000) : EReal :=
  (∑ k : Fin 256, h2 n k * W2 (ix2 k (0 : Fin 1))) + b2 (ix1 (0 : Fin 1))

/-- The whole function, as the reference arranges it. -/
def out (g : ArrG) (x : ArrX) (P : ArrP) (W0 : ArrW0) (b0 : ArrB) (W1 : ArrW1) (b1 : ArrB) (W2 : ArrW2) (b2 : ArrB2)
    (n : Fin 500000) : EReal :=
  outOf (hidden2 (hidden1 (featRow g P) x W0 b0) W1 b1) W2 b2 n

/-- The whole function, as the kernel arranges it. -/
def outSplit (g : ArrG) (x : ArrX) (P : ArrP) (W0 : ArrW0) (b0 : ArrB) (W1 : ArrW1) (b1 : ArrB) (W2 : ArrW2) (b2 : ArrB2)
    (n : Fin 500000) : EReal :=
  outOf (hidden2 (hidden1Split (featRow g P) x W0 b0) W1 b1) W2 b2 n

/-- A sum over the 227 inputs is the sum over the first 131 plus the sum over the last 96: addition on the
    extended reals is associative and commutative, nothing more is used. -/
theorem sum_split (f : Fin 227 → EReal) :
    (∑ k : Fin 227, f k) = (∑ k : Fin 131, f ⟨k.val, by omega⟩) + (∑ k : Fin 96, f ⟨131 + k.val, by omega⟩) := by
  have h := Fin.sum_univ_add (a := 131) (b := 96) (fun k : Fin (131 + 96) => f ⟨k.val, by omega⟩)
  have e : (∑ k : Fin 227, f k) = ∑ k : Fin (131 + 96), f ⟨k.val, by omega⟩ := rfl
  rw [e, h]
  rfl

theorem hidden1_eq_split (ft : Fin 500000 → Fin 96 → EReal) (x : ArrX) (W0 : ArrW0) (b0 : ArrB) (n : Fin 500000) (j : Fin 256) :
    hidden1 ft x W0 b0 n j = hidden1Split ft x W0 b0 n j := by
  unfold hidden1 hidden1Split
  rw [sum_split]
  refine congrArg (fun s => max (s + b0 (ix1 j)) zero) ?_
  refine congrArg₂ (· + ·) ?_ ?_
  · refine Finset.sum_congr rfl fun k _ => ?_
    have hk : (⟨k.val, by omega⟩ : Fin 227).val < 131 := k.isLt
    simp only [netIn, hk, dite_true]
  · refine Finset.sum_congr rfl fun k _ => ?_
    have hk : ¬ (⟨131 + k.val, by omega⟩ : Fin 227).val < 131 := by simp
    simp only [netIn, hk, dite_false]
    congr 2
    exact Fin.ext (by simp)

theorem out_eq_split (g : ArrG) (x : ArrX) (P : ArrP) (W0 : ArrW0) (b0 : ArrB) (W1 : ArrW1) (b1 : ArrB) (W2 : ArrW2) (b2 : ArrB2)
    (n : Fin 500000) : out g x P W0 b0 W1 b1 W2 b2 n = outSplit g x P W0 b0 W1 b1 W2 b2 n := by
  unfold out outSplit
  have e : hidden1 (featRow g P) x W0 b0 = hidden1Split (featRow g P) x W0 b0 := by
    funext n j; exact hidden1_eq_split _ _ _ _ _ _
  rw [e]

end Cert.Spec

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.KernelPayload.lean ====
/-
  What one grid point of the kernel stores, read at a row.

  The body takes a tile of 10000 rows: the rows' own 131 columns X and their 96 features Fe, the two row blocks of the
  first weight matrix (A for the columns, B for the features), the bias rows, the second weight matrix, and the last
  layer's weights as one row.  Over the extended reals a change of float format is the identity and a matrix product
  into a zero accumulator is the plain sum, so row r of the stored block is

      (∑ k, max ((∑ j, max (((∑ i, X r i · A i j) + (∑ i, Fe r i · B i j)) + b0 j) 0 · W1 j k) + b1 k) 0 · w2 k) + b2.
-/
import proofs.«108793_j65506841199156_2_alg».proof.Proof.Gen.KernelIdeal.Skeleton
import proofs.«108793_j65506841199156_2_alg».proof.Proof.Spec
import proofs.«108793_j65506841199156_2_alg».proof.Proof.LibPlainDot
import proofs.«108793_j65506841199156_2_alg».proof.Proof.LibTileLayout
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen
open scoped BigOperators

/-- First hidden layer of row r of an array of rows, at (r, j); any number of rows. -/
def tileH1 {N : Nat} (X : (⟨2, ![N, 131]⟩ : Shape).Idx → EReal) (Fe : (⟨2, ![N, 96]⟩ : Shape).Idx → EReal)
    (A : (⟨2, ![131, 256]⟩ : Shape).Idx → EReal) (B : (⟨2, ![96, 256]⟩ : Shape).Idx → EReal)
    (b0 : (⟨2, ![1, 256]⟩ : Shape).Idx → EReal) (r : Fin N) (j : Fin 256) : EReal :=
  max (((∑ i : Fin 131, X (ix2 r i) * A (ix2 i j)) + (∑ i : Fin 96, Fe (ix2 r i) * B (ix2 i j))) + b0 (ix2 (0 : Fin 1) j))
    Cert.Spec.zero

/-- Second hidden layer at (r, k). -/
def tileH2 {N : Nat} (h1 : Fin N → Fin 256 → EReal) (W1 : (⟨2, ![256, 256]⟩ : Shape).Idx → EReal)
    (b1 : (⟨2, ![1, 256]⟩ : Shape).Idx → EReal) (r : Fin N) (k : Fin 256) : EReal :=
  max ((∑ j : Fin 256, h1 r j * W1 (ix2 j k)) + b1 (ix2 (0 : Fin 1) k)) Cert.Spec.zero

/-- The output of row r. -/
def tileOut {N : Nat} (h2 : Fin N → Fin 256 → EReal) (w2 : (⟨2, ![1, 256]⟩ : Shape).Idx → EReal)
    (b2 : (⟨2, ![1, 1]⟩ : Shape).Idx → EReal) (r : Fin N) : EReal :=
  (∑ k : Fin 256, h2 r k * w2 (ix2 (0 : Fin 1) k)) + b2 (ix2 (0 : Fin 1) (0 : Fin 1))

/-- The three layers of row r. -/
def rowsMlp {N : Nat} (X : (⟨2, ![N, 131]⟩ : Shape).Idx → EReal) (Fe : (⟨2, ![N, 96]⟩ : Shape).Idx → EReal)
    (A : (⟨2, ![131, 256]⟩ : Shape).Idx → EReal) (B : (⟨2, ![96, 256]⟩ : Shape).Idx → EReal)
    (b0 : (⟨2, ![1, 256]⟩ : Shape).Idx → EReal) (W1 : (⟨2, ![256, 256]⟩ : Shape).Idx → EReal)
    (b1 : (⟨2, ![1, 256]⟩ : Shape).Idx → EReal) (w2 : (⟨2, ![1, 256]⟩ : Shape).Idx → EReal)
    (b2 : (⟨2, ![1, 1]⟩ : Shape).Idx → EReal) (r : Fin N) : EReal :=
  tileOut (tileH2 (tileH1 X Fe A B b0) W1 b1) w2 b2 r

/-- A row's three layers depend on that row's entries only: row r of one array of rows and row n of another, with
    equal entries, give equal outputs. -/
theorem rowsMlp_congr {N N' : Nat} (X : (⟨2, ![N, 131]⟩ : Shape).Idx → EReal) (Fe : (⟨2, ![N, 96]⟩ : Shape).Idx → EReal)
    (X' : (⟨2, ![N', 131]⟩ : Shape).Idx → EReal) (Fe' : (⟨2, ![N', 96]⟩ : Shape).Idx → EReal)
    (A : (⟨2, ![131, 256]⟩ : Shape).Idx → EReal) (B : (⟨2, ![96, 256]⟩ : Shape).Idx → EReal)
    (b0 : (⟨2, ![1, 256]⟩ : Shape).Idx → EReal) (W1 : (⟨2, ![256, 256]⟩ : Shape).Idx → EReal)
    (b1 : (⟨2, ![1, 256]⟩ : Shape).Idx → EReal) (w2 : (⟨2, ![1, 256]⟩ : Shape).Idx → EReal)
    (b2 : (⟨2, ![1, 1]⟩ : Shape).Idx → EReal) (r : Fin N) (n : Fin N')
    (hX : ∀ i : Fin 131, X (ix2 r i) = X' (ix2 n i)) (hF : ∀ i : Fin 96, Fe (ix2 r i) = Fe' (ix2 n i)) :
    rowsMlp X Fe A B b0 W1 b1 w2 b2 r = rowsMlp X' Fe' A B b0 W1 b1 w2 b2 n := by
  unfold rowsMlp tileOut tileH2 tileH1
  simp only [hX, hF]

/-- The first layer as the body spells it, at (r, j). -/
theorem layer1_apply (X : FVec Ideal S10000x131 .bf16) (Fe : FVec Ideal S10000x96 .bf16) (A : FVec Ideal S131x256 .bf16)
    (B : FVec Ideal S96x256 .bf16) (b0 : FVec Ideal S1x256 .f32) (r : Fin 10000) (j : Fin 256) :
    maximumf (addf (addf (matmul dot_S10000x131_S131x256_S10000x256_1_0_0_1_n_n none X A (constant S10000x256 .f32 0x00000000#32))
        (matmul dot_S10000x96_S96x256_S10000x256_1_0_0_1_n_n none Fe B (constant S10000x256 .f32 0x00000000#32)))
        (broadcastTo S10000x256 b0 broadcasts_S1x256_S10000x256))
      (broadcast S10000x256 (Scalar.ofBits (F := Ideal) .f32 0x00000000#32)) (ix2 r j) = tileH1 X Fe A B b0 r j := by
  show max ((matmul dot_S10000x131_S131x256_S10000x256_1_0_0_1_n_n none X A (constant S10000x256 .f32 0x00000000#32) (ix2 r j)
        + matmul dot_S10000x96_S96x256_S10000x256_1_0_0_1_n_n none Fe B (constant S10000x256 .f32 0x00000000#32) (ix2 r j))
        + broadcastTo S10000x256 b0 broadcasts_S1x256_S10000x256 (ix2 r j)) Cert.Spec.zero = _
  unfold tileH1
  refine congrArg (fun s => max s Cert.Spec.zero) ?_
  refine congrArg₂ (· + ·) (congrArg₂ (· + ·) ?_ ?_) ?_
  · exact Cert.LibPlainDot.matmul_zero_apply _ ⟨rfl, rfl, rfl, rfl, rfl, rfl⟩ none X A r j
  · exact Cert.LibPlainDot.matmul_zero_apply _ ⟨rfl, rfl, rfl, rfl, rfl, rfl⟩ none Fe B r j
  · exact broadcastTo_1b_ab_apply b0 _ r j

/-- The second layer as the body spells it, at (r, k). -/
theorem layer2_apply (H : FVec Ideal S10000x256 .bf16) (W1 : FVec Ideal S256x256 .bf16) (b1 : FVec Ideal S1x256 .f32)
    (r : Fin 10000) (k : Fin 256) :
    maximumf (addf (matmul dot_S10000x256_S256x256_S10000x256_1_0_0_1_n_n none H W1 (constant S10000x256 .f32 0x00000000#32))
        (broadcastTo S10000x256 b1 broadcasts_S1x256_S10000x256))
      (broadcast S10000x256 (Scalar.ofBits (F := Ideal) .f32 0x00000000#32)) (ix2 r k)
      = max ((∑ j : Fin 256, H (ix2 r j) * W1 (ix2 j k)) + b1 (ix2 (0 : Fin 1) k)) Cert.Spec.zero := by
  show max (matmul dot_S10000x256_S256x256_S10000x256_1_0_0_1_n_n none H W1 (constant S10000x256 .f32 0x00000000#32) (ix2 r k)
        + broadcastTo S10000x256 b1 broadcasts_S1x256_S10000x256 (ix2 r k)) Cert.Spec.zero = _
  refine congrArg (fun s => max s Cert.Spec.zero) ?_
  refine congrArg₂ (· + ·) ?_ ?_
  · exact Cert.LibPlainDot.matmul_zero_apply _ ⟨rfl, rfl, rfl, rfl, rfl, rfl⟩ none H W1 r k
  · exact broadcastTo_1b_ab_apply b1 _ r k

/-- The last layer as the body spells it: the row sum of the products with the weight row, stood up as a column, plus
    the one-entry bias block. -/
theorem layer3_apply (H : FVec Ideal S10000x256 .f32) (w2 : FVec Ideal S1x256 .f32) (b2 : FVec Ideal S1x1 .f32)
    (r : Fin 10000) (u : Fin 1) :
    addf (shapeCast S10000x1 (multiReduction .add [1] S10000 (mulf H (broadcastTo S10000x256 w2 broadcasts_S1x256_S10000x256))
          0x00000000#32 reduces_S10000x256_S10000 (.inl rfl) rfl) shapeCasts_S10000_S10000x1)
        (broadcastTo S10000x1 b2 broadcasts_S1x1_S10000x1) (ix2 r u)
      = (∑ k : Fin 256, H (ix2 r k) * w2 (ix2 (0 : Fin 1) k)) + b2 (ix2 (0 : Fin 1) (0 : Fin 1)) := by
  show shapeCast S10000x1 (multiReduction .add [1] S10000 (mulf H (broadcastTo S10000x256 w2 broadcasts_S1x256_S10000x256))
          0x00000000#32 reduces_S10000x256_S10000 (.inl rfl) rfl) shapeCasts_S10000_S10000x1 (ix2 r u)
        + broadcastTo S10000x1 b2 broadcasts_S1x1_S10000x1 (ix2 r u) = _
  refine congrArg₂ (· + ·) ?_ ?_
  · refine (Cert.TileLayout.shapeCast_a_a1_apply _ _ r u).trans ?_
    refine (Cert.TileLayout.sum_axis1_apply _ _ _ _ _ r).trans ?_
    refine Finset.sum_congr rfl fun k _ => ?_
    show H (ix2 r k) * broadcastTo S10000x256 w2 broadcasts_S1x256_S10000x256 (ix2 r k) = _
    exact congrArg (H (ix2 r k) * ·) (broadcastTo_1b_ab_apply w2 _ r k)
  · exact Cert.TileLayout.broadcastTo_11_ab_apply b2 _ r u

/-- The stored block at row r, over the tile's operands. -/
theorem pay_apply (X : FVec Ideal S10000x131 .bf16) (Fe : FVec Ideal S10000x96 .bf16) (A : FVec Ideal S131x256 .bf16)
    (B : FVec Ideal S96x256 .bf16) (b0 : FVec Ideal S1x256 .f32) (W1 : FVec Ideal S256x256 .bf16) (b1 : FVec Ideal S1x256 .f32)
    (w2 : FVec Ideal S1x256 .f32) (b2 : FVec Ideal S1x1 .f32) (r : Fin 10000) (u : Fin 1) :
    k0_pay1 (F := Ideal) (k0_pay2 X Fe A B b0 W1 b1 w2) (k0_pay3 b2) (ix2 r u)
      = rowsMlp X Fe A B b0 W1 b1 w2 b2 r := by
  unfold rowsMlp
  unfold k0_pay1 k0_pay2 k0_pay3
  simp only [shapeCast_self]
  refine (layer3_apply _ w2 b2 r u).trans ?_
  unfold tileOut
  refine congrArg (· + b2 (ix2 (0 : Fin 1) (0 : Fin 1))) ?_
  refine Finset.sum_congr rfl fun k _ => ?_
  refine congrArg (· * w2 (ix2 (0 : Fin 1) k)) ?_
  refine (layer2_apply _ W1 b1 r k).trans ?_
  unfold tileH2
  refine congrArg (fun s => max (s + b1 (ix2 (0 : Fin 1) k)) Cert.Spec.zero) ?_
  refine Finset.sum_congr rfl fun j _ => ?_
  refine congrArg (· * W1 (ix2 j k)) ?_
  exact layer1_apply X Fe A B b0 r j

end Cert.KernelIdeal.Payload

end
-- ==== Proof.KernelValue.lean ====
/-
  From the blocks to the array: what the kernel program's output array holds after the run.

  Grid point t takes rows 10000·t … 10000·t + 9999 of the two row arrays (the points' own columns and their features)
  and the whole of every weight and bias array, and writes back rows 10000·t … of the output column.  A row's three
  layers depend on that row only, so each written block is the block of ONE function of the whole arrays, and the
  fifty blocks cover the 500000 rows.
-/
import proofs.«108793_j65506841199156_2_alg».proof.Proof.FrameIdealData
import proofs.«108793_j65506841199156_2_alg».proof.Proof.KernelPayload
import Idealize.ShloMosaic.Lib.Pipeline.Value

set_option maxRecDepth 16384

noncomputable section

namespace Cert.KernelIdeal.KValue

open Cert.KernelIdeal Cert.KernelIdeal.Gen Cert.KernelIdeal.Fr Cert.KernelIdeal.Payload
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- A grid point is one of fifty. -/
theorem t_lt (t : Fin cfg0.N) : t.val < 50 := by
  have h := t.isLt
  have e : cfg0.N = 50 := N_0
  omega

/-! ## The staged arrays as the region finds them -/

/-- The points' own columns. -/
abbrev opX (c : Dev nD) : S500000x131.Idx → EReal := V m c main_v94
/-- The points' features. -/
abbrev opFe (c : Dev nD) : S500000x96.Idx → EReal := V m c main_v95
/-- The first weight matrix's rows for the own columns. -/
abbrev opA (c : Dev nD) : S131x256.Idx → EReal := V m c main_v97
/-- The first weight matrix's rows for the features. -/
abbrev opB (c : Dev nD) : S96x256.Idx → EReal := V m c main_v99
/-- The first bias, as a row. -/
abbrev opb0 (c : Dev nD) : S1x256.Idx → EReal := V m c main_v102
/-- The second weight matrix. -/
abbrev opW1 (c : Dev nD) : S256x256.Idx → EReal := V m c main_v100
/-- The second bias, as a row. -/
abbrev opb1 (c : Dev nD) : S1x256.Idx → EReal := V m c main_v103
/-- The last layer's weights, as a row. -/
abbrev opw2 (c : Dev nD) : S1x256.Idx → EReal := V m c main_v101
/-- The last bias, as a one-entry block. -/
abbrev opb2 (c : Dev nD) : S1x1.Idx → EReal := V m c main_v104

/-- The output column as one function of the staged arrays: at row n, the three layers of row n. -/
def G (c : Dev nD) : S500000x1.Idx → EReal := fun i =>
  rowsMlp (opX m c) (opFe m c) (opA m c) (opB m c) (opb0 m c) (opW1 m c) (opb1 m c) (opw2 m c) (opb2 m c)
    (⟨(i 0).val, idx2_lt0 i⟩ : Fin 500000)

/-! ## The index maps -/

/-- The row arrays and the output move with the grid point; every other window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Every block of rows is some point's. -/
theorem idx_onto : ∀ q : Fin 50, ∃ t : Fin cfg0.N, win0_9.index t = ![q.val, 0] :=
  (by decide +kernel : ∀ q : Fin 50, ∃ t : Fin grid0.N, win0_9.index t = ![q.val, 0])

/-! ## Each window's block, read at an index -/

theorem blkX (c : Dev nD) (t : Fin cfg0.N) (r : Fin 10000) (i : Fin 131) :
    iblk m c 0 t (ix2 r i) = opX m c (ix2 (⟨t.val * 10000 + r.val, by have := t_lt t; omega⟩ : Fin 500000) i) := by
  unfold iblk
  show opX m c (((cfg0.win 0).blk t).view.emb (ix2 r i)) = _
  refine congrArg (opX m c) (funext fun a => Fin.ext ?_)
  obtain ⟨e0, e1, -⟩ := idx_facts t
  match a with
  | ⟨0, _⟩ => show win0_0.index t (0 : Fin 2) * 10000 + 1 * r.val = t.val * 10000 + r.val; omega
  | ⟨1, _⟩ => show win0_0.index t (1 : Fin 2) * 131 + 1 * i.val = i.val; omega

theorem blkFe (c : Dev nD) (t : Fin cfg0.N) (r : Fin 10000) (i : Fin 96) :
    iblk m c 1 t (ix2 r i) = opFe m c (ix2 (⟨t.val * 10000 + r.val, by have := t_lt t; omega⟩ : Fin 500000) i) := by
  unfold iblk
  show opFe m c (((cfg0.win 1).blk t).view.emb (ix2 r i)) = _
  refine congrArg (opFe m c) (funext fun a => Fin.ext ?_)
  obtain ⟨-, -, e0, e1, -⟩ := idx_facts t
  match a with
  | ⟨0, _⟩ => show win0_1.index t (0 : Fin 2) * 10000 + 1 * r.val = t.val * 10000 + r.val; omega
  | ⟨1, _⟩ => show win0_1.index t (1 : Fin 2) * 96 + 1 * i.val = i.val; omega

theorem blkA (c : Dev nD) (t : Fin cfg0.N) : iblk m c 2 t = opA m c := by
  unfold iblk
  funext y
  show opA m c (((cfg0.win 2).blk t).view.emb y) = _
  refine congrArg (opA m c) (funext fun a => Fin.ext ?_)
  obtain ⟨-, -, -, -, e0, e1, -⟩ := idx_facts t
  match a with
  | ⟨0, _⟩ => show win0_2.index t (0 : Fin 2) * 131 + 1 * (y 0).val = (y 0).val; omega
  | ⟨1, _⟩ => show win0_2.index t (1 : Fin 2) * 256 + 1 * (y 1).val = (y 1).val; omega

theorem blkB (c : Dev nD) (t : Fin cfg0.N) : iblk m c 3 t = opB m c := by
  unfold iblk
  funext y
  show opB m c (((cfg0.win 3).blk t).view.emb y) = _
  refine congrArg (opB m c) (funext fun a => Fin.ext ?_)
  obtain ⟨-, -, -, -, -, -, e0, e1, -⟩ := idx_facts t
  match a with
  | ⟨0, _⟩ => show win0_3.index t (0 : Fin 2) * 96 + 1 * (y 0).val = (y 0).val; omega
  | ⟨1, _⟩ => show win0_3.index t (1 : Fin 2) * 256 + 1 * (y 1).val = (y 1).val; omega

theorem blkb0 (c : Dev nD) (t : Fin cfg0.N) : iblk m c 4 t = opb0 m c := by
  unfold iblk
  funext y
  show opb0 m c (((cfg0.win 4).blk t).view.emb y) = _
  refine congrArg (opb0 m c) (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem blkW1 (c : Dev nD) (t : Fin cfg0.N) : iblk m c 5 t = opW1 m c := by
  unfold iblk
  funext y
  show opW1 m c (((cfg0.win 5).blk t).view.emb y) = _
  refine congrArg (opW1 m c) (funext fun a => Fin.ext ?_)
  obtain ⟨-, -, -, -, -, -, -, -, -, -, e0, e1, -⟩ := idx_facts t
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem blkb1 (c : Dev nD) (t : Fin cfg0.N) : iblk m c 6 t = opb1 m c := by
  unfold iblk
  funext y
  show opb1 m c (((cfg0.win 6).blk t).view.emb y) = _
  refine congrArg (opb1 m c) (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; omega
  | ⟨1, _⟩ => show win0_6.index t (1 : Fin 2) * 256 + 1 * (y 1).val = (y 1).val; omega

theorem blkw2 (c : Dev nD) (t : Fin cfg0.N) : iblk m c 7 t = opw2 m c := by
  unfold iblk
  funext y
  show opw2 m c (((cfg0.win 7).blk t).view.emb y) = _
  refine congrArg (opw2 m c) (funext fun a => Fin.ext ?_)
  obtain ⟨-, -, -, -, -, -, -, -, -, -, -, -, -, -, e0, e1, -⟩ := idx_facts t
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem blkb2 (c : Dev nD) (t : Fin cfg0.N) : iblk m c 8 t = opb2 m c := by
  unfold iblk
  funext y
  show opb2 m c (((cfg0.win 8).blk t).view.emb y) = _
  refine congrArg (opb2 m c) (funext fun a => Fin.ext ?_)
  obtain ⟨-, -, -, -, -, -, -, -, -, -, -, -, -, -, -, -, e0, e1, -⟩ := idx_facts t
  match a with
  | ⟨0, _⟩ => show win0_8.index t (0 : Fin 2) * 1 + 1 * (y 0).val = (y 0).val; omega
  | ⟨1, _⟩ => show win0_8.index t (1 : Fin 2) * 1 + 1 * (y 1).val = (y 1).val; omega

/-! ## What a point writes back -/

/-- Point t writes back block t of G. -/
theorem flushed_eq (c : Dev nD) (t : Fin cfg0.N) :
    (dats m 0 c).flushed 9 t = ((cfg0.win 9).blk t).view.read (Elt Ideal) (G m c) := by
  show (cfg0.win 9).cut (grid0.coords t) ((dats m 0 c).after 9 t) = _
  rw [after_out]
  unfold outBlock
  rw [View.canon_unit_zero hz]
  simp only [View.ld_unit_zero (S := S10000x131) hz, View.ld_unit_zero (S := S10000x96) hz, View.ld_unit_zero (S := S131x256) hz,
    View.ld_unit_zero (S := S96x256) hz, View.ld_unit_zero (S := S1x256) hz, View.ld_unit_zero (S := S256x256) hz,
    View.ld_unit_zero (S := S1x1) hz]
  rw [blkA, blkB, blkb0, blkW1, blkb1, blkw2, blkb2]
  funext y
  obtain ⟨r, u, rfl⟩ : ∃ (r : Fin 10000) (u : Fin 1), y = ix2 r u := ⟨y 0, y 1, eq_ix2 y⟩
  show k0_pay1 (F := Ideal) (k0_pay2 (iblk m c 0 t) (iblk m c 1 t) (opA m c) (opB m c) (opb0 m c) (opW1 m c) (opb1 m c) (opw2 m c))
      (k0_pay3 (opb2 m c)) (ix2 r u) = G m c (((cfg0.win 9).blk t).view.emb (ix2 r u))
  refine (pay_apply (iblk m c 0 t) (iblk m c 1 t) (opA m c) (opB m c) (opb0 m c) (opW1 m c) (opb1 m c) (opw2 m c) (opb2 m c) r u).trans ?_
  unfold G
  have hrow : (⟨((((cfg0.win 9).blk t).view.emb (ix2 r u)) 0).val, idx2_lt0 _⟩ : Fin 500000)
      = (⟨t.val * 10000 + r.val, by have := t_lt t; omega⟩ : Fin 500000) := by
    refine Fin.ext ?_
    obtain ⟨-, -, -, -, -, -, -, -, -, -, -, -, -, -, -, -, -, -, e0, e1⟩ := idx_facts t
    show win0_9.index t (0 : Fin 2) * 10000 + 1 * r.val = t.val * 10000 + r.val
    omega
  rw [hrow]
  exact rowsMlp_congr _ _ _ _ _ _ _ _ _ _ _ r _ (fun i => blkX m c t r i) (fun i => blkFe m c t r i)

/-! ## The cover -/

theorem mem_blk (t : Fin cfg0.N) (i : S500000x1.Idx) :
    i ∈ ((cfg0.win 9).blk t).view.set ↔ ∀ a : Fin 2, win0_9.index t a * S10000x1.size a ≤ (i a).val ∧ (i a).val < win0_9.index t a * S10000x1.size a + S10000x1.size a := by
  show i ∈ ((View.whole main_v105).slice (win0_9.rect t)).set ↔ _
  rw [View.set_slice_whole, Rect.mem_set_unit]
  exact Iff.rfl

/-- Every row of the output column lies in the block of the point that its number divided by 10000 names. -/
theorem cover (i : S500000x1.Idx) : ∃ t : Fin cfg0.N, (cfg0.win 9).flush t = true ∧ i ∈ ((cfg0.win 9).blk t).view.set := by
  have hi0 : (i 0).val < 500000 := (i 0).isLt
  have hi1 : (i 1).val < 1 := (i 1).isLt
  obtain ⟨t, ht⟩ := idx_onto ⟨(i 0).val / 10000, by omega⟩
  have q0 : win0_9.index t (0 : Fin 2) = (i 0).val / 10000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 10000 ≤ (i 0).val ∧ (i 0).val < win0_9.index t (0 : Fin 2) * 10000 + 10000; omega
  | ⟨1, _⟩ => show win0_9.index t (1 : Fin 2) * 1 ≤ (i 1).val ∧ (i 1).val < win0_9.index t (1 : Fin 2) * 1 + 1; omega

/-- The output array after the run is G of the staged arrays. -/
theorem final (c : Dev nD) : (dats m 0 c).arrAt 9 cfg0.N = G m c :=
  (dats m 0 c).arrAt_eq_of_cover 9 (G m c) (fun t _ => flushed_eq m c t) (cover)

end Cert.KernelIdeal.KValue

end
-- ==== Proof.KernelRun.lean ====
/-
  The kernel program's run with its result named.

  After the region one reshape turns the output column [500000, 1] into the result vector [500000]: entry n of the
  result is row n of the column, which is the three layers of row n of the staged arrays.
-/
import proofs.«108793_j65506841199156_2_alg».proof.Proof.FrameIdeal
import proofs.«108793_j65506841199156_2_alg».proof.Proof.KernelValue
import Idealize.ShloMosaic.Lib.Pipeline.Value
import Idealize.ShloMosaic.Lib.StableHlo.Run

set_option maxRecDepth 16384

noncomputable section

namespace Cert.KernelIdeal.KRun

open Cert.KernelIdeal Cert.KernelIdeal.Gen Cert.KernelIdeal.Fr Cert.KernelIdeal.Payload Cert.KernelIdeal.KValue
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The result vector as one function of the staged arrays: entry n is the three layers of row n. -/
def result (c : Dev nD) : S500000.Idx → EReal := fun i =>
  rowsMlp (opX m c) (opFe m c) (opA m c) (opB m c) (opb0 m c) (opW1 m c) (opb1 m c) (opw2 m c) (opb2 m c)
    (⟨(i 0).val, (i 0).isLt⟩ : Fin 500000)

/-- What the reshape after the region leaves in the result buffer. -/
theorem tail_eq (c : Dev nD) :
    Pipeline.afterTail₀ cfgs (dats m) 0 (V0 m) [hostOps1] c main_v106 = result m c := by
  unfold Pipeline.afterTail₀
  show StableHlo.after hostOps1 _ (Proc.devRef .tc main_v106) = _
  after_results
  rw [Pipeline.withArrays_arr spec0 launch0.win.arr_inj c _ _ 9]
  rw [final m c]
  funext i
  obtain ⟨n, rfl⟩ : ∃ n : Fin 500000, i = ix1 n := ⟨i 0, eq_ix1 i⟩
  refine (shapeCast_apply (G m c) _ (ix1 n) (ix2 n (0 : Fin 1)) ?_).trans ?_
  · rw [Shape.rowMajor_val_two, Shape.rowMajor_val_one]
    show n.val * 1 + 0 = n.val
    omega
  · rfl

/-- The run: it ends with the result buffer at that function, and the arguments as launched. -/
theorem run : θ_run defs (onTc (τ := τ) (main (F := Ideal))) ⟨m, fun _ => 0, ρ⟩ (fun r => ∀ c : Dev nD,
      r.2.mem ((c.tc : Thread nD τ).loc main_v106) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v106 (Pipeline.mem_restRefs_of main_v106 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c)⟩)
    (run_main m ρ)

end Cert.KernelIdeal.KRun

end
-- ==== Proof.HostValRest.lean ====
/-
  The host operations that run after the coordinate clip and before the kernel's launch, as one list, and the
  tactic that spells the list out operation by operation.
-/
import proofs.«108793_j65506841199156_2_alg».proof.Proof.Gen.KernelIdeal.Launch
import Idealize.ShloMosaic.Lib.StableHlo.Run
import Idealize.ShloMosaic.PureOps.Ideal

noncomputable section

namespace Cert.KernelIdeal.HostVal

open Cert.KernelIdeal Cert.KernelIdeal.Gen Idealize.ShloMosaic Idealize.ShloMosaic.TcCoe Idealize.SL.Sem Idealize.ShloMosaic.StableHlo

/-- Everything the host runs after the clip and before the kernel's launch. -/
abbrev rest : List (HloOp τ sig (Elt Ideal)) :=
  List.flatten [hostOps0_2, hostOps0_3, hostOps0_4, hostOps0_5, hostOps0_6, hostOps0_7, hostOps0_8, hostOps0_9, hostOps0_10]

/-- Writes `rest` out as the literal list of its operations. -/
macro "open_rest" : tactic => `(tactic| simp only [rest, hostOps0_2, hostOps0_3, hostOps0_4, hostOps0_5, hostOps0_6, hostOps0_7,
    hostOps0_8, hostOps0_9, hostOps0_10,
    List.flatten_cons, List.flatten_nil, List.append_nil, List.cons_append, List.nil_append])

end Cert.KernelIdeal.HostVal

end
-- ==== Proof.HostValSmall.lean ====
/-
  The kernel program's host side, the operands that are only re-laid or re-typed: the points' own columns, the two
  row blocks of the first weight matrix, the second weight matrix, the last weight column as a row, and the three bias
  vectors as one-row matrices. On the extended reals a change of float format is the identity, so each of them read at
  an index is an argument array read at an index.
-/
import proofs.«108793_j65506841199156_2_alg».proof.Proof.HostValRest
import Idealize.ShloMosaic.Lib.Pipeline.Value
import Idealize.ShloMosaic.Lib.ValueLayout

noncomputable section

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx

/-- The points' own columns are the first argument's. -/
theorem x_read (W : Valuation τ sig (Elt Ideal)) (n : Fin 500000) (k : Fin 131) :
    (StableHlo.after rest W (Proc.devRef .tc main_v94) : S500000x131.Idx → EReal) (ix2 n k)
      = (W (Proc.devRef .tc main_arg0) : S500000x131.Idx → EReal) (ix2 n k) := by
  open_rest
  after_results_simp
  rfl

/-- The first 131 rows of the first weight matrix. -/
theorem w0x_read (W : Valuation τ sig (Elt Ideal)) (k : Fin 131) (j : Fin 256) :
    (StableHlo.after rest W (Proc.devRef .tc main_v97) : S131x256.Idx → EReal) (ix2 k j)
      = (W (Proc.devRef .tc main_arg2) : S227x256.Idx → EReal) (ix2 (⟨k.val, by omega⟩ : Fin 227) j) := by
  open_rest
  after_results_simp
  show extractStridedSlice S131x256 ![0, 0] (W (Proc.devRef .tc main_arg2) : S227x256.Idx → EReal) slices_S227x256_S131x256_0_0 (ix2 k j) = _
  exact slice2_axis0_apply 0 _ _ k j _ (by show k.val = 0 + k.val; omega)

/-- The last 96 rows of the first weight matrix. -/
theorem w0f_read (W : Valuation τ sig (Elt Ideal)) (k : Fin 96) (j : Fin 256) :
    (StableHlo.after rest W (Proc.devRef .tc main_v99) : S96x256.Idx → EReal) (ix2 k j)
      = (W (Proc.devRef .tc main_arg2) : S227x256.Idx → EReal) (ix2 (⟨131 + k.val, by omega⟩ : Fin 227) j) := by
  open_rest
  after_results_simp
  show extractStridedSlice S96x256 ![131, 0] (W (Proc.devRef .tc main_arg2) : S227x256.Idx → EReal) slices_S227x256_S96x256_131_0 (ix2 k j) = _
  exact slice2_axis0_apply 131 _ _ k j _ rfl

/-- The second weight matrix. -/
theorem w1_read (W : Valuation τ sig (Elt Ideal)) (k j : Fin 256) :
    (StableHlo.after rest W (Proc.devRef .tc main_v100) : S256x256.Idx → EReal) (ix2 k j)
      = (W (Proc.devRef .tc main_arg4) : S256x256.Idx → EReal) (ix2 k j) := by
  open_rest
  after_results_simp
  rfl

/-- The last weight column, laid as a row. -/
theorem w2_read (W : Valuation τ sig (Elt Ideal)) (k : Fin 256) :
    (StableHlo.after rest W (Proc.devRef .tc main_v101) : S1x256.Idx → EReal) (ix2 (0 : Fin 1) k)
      = (W (Proc.devRef .tc main_arg6) : S256x1.Idx → EReal) (ix2 k (0 : Fin 1)) := by
  open_rest
  after_results_simp
  show shapeCast S1x256 (W (Proc.devRef .tc main_arg6) : S256x1.Idx → EReal) shapeCasts_S256x1_S1x256 (ix2 (0 : Fin 1) k) = _
  refine shapeCast_apply _ _ _ (ix2 k (0 : Fin 1)) ?_
  rw [Shape.rowMajor_val_two, Shape.rowMajor_val_two]
  show k.val * 1 + 0 = 0 * 256 + k.val
  omega

/-- The first bias as a one-row matrix. -/
theorem b0_read (W : Valuation τ sig (Elt Ideal)) (j : Fin 256) :
    (StableHlo.after rest W (Proc.devRef .tc main_v102) : S1x256.Idx → EReal) (ix2 (0 : Fin 1) j)
      = (W (Proc.devRef .tc main_arg3) : S256.Idx → EReal) (ix1 j) := by
  open_rest
  after_results_simp
  show shapeCast S1x256 (W (Proc.devRef .tc main_arg3) : S256.Idx → EReal) shapeCasts_S256_S1x256 (ix2 (0 : Fin 1) j) = _
  exact shapeCast_a_1a_apply _ _ _ _

/-- The second bias as a one-row matrix. -/
theorem b1_read (W : Valuation τ sig (Elt Ideal)) (j : Fin 256) :
    (StableHlo.after rest W (Proc.devRef .tc main_v103) : S1x256.Idx → EReal) (ix2 (0 : Fin 1) j)
      = (W (Proc.devRef .tc main_arg5) : S256.Idx → EReal) (ix1 j) := by
  open_rest
  after_results_simp
  show shapeCast S1x256 (W (Proc.devRef .tc main_arg5) : S256.Idx → EReal) shapeCasts_S256_S1x256 (ix2 (0 : Fin 1) j) = _
  exact shapeCast_a_1a_apply _ _ _ _

/-- The last bias as a one-by-one matrix. -/
theorem b2_read (W : Valuation τ sig (Elt Ideal)) :
    (StableHlo.after rest W (Proc.devRef .tc main_v104) : S1x1.Idx → EReal) (ix2 (0 : Fin 1) (0 : Fin 1))
      = (W (Proc.devRef .tc main_arg7) : S1.Idx → EReal) (ix1 (0 : Fin 1)) := by
  open_rest
  after_results_simp
  show shapeCast S1x1 (W (Proc.devRef .tc main_arg7) : S1.Idx → EReal) shapeCasts_S1_S1x1 (ix2 (0 : Fin 1) (0 : Fin 1)) = _
  exact shapeCast_a_1a_apply _ _ _ _

end Cert.KernelIdeal.HostVal

end
-- ==== Proof.SpecWords.lean ====
/-
  The corner words of a clipped coordinate.

  A clipped coordinate g lies in [0, 512], so it is a real number r; its whole part is the integer ⌊r⌋ in 0 … 512,
  which converts to the 32-bit word of that integer; the next grid line, capped at 512, is again such a word.  So
  every corner word, read signed or unsigned, is a grid line 0 … 512.
-/
import proofs.«108793_j65506841199156_2_alg».proof.Proof.Spec
import Idealize.ShloMosaic.PureOps.Ideal.Laws

noncomputable section

namespace Cert.Spec

open Idealize.ShloMosaic Idealize.ShloMosaic.ValueIdx

/-- What is known of the clipped coordinates: each lies between the float zero and 512. -/
def InGrid (g : ArrG) : Prop :=
  ∀ (p : Fin 3) (n : Fin 500000) (a : Fin 2), zero ≤ g (ix3 p n a) ∧ g (ix3 p n a) ≤ ((512 : ℝ) : EReal)

/-- A clipped coordinate is a real number between 0 and 512. -/
theorem exists_real {g : ArrG} (hg : InGrid g) (p : Fin 3) (n : Fin 500000) (a : Fin 2) :
    ∃ r : ℝ, g (ix3 p n a) = (r : EReal) ∧ 0 ≤ r ∧ r ≤ 512 := by
  obtain ⟨h0, h1⟩ := hg p n a
  rw [show zero = (0 : EReal) from Ideal.ofBits_zero_f32] at h0
  induction h : g (ix3 p n a) using EReal.rec with
  | bot => rw [h] at h0; exact absurd h0 (by simp)
  | top => rw [h] at h1; exact absurd h1 (by simp)
  | coe r =>
    rw [h] at h0 h1
    exact ⟨r, rfl, by exact_mod_cast h0, by exact_mod_cast h1⟩

/-- The lower corner word is the word of the integer ⌊r⌋. -/
theorem lo_eq {g : ArrG} (hg : InGrid g) (p : Fin 3) (n : Fin 500000) (a : Fin 2) :
    ∃ k : ℤ, 0 ≤ k ∧ k ≤ 512 ∧ lo g p n a = BitVec.ofInt 32 k := by
  obtain ⟨r, hr, h0, h1⟩ := exists_real hg p n a
  refine ⟨⌊r⌋, Int.floor_nonneg.mpr h0, ?_, ?_⟩
  · have : ⌊r⌋ ≤ ⌊(512 : ℝ)⌋ := Int.floor_le_floor h1
    simpa using this
  · have hk0 : (0 : ℤ) ≤ ⌊r⌋ := Int.floor_nonneg.mpr h0
    have hk1 : ⌊r⌋ ≤ 512 := by
      have : ⌊r⌋ ≤ ⌊(512 : ℝ)⌋ := Int.floor_le_floor h1
      simpa using this
    unfold lo fl
    rw [hr, Ideal.liftRound_coe, Ideal.fptosi, Ideal.toIntClamped_coe]
    have hc : (0 : ℝ) ≤ ((⌊r⌋ : ℤ) : ℝ) := by exact_mod_cast hk0
    rw [if_pos hc, Int.floor_intCast]
    congr 1
    omega

/-- The lower corner word read signed is a grid line. -/
theorem lo_range {g : ArrG} (hg : InGrid g) (p : Fin 3) (n : Fin 500000) (a : Fin 2) :
    0 ≤ (lo g p n a).toInt ∧ (lo g p n a).toInt ≤ 512 := by
  obtain ⟨k, h0, h1, hk⟩ := lo_eq hg p n a
  rw [hk, BitVec.toInt_ofInt]
  have : k.bmod (2 ^ 32) = k := by
    apply Int.bmod_eq_of_le <;> omega
  rw [this]; exact ⟨h0, h1⟩

/-- The upper corner word read signed is a grid line: the next one, or the last. -/
theorem hi_range {g : ArrG} (hg : InGrid g) (p : Fin 3) (n : Fin 500000) (a : Fin 2) :
    0 ≤ (hi g p n a).toInt ∧ (hi g p n a).toInt ≤ 512 := by
  obtain ⟨h0, h1⟩ := lo_range hg p n a
  unfold hi IntOp.minsi IntOp.addi
  generalize lo g p n a = w at h0 h1 ⊢
  have hw : (w + 1#32).toInt = w.toInt + 1 := by
    rw [BitVec.toInt_add]
    have : (1#32 : BitVec 32).toInt = 1 := by decide
    rw [this]
    apply Int.bmod_eq_of_le <;> omega
  have h512 : (512#32 : BitVec 32).toInt = 512 := by decide
  by_cases hs : (w + 1#32).slt 512#32
  · rw [if_pos hs, hw]
    have hlt : (w + 1#32).toInt < (512#32 : BitVec 32).toInt := by
      simpa [BitVec.slt] using hs
    rw [hw, h512] at hlt
    omega
  · rw [if_neg hs, h512]; omega

/-- A word whose signed value is a grid line: its unsigned value is the same number. -/
theorem toNat_of_range {w : BitVec 32} (h : 0 ≤ w.toInt ∧ w.toInt ≤ 512) : (w.toNat : ℤ) = w.toInt ∧ w.toNat ≤ 512 := by
  have := BitVec.toInt_eq_toNat_bmod w
  have hlt := w.isLt
  rcases BitVec.toInt_eq_toNat_cond w with hc
  rw [hc] at h
  split at h <;> rename_i hh
  · rw [hc, if_pos hh]; exact ⟨rfl, by omega⟩
  · exfalso; omega

/-- … and the grid line it names is that number. -/
theorem cell_val_of_range {w : BitVec 32} (h : 0 ≤ w.toInt ∧ w.toInt ≤ 512) : ((cell w).val : ℤ) = w.toInt := by
  obtain ⟨h1, h2⟩ := toNat_of_range h
  unfold cell
  show ((min w.toNat 512 : ℕ) : ℤ) = w.toInt
  rw [Nat.min_eq_left h2, h1]

end Cert.Spec

end
-- ==== Proof.HostValGather.lean ====
/-
  The batched row gather read at an index, and the 32-bit arithmetic of the flat row words.

  The host lays the table P out as [3, 513·513, 32] (plane, flat grid position, channel) and gathers, for every
  plane and point, the row at the flat position y·513 + x computed in 32-bit words. Read at (plane p, point n,
  channel ch) the gather is the table at (p, the word read signed and clamped to [0, 513·513 − 1], ch). For corner
  words with signed values in [0, 512] the flat word's signed value is y·513 + x itself, the clamp leaves it alone,
  and its quotient and remainder by 513 give back y and x.
-/
import proofs.«108793_j65506841199156_2_alg».proof.Proof.Gen.KernelIdeal
import proofs.«108793_j65506841199156_2_alg».proof.Proof.SpecWords
import Idealize.ShloMosaic.Lib.ValueIdx
import Idealize.ShloMosaic.Lib.Pipeline.Value

noncomputable section

namespace Cert.KernelIdeal.HostVal

open Cert.KernelIdeal Cert.KernelIdeal.Gen Idealize.ShloMosaic
open Idealize.ShloMosaic.ValueIdx

/-- The batched row gather's dimension numbers: plane is a batching axis of table and words alike, the word names
    the row, the 32 channels of the row are the slice. -/
abbrev rowsDims : GatherDims S3x263169x32 S3x500000x1 S3x500000x32 :=
  gather_S3x263169x32_S3x500000x1_S3x500000x32_2_1_0_0_1_2_1132

/-- The gather read at (p, n, ch): the table at plane p, at the row the word for (p, n) names — read signed and
    clamped into the table —, at channel ch. -/
theorem gather_rows_apply {α : Type} (x : S3x263169x32.Idx → α) (idx : IVec S3x500000x1 32)
    (p : Fin 3) (n : Fin 500000) (ch : Fin 32) :
    Host.gather rowsDims x idx (ix3 p n ch)
      = x (ix3 p (⟨min (idx (ix3 p n (0 : Fin 1))).toInt.toNat 263168, by omega⟩ : Fin 263169) ch) := by
  unfold Host.gather
  refine congrArg x (funext fun a => Fin.ext ?_)
  show rowsDims.start (ix3 p n ch) idx a + rowsDims.batchCoord (ix3 p n ch) a + rowsDims.offCoord (ix3 p n ch) a = _
  match a with
  | ⟨0, _⟩ =>
    -- plane: no start (the word does not name it), the batching coordinate p, no offset
    show rowsDims.start (ix3 p n ch) idx (0 : Fin 3) + rowsDims.batchCoord (ix3 p n ch) (0 : Fin 3)
      + rowsDims.offCoord (ix3 p n ch) (0 : Fin 3) = p.val
    rw [GatherDims.start_batching _ _ _ _ (by decide),
      GatherDims.offCoord_eq_zero _ _ _ (fun h => ((GatherDims.mem_sKept _ _).mp h).2 (by decide)),
      Nat.zero_add, Nat.add_zero]
    rfl
  | ⟨1, _⟩ =>
    -- row: the word, read signed and clamped; no batching coordinate, no offset
    show rowsDims.start (ix3 p n ch) idx (1 : Fin 3) + rowsDims.batchCoord (ix3 p n ch) (1 : Fin 3)
      + rowsDims.offCoord (ix3 p n ch) (1 : Fin 3) = min (idx (ix3 p n (0 : Fin 1))).toInt.toNat 263168
    rw [GatherDims.batchCoord_eq_zero _ _ _ (by decide),
      GatherDims.offCoord_eq_zero _ _ _ (fun h => ((GatherDims.mem_sKept _ _).mp h).1 (by decide)),
      Nat.add_zero]
    unfold GatherDims.start
    rw [dif_pos (show (1 : Fin 3) ∈ rowsDims.startIndexMap by decide)]
    have hsi : rowsDims.siIdx (ix3 p n ch) ⟨List.idxOf (1 : Fin 3) rowsDims.startIndexMap,
        List.idxOf_lt_length_iff.2 (by decide)⟩ = ix3 p n (0 : Fin 1) := by
      funext b; refine Fin.ext ?_
      match b with
      | ⟨0, _⟩ => rfl
      | ⟨1, _⟩ => rfl
      | ⟨2, _⟩ => rfl
    rw [hsi]
    rfl
  | ⟨2, _⟩ =>
    -- channel: no start, no batching coordinate, the offset ch
    show rowsDims.start (ix3 p n ch) idx (2 : Fin 3) + rowsDims.batchCoord (ix3 p n ch) (2 : Fin 3)
      + rowsDims.offCoord (ix3 p n ch) (2 : Fin 3) = ch.val
    rw [GatherDims.batchCoord_eq_zero _ _ _ (by decide), Nat.add_zero]
    unfold GatherDims.start
    rw [dif_neg (show (2 : Fin 3) ∉ rowsDims.startIndexMap by decide), Nat.zero_add]
    rfl

/-- The flat row word of two corner words that name grid lines: read signed and clamped into the table it is
    y·513 + x, the grid lines' own numbers. -/
theorem flat_word (wy wx : BitVec 32) (hy : 0 ≤ wy.toInt ∧ wy.toInt ≤ 512) (hx : 0 ≤ wx.toInt ∧ wx.toInt ≤ 512) :
    min (IntOp.addi (IntOp.muli wy 513#32) wx).toInt.toNat 263168
      = (Cert.Spec.cell wy).val * 513 + (Cert.Spec.cell wx).val := by
  obtain ⟨hy1, hy2⟩ := Cert.Spec.toNat_of_range hy
  obtain ⟨hx1, hx2⟩ := Cert.Spec.toNat_of_range hx
  have hcy : (Cert.Spec.cell wy).val = wy.toNat := Nat.min_eq_left hy2
  have hcx : (Cert.Spec.cell wx).val = wx.toNat := Nat.min_eq_left hx2
  have hn : (IntOp.addi (IntOp.muli wy 513#32) wx).toNat = wy.toNat * 513 + wx.toNat := by
    unfold IntOp.addi IntOp.muli
    rw [BitVec.toNat_add, BitVec.toNat_mul]
    have h513 : (513#32 : BitVec 32).toNat = 513 := by decide
    rw [h513]
    omega
  have hi : (IntOp.addi (IntOp.muli wy 513#32) wx).toInt = ((wy.toNat * 513 + wx.toNat : ℕ) : ℤ) := by
    rw [BitVec.toInt_eq_toNat_of_lt (by rw [hn]; omega), hn]
  rw [hi, Int.toNat_natCast, hcy, hcx]
  omega

end Cert.KernelIdeal.HostVal

end
-- ==== Proof.HostValStages.lean ====
/-
  The feature chain of the kernel program's host side, stage by stage, over variables.

  From the clipped coordinates g [3, 500000, 2] (plane, point, axis) and the table laid out as Pt [3, 513, 513, 32]
  (plane, y, x, channel): the coordinates along one axis as a [3, 500000] array; their whole parts, as floats and
  as 32-bit words; the next grid line, capped; the fractional parts as a [3, 500000, 1] column; the flat row words
  y·513 + x; the four gathered corner arrays; the two blends along x and the blend along y in the [3, 500000, 32]
  layout; and the point-major rows [500000, 96]. Each stage is read at an index with explicit coordinates, and the
  rows come out as the specification's feature row.
-/
import proofs.«108793_j65506841199156_2_alg».proof.Proof.HostValGather
import Idealize.ShloMosaic.Lib.ValueLayout

noncomputable section

namespace Cert.KernelIdeal.HostVal

open Cert.KernelIdeal Cert.KernelIdeal.Gen Idealize.ShloMosaic
open Idealize.ShloMosaic.ValueIdx

/-! ## The coordinates along one axis, their whole and fractional parts, the corner words -/

/-- The clipped coordinates along x (axis 0) of every plane and point. -/
def coordX (g : FVec Ideal S3x500000x2 .f32) : FVec Ideal S3x500000 .f32 :=
  shapeCast S3x500000 (extractStridedSlice S3x500000x1 ![0, 0, 0] g slices_S3x500000x2_S3x500000x1_0_0_0)
    shapeCasts_S3x500000x1_S3x500000

/-- The clipped coordinates along y (axis 1) of every plane and point. -/
def coordY (g : FVec Ideal S3x500000x2 .f32) : FVec Ideal S3x500000 .f32 :=
  shapeCast S3x500000 (extractStridedSlice S3x500000x1 ![0, 0, 1] g slices_S3x500000x2_S3x500000x1_0_0_1)
    shapeCasts_S3x500000x1_S3x500000

theorem coordX_apply (g : FVec Ideal S3x500000x2 .f32) (p : Fin 3) (n : Fin 500000) :
    coordX g (ix2 p n) = g (ix3 p n (0 : Fin 2)) := by
  unfold coordX
  refine (shapeCast_apply _ _ _ (ix3 p n (0 : Fin 1)) ?_).trans ?_
  · rw [Shape.rowMajor_val_three, Shape.rowMajor_val_two]
    show (p.val * 500000 + n.val) * 1 + 0 = p.val * 500000 + n.val
    omega
  · exact extractStridedSlice_apply _ _ _ _ (ix3 p n (0 : Fin 2)) (fun a => match a with
      | ⟨0, _⟩ => (Nat.zero_add _).symm
      | ⟨1, _⟩ => (Nat.zero_add _).symm
      | ⟨2, _⟩ => rfl)

theorem coordY_apply (g : FVec Ideal S3x500000x2 .f32) (p : Fin 3) (n : Fin 500000) :
    coordY g (ix2 p n) = g (ix3 p n (1 : Fin 2)) := by
  unfold coordY
  refine (shapeCast_apply _ _ _ (ix3 p n (0 : Fin 1)) ?_).trans ?_
  · rw [Shape.rowMajor_val_three, Shape.rowMajor_val_two]
    show (p.val * 500000 + n.val) * 1 + 0 = p.val * 500000 + n.val
    omega
  · exact extractStridedSlice_apply _ _ _ _ (ix3 p n (1 : Fin 2)) (fun a => match a with
      | ⟨0, _⟩ => (Nat.zero_add _).symm
      | ⟨1, _⟩ => (Nat.zero_add _).symm
      | ⟨2, _⟩ => rfl)

/-- The lower corner words of a coordinate array: the whole parts, converted to 32-bit integers. -/
def wordLo (c : FVec Ideal S3x500000 .f32) : IVec S3x500000 32 := fptosi 32 (Host.floor c)

/-- The upper corner words: the next grid line, capped at 512. -/
def wordHi (w : IVec S3x500000 32) : IVec S3x500000 32 :=
  minsi (addi w (broadcastInDim S3x500000 ![] bcast_S_S3x500000 (constantI S_ 32 1#32)))
    (broadcastInDim S3x500000 ![] bcast_S_S3x500000 (constantI S_ 32 512#32))

/-- The fractional parts of a coordinate array, as a column per plane and point. -/
def fracCol (c : FVec Ideal S3x500000 .f32) : FVec Ideal S3x500000x1 .f32 :=
  broadcastInDim S3x500000x1 ![0, 1] bcast_S3x500000_S3x500000x1_0_1 (subf c (Host.floor c))

theorem wordLo_apply (c : FVec Ideal S3x500000 .f32) (i : S3x500000.Idx) :
    wordLo c i = Ideal.fptosi 32 (Ideal.liftRound Int.floor (c i)) := rfl

theorem wordHi_apply (w : IVec S3x500000 32) (i : S3x500000.Idx) :
    wordHi w i = IntOp.minsi (IntOp.addi (w i) 1#32) 512#32 := rfl

theorem fracCol_apply (c : FVec Ideal S3x500000 .f32) (p : Fin 3) (n : Fin 500000) (u : Fin 1) :
    fracCol c (ix3 p n u) = c (ix2 p n) - Ideal.liftRound Int.floor (c (ix2 p n)) := by
  unfold fracCol
  exact broadcastInDim_apply _ _ _ _ (ix2 p n) (fun a => match a with
    | ⟨0, _⟩ => rfl
    | ⟨1, _⟩ => rfl)

/-- The lower words along x are the specification's. -/
theorem wordLo_coordX (g : FVec Ideal S3x500000x2 .f32) (p : Fin 3) (n : Fin 500000) :
    wordLo (coordX g) (ix2 p n) = Cert.Spec.lo g p n 0 := by
  rw [wordLo_apply, coordX_apply]; rfl

theorem wordLo_coordY (g : FVec Ideal S3x500000x2 .f32) (p : Fin 3) (n : Fin 500000) :
    wordLo (coordY g) (ix2 p n) = Cert.Spec.lo g p n 1 := by
  rw [wordLo_apply, coordY_apply]; rfl

theorem wordHi_coordX (g : FVec Ideal S3x500000x2 .f32) (p : Fin 3) (n : Fin 500000) :
    wordHi (wordLo (coordX g)) (ix2 p n) = Cert.Spec.hi g p n 0 := by
  rw [wordHi_apply, wordLo_coordX]; rfl

theorem wordHi_coordY (g : FVec Ideal S3x500000x2 .f32) (p : Fin 3) (n : Fin 500000) :
    wordHi (wordLo (coordY g)) (ix2 p n) = Cert.Spec.hi g p n 1 := by
  rw [wordHi_apply, wordLo_coordY]; rfl

theorem fracCol_coordX (g : FVec Ideal S3x500000x2 .f32) (p : Fin 3) (n : Fin 500000) (u : Fin 1) :
    fracCol (coordX g) (ix3 p n u) = Cert.Spec.frac g p n 0 := by
  rw [fracCol_apply, coordX_apply]; rfl

theorem fracCol_coordY (g : FVec Ideal S3x500000x2 .f32) (p : Fin 3) (n : Fin 500000) (u : Fin 1) :
    fracCol (coordY g) (ix3 p n u) = Cert.Spec.frac g p n 1 := by
  rw [fracCol_apply, coordY_apply]; rfl

/-! ## The flat row words and the gathered corners -/

/-- The flat row words y·513 + x, in 32-bit arithmetic. -/
def flatWord (wy wx : IVec S3x500000 32) : IVec S3x500000 32 :=
  addi (muli wy (broadcastInDim S3x500000 ![] bcast_S_S3x500000 (constantI S_ 32 513#32))) wx

theorem flatWord_apply (wy wx : IVec S3x500000 32) (i : S3x500000.Idx) :
    flatWord wy wx i = IntOp.addi (IntOp.muli (wy i) 513#32) (wx i) := rfl

/-- The rows of the flattened table that the words name, for every plane and point. -/
def takeRows (Pt : FVec Ideal S3x513x513x32 .f32) (w : IVec S3x500000 32) : FVec Ideal S3x500000x32 .f32 :=
  Host.gather rowsDims (shapeCast S3x263169x32 Pt shapeCasts_S3x513x513x32_S3x263169x32)
    (broadcastInDim S3x500000x1 ![0, 1] bcast_S3x500000_S3x500000x1_0_1 w)

/-- The table in (plane, y, x, channel) order. -/
def tableYX (P : FVec Ideal S3x32x513x513 .f32) : FVec Ideal S3x513x513x32 .f32 :=
  transpose S3x513x513x32 [0, 2, 3, 1] P transposes_S3x32x513x513_S3x513x513x32_0_2_3_1

theorem tableYX_apply (P : FVec Ideal S3x32x513x513 .f32) (p : Fin 3) (y x : Fin 513) (ch : Fin 32) :
    tableYX P (ix4 p y x ch) = P (ix4 p ch y x) := by
  unfold tableYX
  exact transpose_apply _ _ _ _ (ix4 p ch y x) (fun b => match b with
    | ⟨0, _⟩ => rfl
    | ⟨1, _⟩ => rfl
    | ⟨2, _⟩ => rfl
    | ⟨3, _⟩ => rfl)

/-- A gathered corner read at (p, n, ch): for corner words that name grid lines, the table's entry of plane p,
    channel ch at those grid lines. -/
theorem takeRows_flatWord_apply (P : FVec Ideal S3x32x513x513 .f32) (wy wx : IVec S3x500000 32)
    (p : Fin 3) (n : Fin 500000) (ch : Fin 32)
    (hy : 0 ≤ (wy (ix2 p n)).toInt ∧ (wy (ix2 p n)).toInt ≤ 512)
    (hx : 0 ≤ (wx (ix2 p n)).toInt ∧ (wx (ix2 p n)).toInt ≤ 512) :
    takeRows (tableYX P) (flatWord wy wx) (ix3 p n ch)
      = Cert.Spec.corner P p ch (wy (ix2 p n)) (wx (ix2 p n)) := by
  unfold takeRows
  rw [gather_rows_apply]
  have hw : (broadcastInDim S3x500000x1 ![0, 1] bcast_S3x500000_S3x500000x1_0_1 (flatWord wy wx)) (ix3 p n (0 : Fin 1))
      = IntOp.addi (IntOp.muli (wy (ix2 p n)) 513#32) (wx (ix2 p n)) :=
    (broadcastInDim_apply _ _ _ _ (ix2 p n) (fun a => match a with
      | ⟨0, _⟩ => rfl
      | ⟨1, _⟩ => rfl)).trans (flatWord_apply wy wx (ix2 p n))
  have hr := flat_word (wy (ix2 p n)) (wx (ix2 p n)) hy hx
  rw [← hw] at hr
  refine (shapeCast_apply _ _ _ (ix4 p (Cert.Spec.cell (wy (ix2 p n))) (Cert.Spec.cell (wx (ix2 p n))) ch) ?_).trans ?_
  · rw [Shape.rowMajor_val_four, Shape.rowMajor_val_three]
    show ((p.val * 513 + (Cert.Spec.cell (wy (ix2 p n))).val) * 513 + (Cert.Spec.cell (wx (ix2 p n))).val) * 32 + ch.val
      = (p.val * 263169 + min ((broadcastInDim S3x500000x1 ![0, 1] bcast_S3x500000_S3x500000x1_0_1 (flatWord wy wx))
          (ix3 p n (0 : Fin 1))).toInt.toNat 263168) * 32 + ch.val
    rw [hr]
    generalize (Cert.Spec.cell (wy (ix2 p n))).val = a
    generalize (Cert.Spec.cell (wx (ix2 p n))).val = b
    omega
  · exact tableYX_apply P p _ _ ch

/-! ## The blends -/

/-- The blend of two [3, 500000, 32] arrays by a weight column: the first times (1 − weight) plus the second times
    the weight. -/
def blend (c0 c1 : FVec Ideal S3x500000x32 .f32) (f : FVec Ideal S3x500000x1 .f32) : FVec Ideal S3x500000x32 .f32 :=
  addf
    (mulf c0 (broadcastInDim S3x500000x32 ![0, 1, 2] bcast_S3x500000x1_S3x500000x32_0_1_2
      (subf (broadcastInDim S3x500000x1 ![] bcast_S_S3x500000x1 (constant S_ .f32 0x3F800000#32)) f)))
    (mulf c1 (broadcastInDim S3x500000x32 ![0, 1, 2] bcast_S3x500000x1_S3x500000x32_0_1_2 f))

theorem blend_apply (c0 c1 : FVec Ideal S3x500000x32 .f32) (f : FVec Ideal S3x500000x1 .f32)
    (p : Fin 3) (n : Fin 500000) (ch : Fin 32) :
    blend c0 c1 f (ix3 p n ch)
      = c0 (ix3 p n ch) * (Cert.Spec.one - f (ix3 p n (0 : Fin 1))) + c1 (ix3 p n ch) * f (ix3 p n (0 : Fin 1)) := by
  unfold blend
  have hb : ∀ v : FVec Ideal S3x500000x1 .f32,
      (broadcastInDim S3x500000x32 ![0, 1, 2] bcast_S3x500000x1_S3x500000x32_0_1_2 v) (ix3 p n ch) = v (ix3 p n (0 : Fin 1)) :=
    fun v => broadcastInDim_apply _ _ _ _ (ix3 p n (0 : Fin 1)) (fun a => match a with
      | ⟨0, _⟩ => rfl
      | ⟨1, _⟩ => rfl
      | ⟨2, _⟩ => rfl)
  rw [addf_apply, mulf_apply, mulf_apply, hb, hb, subf_apply]
  rfl

/-! ## The rows -/

/-- The blended features, point-major: [500000, 96], plane-major within a row. -/
def rowsOf (B : FVec Ideal S3x500000x32 .f32) : FVec Ideal S500000x96 .f32 :=
  shapeCast S500000x96 (transpose S500000x3x32 [1, 0, 2] B transposes_S3x500000x32_S500000x3x32_1_0_2)
    shapeCasts_S500000x3x32_S500000x96

theorem rowsOf_apply (B : FVec Ideal S3x500000x32 .f32) (n : Fin 500000) (q : Fin 96) :
    rowsOf B (ix2 n q) = B (ix3 (⟨q.val / 32, by omega⟩ : Fin 3) n (⟨q.val % 32, by omega⟩ : Fin 32)) := by
  unfold rowsOf
  refine (shapeCast_apply _ _ _ (ix3 n (⟨q.val / 32, by omega⟩ : Fin 3) (⟨q.val % 32, by omega⟩ : Fin 32)) ?_).trans ?_
  · rw [Shape.rowMajor_val_three, Shape.rowMajor_val_two]
    show (n.val * 3 + q.val / 32) * 32 + q.val % 32 = n.val * 96 + q.val
    omega
  · exact transpose_apply _ _ _ _ (ix3 (⟨q.val / 32, by omega⟩ : Fin 3) n (⟨q.val % 32, by omega⟩ : Fin 32)) (fun b => match b with
      | ⟨0, _⟩ => rfl
      | ⟨1, _⟩ => rfl
      | ⟨2, _⟩ => rfl)

/-! ## The whole chain -/

/-- The features the host hands the kernel, from the clipped coordinates and the table in (plane, y, x, channel)
    order: gather the four corners, blend along x on the lower and the upper line, blend along y, lay point-major. -/
def featRows (g : FVec Ideal S3x500000x2 .f32) (Pt : FVec Ideal S3x513x513x32 .f32) : FVec Ideal S500000x96 .f32 :=
  rowsOf
    (blend
      (blend (takeRows Pt (flatWord (wordLo (coordY g)) (wordLo (coordX g))))
        (takeRows Pt (flatWord (wordLo (coordY g)) (wordHi (wordLo (coordX g))))) (fracCol (coordX g)))
      (blend (takeRows Pt (flatWord (wordHi (wordLo (coordY g))) (wordLo (coordX g))))
        (takeRows Pt (flatWord (wordHi (wordLo (coordY g))) (wordHi (wordLo (coordX g))))) (fracCol (coordX g)))
      (fracCol (coordY g)))

/-- The chain read at (point n, column q) is the specification's feature row. -/
theorem featRows_apply (g : FVec Ideal S3x500000x2 .f32) (P : FVec Ideal S3x32x513x513 .f32) (hg : Cert.Spec.InGrid g)
    (n : Fin 500000) (q : Fin 96) :
    featRows g (tableYX P) (ix2 n q) = Cert.Spec.featRow g P n q := by
  unfold featRows
  rw [rowsOf_apply, blend_apply, blend_apply, blend_apply, fracCol_coordX, fracCol_coordY]
  have hlx := fun p => Cert.Spec.lo_range hg p n 0
  have hly := fun p => Cert.Spec.lo_range hg p n 1
  have hhx := fun p => Cert.Spec.hi_range hg p n 0
  have hhy := fun p => Cert.Spec.hi_range hg p n 1
  rw [takeRows_flatWord_apply P _ _ _ n _ (by rw [wordLo_coordY]; exact hly _) (by rw [wordLo_coordX]; exact hlx _),
    takeRows_flatWord_apply P _ _ _ n _ (by rw [wordLo_coordY]; exact hly _) (by rw [wordHi_coordX]; exact hhx _),
    takeRows_flatWord_apply P _ _ _ n _ (by rw [wordHi_coordY]; exact hhy _) (by rw [wordLo_coordX]; exact hlx _),
    takeRows_flatWord_apply P _ _ _ n _ (by rw [wordHi_coordY]; exact hhy _) (by rw [wordHi_coordX]; exact hhx _),
    wordLo_coordX, wordLo_coordY, wordHi_coordX, wordHi_coordY]
  rfl

end Cert.KernelIdeal.HostVal

end
-- ==== Proof.HostVal.lean ====
/-
  The kernel program's host side: the features it hands the kernel.

  Run from any contents W in which the table's (plane, y, x, channel) copy has been made and the clipped
  coordinates lie in the grid, the operations after the clip leave, in the features' buffer, at (point n, column q),
  the specification's feature row of the clipped coordinates and the table.
-/
import proofs.«108793_j65506841199156_2_alg».proof.Proof.HostValRest
import proofs.«108793_j65506841199156_2_alg».proof.Proof.HostValStages

noncomputable section

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx

/-- The features as the kernel receives them: the chain's rows, re-typed to the kernel's operand format (on the
    extended reals a change of float format is the identity). -/
def hostFeats (g : FVec Ideal S3x500000x2 .f32) (Pt : FVec Ideal S3x513x513x32 .f32) : FVec Ideal S500000x96 .bf16 :=
  truncf .bf16 (featRows g Pt) bitsLt_bf16_f32

theorem hostFeats_apply (g : FVec Ideal S3x500000x2 .f32) (P : FVec Ideal S3x32x513x513 .f32) (hg : Cert.Spec.InGrid g)
    (n : Fin 500000) (q : Fin 96) :
    hostFeats g (tableYX P) (ix2 n q) = Cert.Spec.featRow g P n q :=
  featRows_apply g P hg n q

set_option maxHeartbeats 1600000 in
/-- What the features' buffer holds after the operations, as the chain of the stage definitions. -/
theorem feats_term (W : Valuation τ sig (Elt Ideal)) :
    (StableHlo.after rest W (Proc.devRef .tc main_v95) : S500000x96.Idx → EReal)
      = hostFeats (W (Proc.devRef .tc main_v33)) (W (Proc.devRef .tc main_v26)) := by
  open_rest
  after_results_simp
  rfl

/-- The features read at (point n, column q). -/
theorem feats_read (W : Valuation τ sig (Elt Ideal)) (n : Fin 500000) (q : Fin 96)
    (hP : (W (Proc.devRef .tc main_v26) : S3x513x513x32.Idx → EReal)
      = transpose S3x513x513x32 [0, 2, 3, 1] (W (Proc.devRef .tc main_arg1) : S3x32x513x513.Idx → EReal)
          transposes_S3x32x513x513_S3x513x513x32_0_2_3_1)
    (hg : Cert.Spec.InGrid (W (Proc.devRef .tc main_v33))) :
    (StableHlo.after rest W (Proc.devRef .tc main_v95) : S500000x96.Idx → EReal) (ix2 n q)
      = Cert.Spec.featRow (W (Proc.devRef .tc main_v33)) (W (Proc.devRef .tc main_arg1)) n q := by
  rw [feats_term, hP]
  exact hostFeats_apply _ _ hg n q

end Cert.KernelIdeal.HostVal

end
-- ==== Proof.KernelBridge.lean ====
/-
  The kernel program's result is the specification, in the kernel's arrangement.

  The host operations before the launch fall into two stretches: up to the coordinate clip, and after it.  After the
  first stretch the clipped coordinates g lie in [0, 512] (they are a minimum with 512 of a maximum with 0), the
  transposed planes are the planes transposed, and the arguments are untouched.  The second stretch makes the nine
  staged arrays, each read at an index as an argument array or as a point's feature row.  So entry n of the result —
  the three layers of row n of the staged arrays — is the specification's output at n with the first layer's sum in
  two parts.
-/
import proofs.«108793_j65506841199156_2_alg».proof.Proof.KernelRun
import proofs.«108793_j65506841199156_2_alg».proof.Proof.HostValSmall
import proofs.«108793_j65506841199156_2_alg».proof.Proof.HostVal
import proofs.«108793_j65506841199156_2_alg».proof.Proof.SpecWords

set_option maxRecDepth 16384

noncomputable section

namespace Cert.KernelIdeal.KBridge

open Cert.KernelIdeal Cert.KernelIdeal.Gen Cert.KernelIdeal.Fr Cert.KernelIdeal.Payload Cert.KernelIdeal.KValue Cert.KernelIdeal.KRun
open Cert.KernelIdeal.HostVal
open Idealize.ShloMosaic Idealize.ShloMosaic.TcCoe Idealize.ShloMosaic.ValueIdx Idealize.ShloMosaic.StableHlo
open Idealize.SL Idealize.SL.Sem

/-- Running two lines one after the other folds the second over what the first leaves. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

variable (m : (ℓ : Loc nD τ sig) → Buf (Elt Ideal) ℓ)

/-- The operations before the clip's result, the clip included. -/
abbrev pre : List (HloOp τ sig (Elt Ideal)) := hostOps0 ++ hostOps0_1

/-- Core c's buffer contents right after the clip. -/
def Wc (c : Dev nD) : Valuation τ sig (Elt Ideal) := StableHlo.after pre (fun b => m (c, b))

/-- The region finds what the second stretch makes of those contents. -/
theorem V_split (c : Dev nD) (b : Ref sig .tc) :
    V m c b = StableHlo.after HostVal.rest (Wc m c) (Proc.devRef .tc b) := by
  unfold Wc
  rw [← after_append]
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc b) = _
  refine congrArg (fun l => StableHlo.after l (fun b => m (c, b)) (Proc.devRef .tc b)) ?_
  simp only [pre, HostVal.rest, List.flatten_cons, List.flatten_nil, List.append_nil, List.append_assoc]

/-- The clip leaves every argument array as launched. -/
theorem Wc_arg (c : Dev nD) (r : Ref sig .tc) (hr : r ∈ argRefs) : Wc m c (Proc.devRef .tc r) = m ((c : Thread nD τ).loc r) :=
  StableHlo.after_of_forall_not_mem (b := Proc.devRef .tc r) _ _ (List.forall_iff_forall_mem.mp (by
    simp only [pre, hostOps0, hostOps0_1, StableHlo.TRef.unary, StableHlo.TRef.binary, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne ((by decide : ∀ r ∈ argRefs, r ≠ _) r hr)))

/-- The transposed planes are the planes argument transposed. -/
theorem Wc_planes (c : Dev nD) :
    Wc m c (Proc.devRef .tc main_v26)
      = transpose S3x513x513x32 [0, 2, 3, 1] (Wc m c (Proc.devRef .tc main_arg1)) transposes_S3x32x513x513_S3x513x513x32_0_2_3_1 := by
  rw [Wc_arg m c main_arg1 (by decide)]
  unfold Wc
  simp only [pre, hostOps0, hostOps0_1, StableHlo.TRef.unary, StableHlo.TRef.binary, List.cons_append, List.nil_append]
  after_results

/-- The clip's result is a minimum with 512 of a maximum with 0. -/
theorem Wc_grid (c : Dev nD) : ∃ T : S3x500000x2.Idx → EReal,
    (Wc m c (Proc.devRef .tc main_v33) : S3x500000x2.Idx → EReal)
      = fun i => min (((512#32 : BitVec 32).toInt : ℝ) : EReal) (max Cert.Spec.zero (T i)) := by
  unfold Wc pre
  rw [after_append]
  have h11 : StableHlo.after hostOps0 (fun b => m (c, b)) (Proc.devRef .tc main_c_11) = constantI S_ 32 512#32 := by
    simp only [hostOps0]; after_results
  have h10 : StableHlo.after hostOps0 (fun b => m (c, b)) (Proc.devRef .tc main_cst_10) = constant (F := Ideal) S_ .f32 0x00000000#32 := by
    simp only [hostOps0]; after_results
  generalize StableHlo.after hostOps0 (fun b => m (c, b)) = W' at h11 h10 ⊢
  refine ⟨(W' (Proc.devRef .tc main_v32) : S3x500000x2.Idx → EReal), ?_⟩
  simp only [hostOps0_1, StableHlo.TRef.unary, StableHlo.TRef.binary]
  after_results
  rw [h11, h10]
  rfl

/-- So every clipped coordinate lies in [0, 512]. -/
theorem inGrid (c : Dev nD) : Cert.Spec.InGrid (Wc m c (Proc.devRef .tc main_v33)) := by
  obtain ⟨T, hT⟩ := Wc_grid m c
  intro p n a
  have h512 : (((512#32 : BitVec 32).toInt : ℝ) : EReal) = ((512 : ℝ) : EReal) := by
    have : (512#32 : BitVec 32).toInt = 512 := by decide
    rw [this]; norm_num
  have hz : Cert.Spec.zero ≤ ((512 : ℝ) : EReal) := by
    rw [show Cert.Spec.zero = (0 : EReal) from Ideal.ofBits_zero_f32]
    exact_mod_cast (by norm_num : (0 : ℝ) ≤ 512)
  have e : (Wc m c (Proc.devRef .tc main_v33) : S3x500000x2.Idx → EReal) (ix3 p n a)
      = min ((512 : ℝ) : EReal) (max Cert.Spec.zero (T (ix3 p n a))) := by
    rw [hT, h512]
  rw [e]
  exact ⟨le_min hz (le_max_left _ _), min_le_left _ _⟩

/-- Entry n of the result is the specification's output at n, the first layer's sum in two parts. -/
theorem result_read (c : Dev nD) (n : Fin 500000) :
    result m c (ix1 n)
      = Cert.Spec.outSplit (Wc m c (Proc.devRef .tc main_v33)) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) n := by
  have hX : ∀ i : Fin 131, opX m c (ix2 n i) = (m ((c : Thread nD τ).loc main_arg0) : S500000x131.Idx → EReal) (ix2 n i) := fun i => by
    show (V m c main_v94 : S500000x131.Idx → EReal) (ix2 n i) = _
    rw [V_split, x_read, Wc_arg m c main_arg0 (by decide)]
  have hA : ∀ (i : Fin 131) (j : Fin 256), opA m c (ix2 i j)
      = (m ((c : Thread nD τ).loc main_arg2) : S227x256.Idx → EReal) (ix2 (⟨i.val, by omega⟩ : Fin 227) j) := fun i j => by
    show (V m c main_v97 : S131x256.Idx → EReal) (ix2 i j) = _
    rw [V_split, w0x_read, Wc_arg m c main_arg2 (by decide)]
  have hB : ∀ (i : Fin 96) (j : Fin 256), opB m c (ix2 i j)
      = (m ((c : Thread nD τ).loc main_arg2) : S227x256.Idx → EReal) (ix2 (⟨131 + i.val, by omega⟩ : Fin 227) j) := fun i j => by
    show (V m c main_v99 : S96x256.Idx → EReal) (ix2 i j) = _
    rw [V_split, w0f_read, Wc_arg m c main_arg2 (by decide)]
  have hb0 : ∀ j : Fin 256, opb0 m c (ix2 (0 : Fin 1) j) = (m ((c : Thread nD τ).loc main_arg3) : S256.Idx → EReal) (ix1 j) := fun j => by
    show (V m c main_v102 : S1x256.Idx → EReal) (ix2 (0 : Fin 1) j) = _
    rw [V_split, b0_read, Wc_arg m c main_arg3 (by decide)]
  have hW1 : ∀ j k : Fin 256, opW1 m c (ix2 j k) = (m ((c : Thread nD τ).loc main_arg4) : S256x256.Idx → EReal) (ix2 j k) := fun j k => by
    show (V m c main_v100 : S256x256.Idx → EReal) (ix2 j k) = _
    rw [V_split, w1_read, Wc_arg m c main_arg4 (by decide)]
  have hb1 : ∀ k : Fin 256, opb1 m c (ix2 (0 : Fin 1) k) = (m ((c : Thread nD τ).loc main_arg5) : S256.Idx → EReal) (ix1 k) := fun k => by
    show (V m c main_v103 : S1x256.Idx → EReal) (ix2 (0 : Fin 1) k) = _
    rw [V_split, b1_read, Wc_arg m c main_arg5 (by decide)]
  have hw2 : ∀ k : Fin 256, opw2 m c (ix2 (0 : Fin 1) k) = (m ((c : Thread nD τ).loc main_arg6) : S256x1.Idx → EReal) (ix2 k (0 : Fin 1)) := fun k => by
    show (V m c main_v101 : S1x256.Idx → EReal) (ix2 (0 : Fin 1) k) = _
    rw [V_split, w2_read, Wc_arg m c main_arg6 (by decide)]
  have hb2 : opb2 m c (ix2 (0 : Fin 1) (0 : Fin 1)) = (m ((c : Thread nD τ).loc main_arg7) : S1.Idx → EReal) (ix1 (0 : Fin 1)) := by
    show (V m c main_v104 : S1x1.Idx → EReal) (ix2 (0 : Fin 1) (0 : Fin 1)) = _
    rw [V_split, b2_read, Wc_arg m c main_arg7 (by decide)]
  have hFe : ∀ q : Fin 96, opFe m c (ix2 n q)
      = Cert.Spec.featRow (Wc m c (Proc.devRef .tc main_v33)) (m ((c : Thread nD τ).loc main_arg1)) n q := fun q => by
    show (V m c main_v95 : S500000x96.Idx → EReal) (ix2 n q) = _
    rw [V_split, feats_read (Wc m c) n q (Wc_planes m c) (inGrid m c), Wc_arg m c main_arg1 (by decide)]
  show rowsMlp (opX m c) (opFe m c) (opA m c) (opB m c) (opb0 m c) (opW1 m c) (opb1 m c) (opw2 m c) (opb2 m c) n = _
  unfold rowsMlp tileOut tileH2 tileH1 Cert.Spec.outSplit Cert.Spec.outOf Cert.Spec.hidden2 Cert.Spec.hidden1Split
  simp only [hX, hA, hB, hb0, hW1, hb1, hw2, hb2, hFe]

end Cert.KernelIdeal.KBridge

end
-- ==== Proof.RefOps.lean ====
/-
  The reference program as one straight line of host operations, cut at the clipped coordinates and at the
  feature rows.

  The reference computes, from the last three columns of x, the rescaled coordinates clipped to [0, 512] (its first
  53 operations, the last of them the minimum that ends the clip); then, from those coordinates and the planes, the
  cell corners, the four gathers, the bilinear blend and the [500000, 96] feature rows (the next 127 operations);
  then the perceptron over the point's own columns and its features (the last 20 operations).  Listed in program
  order, the helper functions' bodies written out where they are called, the list run as a sequence is the program
  itself.
-/
import proofs.«108793_j65506841199156_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The operations up to the clipped coordinates, in program order: the three column gathers of x[:, 128:131],
    their concatenation, the rescaling (· + 1) · 0.5 · 512, and the clip's six operations. -/
abbrev pre : List (HloOp τ sig (Elt F)) :=
  [ StableHlo.nullary main_c (fun i => lit0 (S2.rowMajor i)),
    StableHlo.nullary main_c_0 (fun i => lit1 (S2.rowMajor i)),
    StableHlo.nullary main_c_1 (fun i => lit2 (S2.rowMajor i)),
    StableHlo.unary main_arg0 main_v0 ((extractStridedSlice S500000x128 ![0, 0] · slices_S500000x131_S500000x128_0_0) : (⟨S500000x131, .f32⟩ : BufTy).Contents (Elt F) → (⟨S500000x128, .f32⟩ : BufTy).Contents (Elt F)),
    StableHlo.unary main_arg0 main_v1 ((extractStridedSlice S500000x3 ![0, 128] · slices_S500000x131_S500000x3_0_128) : (⟨S500000x131, .f32⟩ : BufTy).Contents (Elt F) → (⟨S500000x3, .f32⟩ : BufTy).Contents (Elt F)),
    StableHlo.nullary main_c_2 (constantI S_ 32 0#32),
    StableHlo.unary main_c_2 main_v2 (broadcastInDim S2 ![] bcast_S_S2 : (⟨S_, .i32⟩ : BufTy).Contents (Elt F) → (⟨S2, .i32⟩ : BufTy).Contents (Elt F)),
    StableHlo.binary main_c main_v2 main_v3 (cmpi .slt : (⟨S2, .i32⟩ : BufTy).Contents (Elt F) → (⟨S2, .i32⟩ : BufTy).Contents (Elt F) → (⟨S2, .i1⟩ : BufTy).Contents (Elt F)),
    StableHlo.nullary main_c_3 (constantI S_ 32 3#32),
    StableHlo.unary main_c_3 main_v4 (broadcastInDim S2 ![] bcast_S_S2 : (⟨S_, .i32⟩ : BufTy).Contents (Elt F) → (⟨S2, .i32⟩ : BufTy).Contents (Elt F)),
    StableHlo.binary main_c main_v4 main_v5 (addi : (⟨S2, .i32⟩ : BufTy).Contents (Elt F) → (⟨S2, .i32⟩ : BufTy).Contents (Elt F) → (⟨S2, .i32⟩ : BufTy).Contents (Elt F)),
    StableHlo.ternary main_v3 main_v5 main_c main_v6 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v6 main_v7 (broadcastInDim S2x1 ![0] bcast_S2_S2x1_0 : (⟨S2, .i32⟩ : BufTy).Contents (Elt F) → (⟨S2x1, .i32⟩ : BufTy).Contents (Elt F)),
    StableHlo.binary main_v1 main_v7 main_v8 ((fun x i => Host.gather gather_S500000x3_S2x1_S500000x2_0_1_n_n_1_1_5000001 x i) : (⟨S500000x3, .f32⟩ : BufTy).Contents (Elt F) → (⟨S2x1, .i32⟩ : BufTy).Contents (Elt F) → (⟨S500000x2, .f32⟩ : BufTy).Contents (Elt F)),
    StableHlo.nullary main_c_4 (constantI S_ 32 0#32),
    StableHlo.unary main_c_4 main_v9 (broadcastInDim S2 ![] bcast_S_S2 : (⟨S_, .i32⟩ : BufTy).Contents (Elt F) → (⟨S2, .i32⟩ : BufTy).Contents (Elt F)),
    StableHlo.binary main_c_0 main_v9 main_v10 (cmpi .slt : (⟨S2, .i32⟩ : BufTy).Contents (Elt F) → (⟨S2, .i32⟩ : BufTy).Contents (Elt F) → (⟨S2, .i1⟩ : BufTy).Contents (Elt F)),
    StableHlo.nullary main_c_5 (constantI S_ 32 3#32),
    StableHlo.unary main_c_5 main_v11 (broadcastInDim S2 ![] bcast_S_S2 : (⟨S_, .i32⟩ : BufTy).Contents (Elt F) → (⟨S2, .i32⟩ : BufTy).Contents (Elt F)),
    StableHlo.binary main_c_0 main_v11 main_v12 (addi : (⟨S2, .i32⟩ : BufTy).Contents (Elt F) → (⟨S2, .i32⟩ : BufTy).Contents (Elt F) → (⟨S2, .i32⟩ : BufTy).Contents (Elt F)),
    StableHlo.ternary main_v10 main_v12 main_c_0 main_v13 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v13 main_v14 (broadcastInDim S2x1 ![0] bcast_S2_S2x1_0 : (⟨S2, .i32⟩ : BufTy).Contents (Elt F) → (⟨S2x1, .i32⟩ : BufTy).Contents (Elt F)),
    StableHlo.binary main_v1 main_v14 main_v15 ((fun x i => Host.gather gather_S500000x3_S2x1_S500000x2_0_1_n_n_1_1_5000001 x i) : (⟨S500000x3, .f32⟩ : BufTy).Contents (Elt F) → (⟨S2x1, .i32⟩ : BufTy).Contents (Elt F) → (⟨S500000x2, .f32⟩ : BufTy).Contents (Elt F)),
    StableHlo.nullary main_c_6 (constantI S_ 32 0#32),
    StableHlo.unary main_c_6 main_v16 (broadcastInDim S2 ![] bcast_S_S2 : (⟨S_, .i32⟩ : BufTy).Contents (Elt F) → (⟨S2, .i32⟩ : BufTy).Contents (Elt F)),
    StableHlo.binary main_c_1 main_v16 main_v17 (cmpi .slt : (⟨S2, .i32⟩ : BufTy).Contents (Elt F) → (⟨S2, .i32⟩ : BufTy).Contents (Elt F) → (⟨S2, .i1⟩ : BufTy).Contents (Elt F)),
    StableHlo.nullary main_c_7 (constantI S_ 32 3#32),
    StableHlo.unary main_c_7 main_v18 (broadcastInDim S2 ![] bcast_S_S2 : (⟨S_, .i32⟩ : BufTy).Contents (Elt F) → (⟨S2, .i32⟩ : BufTy).Contents (Elt F)),
    StableHlo.binary main_c_1 main_v18 main_v19 (addi : (⟨S2, .i32⟩ : BufTy).Contents (Elt F) → (⟨S2, .i32⟩ : BufTy).Contents (Elt F) → (⟨S2, .i32⟩ : BufTy).Contents (Elt F)),
    StableHlo.ternary main_v17 main_v19 main_c_1 main_v20 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v20 main_v21 (broadcastInDim S2x1 ![0] bcast_S2_S2x1_0 : (⟨S2, .i32⟩ : BufTy).Contents (Elt F) → (⟨S2x1, .i32⟩ : BufTy).Contents (Elt F)),
    StableHlo.binary main_v1 main_v21 main_v22 ((fun x i => Host.gather gather_S500000x3_S2x1_S500000x2_0_1_n_n_1_1_5000001 x i) : (⟨S500000x3, .f32⟩ : BufTy).Contents (Elt F) → (⟨S2x1, .i32⟩ : BufTy).Contents (Elt F) → (⟨S500000x2, .f32⟩ : BufTy).Contents (Elt F)),
    StableHlo.unary main_v8 main_v23 (broadcastInDim S1x500000x2 ![1, 2] bcast_S500000x2_S1x500000x2_1_2 : (⟨S500000x2, .f32⟩ : BufTy).Contents (Elt F) → (⟨S1x500000x2, .f32⟩ : BufTy).Contents (Elt F)),
    StableHlo.unary main_v15 main_v24 (broadcastInDim S1x500000x2 ![1, 2] bcast_S500000x2_S1x500000x2_1_2 : (⟨S500000x2, .f32⟩ : BufTy).Contents (Elt F) → (⟨S1x500000x2, .f32⟩ : BufTy).Contents (Elt F)),
    StableHlo.unary main_v22 main_v25 (broadcastInDim S1x500000x2 ![1, 2] bcast_S500000x2_S1x500000x2_1_2 : (⟨S500000x2, .f32⟩ : BufTy).Contents (Elt F) → (⟨S1x500000x2, .f32⟩ : BufTy).Contents (Elt F)),
    StableHlo.nary ![main_v23, main_v24, main_v25] main_v26 (fun u => concatenate S3x500000x2 0 [⟨S1x500000x2, u 0⟩, ⟨S1x500000x2, u 1⟩, ⟨S1x500000x2, u 2⟩] concatenates_S1x500000x2_S1x500000x2_S1x500000x2_S3x500000x2_d0),
    StableHlo.nullary main_cst (constant S_ .f32 0x3F800000#32),
    StableHlo.unary main_cst main_v27 (broadcastInDim S3x500000x2 ![] bcast_S_S3x500000x2 : (⟨S_, .f32⟩ : BufTy).Contents (Elt F) → (⟨S3x500000x2, .f32⟩ : BufTy).Contents (Elt F)),
    StableHlo.binary main_v26 main_v27 main_v28 (addf : (⟨S3x500000x2, .f32⟩ : BufTy).Contents (Elt F) → (⟨S3x500000x2, .f32⟩ : BufTy).Contents (Elt F) → (⟨S3x500000x2, .f32⟩ : BufTy).Contents (Elt F)),
    StableHlo.nullary main_cst_8 (constant S_ .f32 0x3F000000#32),
    StableHlo.unary main_cst_8 main_v29 (broadcastInDim S3x500000x2 ![] bcast_S_S3x500000x2 : (⟨S_, .f32⟩ : BufTy).Contents (Elt F) → (⟨S3x500000x2, .f32⟩ : BufTy).Contents (Elt F)),
    StableHlo.binary main_v28 main_v29 main_v30 (mulf : (⟨S3x500000x2, .f32⟩ : BufTy).Contents (Elt F) → (⟨S3x500000x2, .f32⟩ : BufTy).Contents (Elt F) → (⟨S3x500000x2, .f32⟩ : BufTy).Contents (Elt F)),
    StableHlo.nullary main_cst_9 (constant S_ .f32 0x44000000#32),
    StableHlo.unary main_cst_9 main_v31 (broadcastInDim S3x500000x2 ![] bcast_S_S3x500000x2 : (⟨S_, .f32⟩ : BufTy).Contents (Elt F) → (⟨S3x500000x2, .f32⟩ : BufTy).Contents (Elt F)),
    StableHlo.binary main_v30 main_v31 main_v32 (mulf : (⟨S3x500000x2, .f32⟩ : BufTy).Contents (Elt F) → (⟨S3x500000x2, .f32⟩ : BufTy).Contents (Elt F) → (⟨S3x500000x2, .f32⟩ : BufTy).Contents (Elt F)),
    StableHlo.nullary main_cst_10 (constant S_ .f32 0x00000000#32),
    StableHlo.nullary main_c_11 (constantI S_ 32 512#32),
    StableHlo.TRef.unary (.of main_cst_10 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S3x500000x2, .f32⟩) (broadcastInDim S3x500000x2 ![] bcast_S_S3x500000x2),
    StableHlo.TRef.binary (.of main_call0_v1 : StableHlo.TRef sig ⟨S3x500000x2, .f32⟩) (.of main_v32 : StableHlo.TRef sig ⟨S3x500000x2, .f32⟩) (.of main_call0_v2 : StableHlo.TRef sig ⟨S3x500000x2, .f32⟩) maximumf,
    StableHlo.TRef.unary (.of main_c_11 : StableHlo.TRef sig ⟨S_, .i32⟩) (.of main_call0_v3 : StableHlo.TRef sig ⟨S_, .f32⟩) (sitofp .f32),
    StableHlo.TRef.unary (.of main_call0_v3 : StableHlo.TRef sig ⟨S_, .f32⟩) (.of main_call0_v4 : StableHlo.TRef sig ⟨S3x500000x2, .f32⟩) (broadcastInDim S3x500000x2 ![] bcast_S_S3x500000x2),
    StableHlo.TRef.binary (.of main_call0_v4 : StableHlo.TRef sig ⟨S3x500000x2, .f32⟩) (.of main_call0_v2 : StableHlo.TRef sig ⟨S3x500000x2, .f32⟩) (.of main_v33 : StableHlo.TRef sig ⟨S3x500000x2, .f32⟩) minimumf ]

/-- The operations from the clipped coordinates to the feature rows, in program order: cell corners and fractional
    parts, the four wrapped index arrays and their gathers, the blend, the two transposes and the reshape. -/
abbrev restFeats : List (HloOp τ sig (Elt F)) :=
  [ StableHlo.unary main_v33 main_v34 ((extractStridedSlice S3x500000x1 ![0, 0, 0] · slices_S3x500000x2_S3x500000x1_0_0_0) : (⟨S3x500000x2, .f32⟩ : BufTy).Contents (Elt F) → (⟨S3x500000x1, .f32⟩ : BufTy).Contents (Elt F)),
    StableHlo.reshape main_v34 main_v35 rfl shapeCasts_S3x500000x1_S3x500000,
    StableHlo.unary main_v33 main_v36 ((extractStridedSlice S3x500000x1 ![0, 0, 1] · slices_S3x500000x2_S3x500000x1_0_0_1) : (⟨S3x500000x2, .f32⟩ : BufTy).Contents (Elt F) → (⟨S3x500000x1, .f32⟩ : BufTy).Contents (Elt F)),
    StableHlo.reshape main_v36 main_v37 rfl shapeCasts_S3x500000x1_S3x500000,
    StableHlo.unary main_v35 main_v38 (Host.floor : (⟨S3x500000, .f32⟩ : BufTy).Contents (Elt F) → (⟨S3x500000, .f32⟩ : BufTy).Contents (Elt F)),
    StableHlo.unary main_v37 main_v39 (Host.floor : (⟨S3x500000, .f32⟩ : BufTy).Contents (Elt F) → (⟨S3x500000, .f32⟩ : BufTy).Contents (Elt F)),
    StableHlo.unary main_v38 main_v40 (fptosi 32 : (⟨S3x500000, .f32⟩ : BufTy).Contents (Elt F) → (⟨S3x500000, .i32⟩ : BufTy).Contents (Elt F)),
    StableHlo.unary main_v39 main_v41 (fptosi 32 : (⟨S3x500000, .f32⟩ : BufTy).Contents (Elt F) → (⟨S3x500000, .i32⟩ : BufTy).Contents (Elt F)),
    StableHlo.nullary main_c_12 (constantI S_ 32 1#32),
    StableHlo.unary main_c_12 main_v42 (broadcastInDim S3x500000 ![] bcast_S_S3x500000 : (⟨S_, .i32⟩ : BufTy).Contents (Elt F) → (⟨S3x500000, .i32⟩ : BufTy).Contents (Elt F)),
    StableHlo.binary main_v40 main_v42 main_v43 (addi : (⟨S3x500000, .i32⟩ : BufTy).Contents (Elt F) → (⟨S3x500000, .i32⟩ : BufTy).Contents (Elt F) → (⟨S3x500000, .i32⟩ : BufTy).Contents (Elt F)),
    StableHlo.nullary main_c_13 (constantI S_ 32 512#32),
    StableHlo.unary main_c_13 main_v44 (broadcastInDim S3x500000 ![] bcast_S_S3x500000 : (⟨S_, .i32⟩ : BufTy).Contents (Elt F) → (⟨S3x500000, .i32⟩ : BufTy).Contents (Elt F)),
    StableHlo.binary main_v43 main_v44 main_v45 (minsi : (⟨S3x500000, .i32⟩ : BufTy).Contents (Elt F) → (⟨S3x500000, .i32⟩ : BufTy).Contents (Elt F) → (⟨S3x500000, .i32⟩ : BufTy).Contents (Elt F)),
    StableHlo.nullary main_c_14 (constantI S_ 32 1#32),
    StableHlo.unary main_c_14 main_v46 (broadcastInDim S3x500000 ![] bcast_S_S3x500000 : (⟨S_, .i32⟩ : BufTy).Contents (Elt F) → (⟨S3x500000, .i32⟩ : BufTy).Contents (Elt F)),
    StableHlo.binary main_v41 main_v46 main_v47 (addi : (⟨S3x500000, .i32⟩ : BufTy).Contents (Elt F) → (⟨S3x500000, .i32⟩ : BufTy).Contents (Elt F) → (⟨S3x500000, .i32⟩ : BufTy).Contents (Elt F)),
    StableHlo.nullary main_c_15 (constantI S_ 32 512#32),
    StableHlo.unary main_c_15 main_v48 (broadcastInDim S3x500000 ![] bcast_S_S3x500000 : (⟨S_, .i32⟩ : BufTy).Contents (Elt F) → (⟨S3x500000, .i32⟩ : BufTy).Contents (Elt F)),
    StableHlo.binary main_v47 main_v48 main_v49 (minsi : (⟨S3x500000, .i32⟩ : BufTy).Contents (Elt F) → (⟨S3x500000, .i32⟩ : BufTy).Contents (Elt F) → (⟨S3x500000, .i32⟩ : BufTy).Contents (Elt F)),
    StableHlo.binary main_v35 main_v38 main_v50 (subf : (⟨S3x500000, .f32⟩ : BufTy).Contents (Elt F) → (⟨S3x500000, .f32⟩ : BufTy).Contents (Elt F) → (⟨S3x500000, .f32⟩ : BufTy).Contents (Elt F)),
    StableHlo.binary main_v37 main_v39 main_v51 (subf : (⟨S3x500000, .f32⟩ : BufTy).Contents (Elt F) → (⟨S3x500000, .f32⟩ : BufTy).Contents (Elt F) → (⟨S3x500000, .f32⟩ : BufTy).Contents (Elt F)),
    StableHlo.nullary main_c_16 (constantI S_ 32 0#32),
    StableHlo.unary main_c_16 main_v52 (broadcastInDim S3x500000 ![] bcast_S_S3x500000 : (⟨S_, .i32⟩ : BufTy).Contents (Elt F) → (⟨S3x500000, .i32⟩ : BufTy).Contents (Elt F)),
    StableHlo.binary main_v41 main_v52 main_v53 (cmpi .slt : (⟨S3x500000, .i32⟩ : BufTy).Contents (Elt F) → (⟨S3x500000, .i32⟩ : BufTy).Contents (Elt F) → (⟨S3x500000, .i1⟩ : BufTy).Contents (Elt F)),
    StableHlo.nullary main_c_17 (constantI S_ 32 513#32),
    StableHlo.unary main_c_17 main_v54 (broadcastInDim S3x500000 ![] bcast_S_S3x500000 : (⟨S_, .i32⟩ : BufTy).Contents (Elt F) → (⟨S3x500000, .i32⟩ : BufTy).Contents (Elt F)),
    StableHlo.binary main_v41 main_v54 main_v55 (addi : (⟨S3x500000, .i32⟩ : BufTy).Contents (Elt F) → (⟨S3x500000, .i32⟩ : BufTy).Contents (Elt F) → (⟨S3x500000, .i32⟩ : BufTy).Contents (Elt F)),
    StableHlo.ternary main_v53 main_v55 main_v41 main_v56 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.nullary main_c_18 (constantI S_ 32 0#32),
    StableHlo.unary main_c_18 main_v57 (broadcastInDim S3x500000 ![] bcast_S_S3x500000 : (⟨S_, .i32⟩ : BufTy).Contents (Elt F) → (⟨S3x500000, .i32⟩ : BufTy).Contents (Elt F)),
    StableHlo.binary main_v40 main_v57 main_v58 (cmpi .slt : (⟨S3x500000, .i32⟩ : BufTy).Contents (Elt F) → (⟨S3x500000, .i32⟩ : BufTy).Contents (Elt F) → (⟨S3x500000, .i1⟩ : BufTy).Contents (Elt F)),
    StableHlo.nullary main_c_19 (constantI S_ 32 513#32),
    StableHlo.unary main_c_19 main_v59 (broadcastInDim S3x500000 ![] bcast_S_S3x500000 : (⟨S_, .i32⟩ : BufTy).Contents (Elt F) → (⟨S3x500000, .i32⟩ : BufTy).Contents (Elt F)),
    StableHlo.binary main_v40 main_v59 main_v60 (addi : (⟨S3x500000, .i32⟩ : BufTy).Contents (Elt F) → (⟨S3x500000, .i32⟩ : BufTy).Contents (Elt F) → (⟨S3x500000, .i32⟩ : BufTy).Contents (Elt F)),
    StableHlo.ternary main_v58 main_v60 main_v40 main_v61 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.unary main_v56 main_v62 (broadcastInDim S3x500000x1 ![0, 1] bcast_S3x500000_S3x500000x1_0_1 : (⟨S3x500000, .i32⟩ : BufTy).Contents (Elt F) → (⟨S3x500000x1, .i32⟩ : BufTy).Contents (Elt F)),
    StableHlo.unary main_v61 main_v63 (broadcastInDim S3x500000x1 ![0, 1] bcast_S3x500000_S3x500000x1_0_1 : (⟨S3x500000, .i32⟩ : BufTy).Contents (Elt F) → (⟨S3x500000x1, .i32⟩ : BufTy).Contents (Elt F)),
    StableHlo.binary main_v62 main_v63 main_v64 ((fun a b => concatenate S3x500000x2 2 [⟨S3x500000x1, a⟩, ⟨S3x500000x1, b⟩] concatenates_S3x500000x1_S3x500000x1_S3x500000x2_d2) : (⟨S3x500000x1, .i32⟩ : BufTy).Contents (Elt F) → (⟨S3x500000x1, .i32⟩ : BufTy).Contents (Elt F) → (⟨S3x500000x2, .i32⟩ : BufTy).Contents (Elt F)),
    StableHlo.binary main_arg1 main_v64 main_v65 ((fun x i => Host.gather gather_S3x32x513x513_S3x500000x2_S3x32x500000_1_23_0_0_23_2_13211 x i) : (⟨S3x32x513x513, .f32⟩ : BufTy).Contents (Elt F) → (⟨S3x500000x2, .i32⟩ : BufTy).Contents (Elt F) → (⟨S3x32x500000, .f32⟩ : BufTy).Contents (Elt F)),
    StableHlo.nullary main_c_20 (constantI S_ 32 0#32),
    StableHlo.unary main_c_20 main_v66 (broadcastInDim S3x500000 ![] bcast_S_S3x500000 : (⟨S_, .i32⟩ : BufTy).Contents (Elt F) → (⟨S3x500000, .i32⟩ : BufTy).Contents (Elt F)),
    StableHlo.binary main_v41 main_v66 main_v67 (cmpi .slt : (⟨S3x500000, .i32⟩ : BufTy).Contents (Elt F) → (⟨S3x500000, .i32⟩ : BufTy).Contents (Elt F) → (⟨S3x500000, .i1⟩ : BufTy).Contents (Elt F)),
    StableHlo.nullary main_c_21 (constantI S_ 32 513#32),
    StableHlo.unary main_c_21 main_v68 (broadcastInDim S3x500000 ![] bcast_S_S3x500000 : (⟨S_, .i32⟩ : BufTy).Contents (Elt F) → (⟨S3x500000, .i32⟩ : BufTy).Contents (Elt F)),
    StableHlo.binary main_v41 main_v68 main_v69 (addi : (⟨S3x500000, .i32⟩ : BufTy).Contents (Elt F) → (⟨S3x500000, .i32⟩ : BufTy).Contents (Elt F) → (⟨S3x500000, .i32⟩ : BufTy).Contents (Elt F)),
    StableHlo.ternary main_v67 main_v69 main_v41 main_v70 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.nullary main_c_22 (constantI S_ 32 0#32),
    StableHlo.unary main_c_22 main_v71 (broadcastInDim S3x500000 ![] bcast_S_S3x500000 : (⟨S_, .i32⟩ : BufTy).Contents (Elt F) → (⟨S3x500000, .i32⟩ : BufTy).Contents (Elt F)),
    StableHlo.binary main_v45 main_v71 main_v72 (cmpi .slt : (⟨S3x500000, .i32⟩ : BufTy).Contents (Elt F) → (⟨S3x500000, .i32⟩ : BufTy).Contents (Elt F) → (⟨S3x500000, .i1⟩ : BufTy).Contents (Elt F)),
    StableHlo.nullary main_c_23 (constantI S_ 32 513#32),
    StableHlo.unary main_c_23 main_v73 (broadcastInDim S3x500000 ![] bcast_S_S3x500000 : (⟨S_, .i32⟩ : BufTy).Contents (Elt F) → (⟨S3x500000, .i32⟩ : BufTy).Contents (Elt F)),
    StableHlo.binary main_v45 main_v73 main_v74 (addi : (⟨S3x500000, .i32⟩ : BufTy).Contents (Elt F) → (⟨S3x500000, .i32⟩ : BufTy).Contents (Elt F) → (⟨S3x500000, .i32⟩ : BufTy).Contents (Elt F)),
    StableHlo.ternary main_v72 main_v74 main_v45 main_v75 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.unary main_v70 main_v76 (broadcastInDim S3x500000x1 ![0, 1] bcast_S3x500000_S3x500000x1_0_1 : (⟨S3x500000, .i32⟩ : BufTy).Contents (Elt F) → (⟨S3x500000x1, .i32⟩ : BufTy).Contents (Elt F)),
    StableHlo.unary main_v75 main_v77 (broadcastInDim S3x500000x1 ![0, 1] bcast_S3x500000_S3x500000x1_0_1 : (⟨S3x500000, .i32⟩ : BufTy).Contents (Elt F) → (⟨S3x500000x1, .i32⟩ : BufTy).Contents (Elt F)),
    StableHlo.binary main_v76 main_v77 main_v78 ((fun a b => concatenate S3x500000x2 2 [⟨S3x500000x1, a⟩, ⟨S3x500000x1, b⟩] concatenates_S3x500000x1_S3x500000x1_S3x500000x2_d2) : (⟨S3x500000x1, .i32⟩ : BufTy).Contents (Elt F) → (⟨S3x500000x1, .i32⟩ : BufTy).Contents (Elt F) → (⟨S3x500000x2, .i32⟩ : BufTy).Contents (Elt F)),
    StableHlo.binary main_arg1 main_v78 main_v79 ((fun x i => Host.gather gather_S3x32x513x513_S3x500000x2_S3x32x500000_1_23_0_0_23_2_13211 x i) : (⟨S3x32x513x513, .f32⟩ : BufTy).Contents (Elt F) → (⟨S3x500000x2, .i32⟩ : BufTy).Contents (Elt F) → (⟨S3x32x500000, .f32⟩ : BufTy).Contents (Elt F)),
    StableHlo.nullary main_c_24 (constantI S_ 32 0#32),
    StableHlo.unary main_c_24 main_v80 (broadcastInDim S3x500000 ![] bcast_S_S3x500000 : (⟨S_, .i32⟩ : BufTy).Contents (Elt F) → (⟨S3x500000, .i32⟩ : BufTy).Contents (Elt F)),
    StableHlo.binary main_v49 main_v80 main_v81 (cmpi .slt : (⟨S3x500000, .i32⟩ : BufTy).Contents (Elt F) → (⟨S3x500000, .i32⟩ : BufTy).Contents (Elt F) → (⟨S3x500000, .i1⟩ : BufTy).Contents (Elt F)),
    StableHlo.nullary main_c_25 (constantI S_ 32 513#32),
    StableHlo.unary main_c_25 main_v82 (broadcastInDim S3x500000 ![] bcast_S_S3x500000 : (⟨S_, .i32⟩ : BufTy).Contents (Elt F) → (⟨S3x500000, .i32⟩ : BufTy).Contents (Elt F)),
    StableHlo.binary main_v49 main_v82 main_v83 (addi : (⟨S3x500000, .i32⟩ : BufTy).Contents (Elt F) → (⟨S3x500000, .i32⟩ : BufTy).Contents (Elt F) → (⟨S3x500000, .i32⟩ : BufTy).Contents (Elt F)),
    StableHlo.ternary main_v81 main_v83 main_v49 main_v84 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.nullary main_c_26 (constantI S_ 32 0#32),
    StableHlo.unary main_c_26 main_v85 (broadcastInDim S3x500000 ![] bcast_S_S3x500000 : (⟨S_, .i32⟩ : BufTy).Contents (Elt F) → (⟨S3x500000, .i32⟩ : BufTy).Contents (Elt F)),
    StableHlo.binary main_v40 main_v85 main_v86 (cmpi .slt : (⟨S3x500000, .i32⟩ : BufTy).Contents (Elt F) → (⟨S3x500000, .i32⟩ : BufTy).Contents (Elt F) → (⟨S3x500000, .i1⟩ : BufTy).Contents (Elt F)),
    StableHlo.nullary main_c_27 (constantI S_ 32 513#32),
    StableHlo.unary main_c_27 main_v87 (broadcastInDim S3x500000 ![] bcast_S_S3x500000 : (⟨S_, .i32⟩ : BufTy).Contents (Elt F) → (⟨S3x500000, .i32⟩ : BufTy).Contents (Elt F)),
    StableHlo.binary main_v40 main_v87 main_v88 (addi : (⟨S3x500000, .i32⟩ : BufTy).Contents (Elt F) → (⟨S3x500000, .i32⟩ : BufTy).Contents (Elt F) → (⟨S3x500000, .i32⟩ : BufTy).Contents (Elt F)),
    StableHlo.ternary main_v86 main_v88 main_v40 main_v89 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.unary main_v84 main_v90 (broadcastInDim S3x500000x1 ![0, 1] bcast_S3x500000_S3x500000x1_0_1 : (⟨S3x500000, .i32⟩ : BufTy).Contents (Elt F) → (⟨S3x500000x1, .i32⟩ : BufTy).Contents (Elt F)),
    StableHlo.unary main_v89 main_v91 (broadcastInDim S3x500000x1 ![0, 1] bcast_S3x500000_S3x500000x1_0_1 : (⟨S3x500000, .i32⟩ : BufTy).Contents (Elt F) → (⟨S3x500000x1, .i32⟩ : BufTy).Contents (Elt F)),
    StableHlo.binary main_v90 main_v91 main_v92 ((fun a b => concatenate S3x500000x2 2 [⟨S3x500000x1, a⟩, ⟨S3x500000x1, b⟩] concatenates_S3x500000x1_S3x500000x1_S3x500000x2_d2) : (⟨S3x500000x1, .i32⟩ : BufTy).Contents (Elt F) → (⟨S3x500000x1, .i32⟩ : BufTy).Contents (Elt F) → (⟨S3x500000x2, .i32⟩ : BufTy).Contents (Elt F)),
    StableHlo.binary main_arg1 main_v92 main_v93 ((fun x i => Host.gather gather_S3x32x513x513_S3x500000x2_S3x32x500000_1_23_0_0_23_2_13211 x i) : (⟨S3x32x513x513, .f32⟩ : BufTy).Contents (Elt F) → (⟨S3x500000x2, .i32⟩ : BufTy).Contents (Elt F) → (⟨S3x32x500000, .f32⟩ : BufTy).Contents (Elt F)),
    StableHlo.nullary main_c_28 (constantI S_ 32 0#32),
    StableHlo.unary main_c_28 main_v94 (broadcastInDim S3x500000 ![] bcast_S_S3x500000 : (⟨S_, .i32⟩ : BufTy).Contents (Elt F) → (⟨S3x500000, .i32⟩ : BufTy).Contents (Elt F)),
    StableHlo.binary main_v49 main_v94 main_v95 (cmpi .slt : (⟨S3x500000, .i32⟩ : BufTy).Contents (Elt F) → (⟨S3x500000, .i32⟩ : BufTy).Contents (Elt F) → (⟨S3x500000, .i1⟩ : BufTy).Contents (Elt F)),
    StableHlo.nullary main_c_29 (constantI S_ 32 513#32),
    StableHlo.unary main_c_29 main_v96 (broadcastInDim S3x500000 ![] bcast_S_S3x500000 : (⟨S_, .i32⟩ : BufTy).Contents (Elt F) → (⟨S3x500000, .i32⟩ : BufTy).Contents (Elt F)),
    StableHlo.binary main_v49 main_v96 main_v97 (addi : (⟨S3x500000, .i32⟩ : BufTy).Contents (Elt F) → (⟨S3x500000, .i32⟩ : BufTy).Contents (Elt F) → (⟨S3x500000, .i32⟩ : BufTy).Contents (Elt F)),
    StableHlo.ternary main_v95 main_v97 main_v49 main_v98 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.nullary main_c_30 (constantI S_ 32 0#32),
    StableHlo.unary main_c_30 main_v99 (broadcastInDim S3x500000 ![] bcast_S_S3x500000 : (⟨S_, .i32⟩ : BufTy).Contents (Elt F) → (⟨S3x500000, .i32⟩ : BufTy).Contents (Elt F)),
    StableHlo.binary main_v45 main_v99 main_v100 (cmpi .slt : (⟨S3x500000, .i32⟩ : BufTy).Contents (Elt F) → (⟨S3x500000, .i32⟩ : BufTy).Contents (Elt F) → (⟨S3x500000, .i1⟩ : BufTy).Contents (Elt F)),
    StableHlo.nullary main_c_31 (constantI S_ 32 513#32),
    StableHlo.unary main_c_31 main_v101 (broadcastInDim S3x500000 ![] bcast_S_S3x500000 : (⟨S_, .i32⟩ : BufTy).Contents (Elt F) → (⟨S3x500000, .i32⟩ : BufTy).Contents (Elt F)),
    StableHlo.binary main_v45 main_v101 main_v102 (addi : (⟨S3x500000, .i32⟩ : BufTy).Contents (Elt F) → (⟨S3x500000, .i32⟩ : BufTy).Contents (Elt F) → (⟨S3x500000, .i32⟩ : BufTy).Contents (Elt F)),
    StableHlo.ternary main_v100 main_v102 main_v45 main_v103 (select : (⟨S3x500000, .i1⟩ : BufTy).Contents (Elt F) → (⟨S3x500000, .i32⟩ : BufTy).Contents (Elt F) → (⟨S3x500000, .i32⟩ : BufTy).Contents (Elt F) → (⟨S3x500000, .i32⟩ : BufTy).Contents (Elt F)),
    StableHlo.unary main_v98 main_v104 (broadcastInDim S3x500000x1 ![0, 1] bcast_S3x500000_S3x500000x1_0_1 : (⟨S3x500000, .i32⟩ : BufTy).Contents (Elt F) → (⟨S3x500000x1, .i32⟩ : BufTy).Contents (Elt F)),
    StableHlo.unary main_v103 main_v105 (broadcastInDim S3x500000x1 ![0, 1] bcast_S3x500000_S3x500000x1_0_1 : (⟨S3x500000, .i32⟩ : BufTy).Contents (Elt F) → (⟨S3x500000x1, .i32⟩ : BufTy).Contents (Elt F)),
    StableHlo.binary main_v104 main_v105 main_v106 ((fun a b => concatenate S3x500000x2 2 [⟨S3x500000x1, a⟩, ⟨S3x500000x1, b⟩] concatenates_S3x500000x1_S3x500000x1_S3x500000x2_d2) : (⟨S3x500000x1, .i32⟩ : BufTy).Contents (Elt F) → (⟨S3x500000x1, .i32⟩ : BufTy).Contents (Elt F) → (⟨S3x500000x2, .i32⟩ : BufTy).Contents (Elt F)),
    StableHlo.binary main_arg1 main_v106 main_v107 ((fun x i => Host.gather gather_S3x32x513x513_S3x500000x2_S3x32x500000_1_23_0_0_23_2_13211 x i) : (⟨S3x32x513x513, .f32⟩ : BufTy).Contents (Elt F) → (⟨S3x500000x2, .i32⟩ : BufTy).Contents (Elt F) → (⟨S3x32x500000, .f32⟩ : BufTy).Contents (Elt F)),
    StableHlo.nullary main_cst_32 (constant S_ .f32 0x3F800000#32),
    StableHlo.unary main_cst_32 main_v108 (broadcastInDim S3x500000 ![] bcast_S_S3x500000 : (⟨S_, .f32⟩ : BufTy).Contents (Elt F) → (⟨S3x500000, .f32⟩ : BufTy).Contents (Elt F)),
    StableHlo.binary main_v108 main_v50 main_v109 (subf : (⟨S3x500000, .f32⟩ : BufTy).Contents (Elt F) → (⟨S3x500000, .f32⟩ : BufTy).Contents (Elt F) → (⟨S3x500000, .f32⟩ : BufTy).Contents (Elt F)),
    StableHlo.unary main_v109 main_v110 (broadcastInDim S3x1x500000 ![0, 2] bcast_S3x500000_S3x1x500000_0_2 : (⟨S3x500000, .f32⟩ : BufTy).Contents (Elt F) → (⟨S3x1x500000, .f32⟩ : BufTy).Contents (Elt F)),
    StableHlo.unary main_v110 main_v111 (broadcastInDim S3x32x500000 ![0, 1, 2] bcast_S3x1x500000_S3x32x500000_0_1_2 : (⟨S3x1x500000, .f32⟩ : BufTy).Contents (Elt F) → (⟨S3x32x500000, .f32⟩ : BufTy).Contents (Elt F)),
    StableHlo.binary main_v65 main_v111 main_v112 (mulf : (⟨S3x32x500000, .f32⟩ : BufTy).Contents (Elt F) → (⟨S3x32x500000, .f32⟩ : BufTy).Contents (Elt F) → (⟨S3x32x500000, .f32⟩ : BufTy).Contents (Elt F)),
    StableHlo.unary main_v50 main_v113 (broadcastInDim S3x1x500000 ![0, 2] bcast_S3x500000_S3x1x500000_0_2 : (⟨S3x500000, .f32⟩ : BufTy).Contents (Elt F) → (⟨S3x1x500000, .f32⟩ : BufTy).Contents (Elt F)),
    StableHlo.unary main_v113 main_v114 (broadcastInDim S3x32x500000 ![0, 1, 2] bcast_S3x1x500000_S3x32x500000_0_1_2 : (⟨S3x1x500000, .f32⟩ : BufTy).Contents (Elt F) → (⟨S3x32x500000, .f32⟩ : BufTy).Contents (Elt F)),
    StableHlo.binary main_v79 main_v114 main_v115 (mulf : (⟨S3x32x500000, .f32⟩ : BufTy).Contents (Elt F) → (⟨S3x32x500000, .f32⟩ : BufTy).Contents (Elt F) → (⟨S3x32x500000, .f32⟩ : BufTy).Contents (Elt F)),
    StableHlo.binary main_v112 main_v115 main_v116 (addf : (⟨S3x32x500000, .f32⟩ : BufTy).Contents (Elt F) → (⟨S3x32x500000, .f32⟩ : BufTy).Contents (Elt F) → (⟨S3x32x500000, .f32⟩ : BufTy).Contents (Elt F)),
    StableHlo.nullary main_cst_33 (constant S_ .f32 0x3F800000#32),
    StableHlo.unary main_cst_33 main_v117 (broadcastInDim S3x500000 ![] bcast_S_S3x500000 : (⟨S_, .f32⟩ : BufTy).Contents (Elt F) → (⟨S3x500000, .f32⟩ : BufTy).Contents (Elt F)),
    StableHlo.binary main_v117 main_v50 main_v118 (subf : (⟨S3x500000, .f32⟩ : BufTy).Contents (Elt F) → (⟨S3x500000, .f32⟩ : BufTy).Contents (Elt F) → (⟨S3x500000, .f32⟩ : BufTy).Contents (Elt F)),
    StableHlo.unary main_v118 main_v119 (broadcastInDim S3x1x500000 ![0, 2] bcast_S3x500000_S3x1x500000_0_2 : (⟨S3x500000, .f32⟩ : BufTy).Contents (Elt F) → (⟨S3x1x500000, .f32⟩ : BufTy).Contents (Elt F)),
    StableHlo.unary main_v119 main_v120 (broadcastInDim S3x32x500000 ![0, 1, 2] bcast_S3x1x500000_S3x32x500000_0_1_2 : (⟨S3x1x500000, .f32⟩ : BufTy).Contents (Elt F) → (⟨S3x32x500000, .f32⟩ : BufTy).Contents (Elt F)),
    StableHlo.binary main_v93 main_v120 main_v121 (mulf : (⟨S3x32x500000, .f32⟩ : BufTy).Contents (Elt F) → (⟨S3x32x500000, .f32⟩ : BufTy).Contents (Elt F) → (⟨S3x32x500000, .f32⟩ : BufTy).Contents (Elt F)),
    StableHlo.unary main_v50 main_v122 (broadcastInDim S3x1x500000 ![0, 2] bcast_S3x500000_S3x1x500000_0_2 : (⟨S3x500000, .f32⟩ : BufTy).Contents (Elt F) → (⟨S3x1x500000, .f32⟩ : BufTy).Contents (Elt F)),
    StableHlo.unary main_v122 main_v123 (broadcastInDim S3x32x500000 ![0, 1, 2] bcast_S3x1x500000_S3x32x500000_0_1_2 : (⟨S3x1x500000, .f32⟩ : BufTy).Contents (Elt F) → (⟨S3x32x500000, .f32⟩ : BufTy).Contents (Elt F)),
    StableHlo.binary main_v107 main_v123 main_v124 (mulf : (⟨S3x32x500000, .f32⟩ : BufTy).Contents (Elt F) → (⟨S3x32x500000, .f32⟩ : BufTy).Contents (Elt F) → (⟨S3x32x500000, .f32⟩ : BufTy).Contents (Elt F)),
    StableHlo.binary main_v121 main_v124 main_v125 (addf : (⟨S3x32x500000, .f32⟩ : BufTy).Contents (Elt F) → (⟨S3x32x500000, .f32⟩ : BufTy).Contents (Elt F) → (⟨S3x32x500000, .f32⟩ : BufTy).Contents (Elt F)),
    StableHlo.nullary main_cst_34 (constant S_ .f32 0x3F800000#32),
    StableHlo.unary main_cst_34 main_v126 (broadcastInDim S3x500000 ![] bcast_S_S3x500000 : (⟨S_, .f32⟩ : BufTy).Contents (Elt F) → (⟨S3x500000, .f32⟩ : BufTy).Contents (Elt F)),
    StableHlo.binary main_v126 main_v51 main_v127 (subf : (⟨S3x500000, .f32⟩ : BufTy).Contents (Elt F) → (⟨S3x500000, .f32⟩ : BufTy).Contents (Elt F) → (⟨S3x500000, .f32⟩ : BufTy).Contents (Elt F)),
    StableHlo.unary main_v127 main_v128 (broadcastInDim S3x1x500000 ![0, 2] bcast_S3x500000_S3x1x500000_0_2 : (⟨S3x500000, .f32⟩ : BufTy).Contents (Elt F) → (⟨S3x1x500000, .f32⟩ : BufTy).Contents (Elt F)),
    StableHlo.unary main_v128 main_v129 (broadcastInDim S3x32x500000 ![0, 1, 2] bcast_S3x1x500000_S3x32x500000_0_1_2 : (⟨S3x1x500000, .f32⟩ : BufTy).Contents (Elt F) → (⟨S3x32x500000, .f32⟩ : BufTy).Contents (Elt F)),
    StableHlo.binary main_v116 main_v129 main_v130 (mulf : (⟨S3x32x500000, .f32⟩ : BufTy).Contents (Elt F) → (⟨S3x32x500000, .f32⟩ : BufTy).Contents (Elt F) → (⟨S3x32x500000, .f32⟩ : BufTy).Contents (Elt F)),
    StableHlo.unary main_v51 main_v131 (broadcastInDim S3x1x500000 ![0, 2] bcast_S3x500000_S3x1x500000_0_2 : (⟨S3x500000, .f32⟩ : BufTy).Contents (Elt F) → (⟨S3x1x500000, .f32⟩ : BufTy).Contents (Elt F)),
    StableHlo.unary main_v131 main_v132 (broadcastInDim S3x32x500000 ![0, 1, 2] bcast_S3x1x500000_S3x32x500000_0_1_2 : (⟨S3x1x500000, .f32⟩ : BufTy).Contents (Elt F) → (⟨S3x32x500000, .f32⟩ : BufTy).Contents (Elt F)),
    StableHlo.binary main_v125 main_v132 main_v133 (mulf : (⟨S3x32x500000, .f32⟩ : BufTy).Contents (Elt F) → (⟨S3x32x500000, .f32⟩ : BufTy).Contents (Elt F) → (⟨S3x32x500000, .f32⟩ : BufTy).Contents (Elt F)),
    StableHlo.binary main_v130 main_v133 main_v134 (addf : (⟨S3x32x500000, .f32⟩ : BufTy).Contents (Elt F) → (⟨S3x32x500000, .f32⟩ : BufTy).Contents (Elt F) → (⟨S3x32x500000, .f32⟩ : BufTy).Contents (Elt F)),
    StableHlo.unary main_v134 main_v135 ((transpose S3x500000x32 [0, 2, 1] · transposes_S3x32x500000_S3x500000x32_0_2_1) : (⟨S3x32x500000, .f32⟩ : BufTy).Contents (Elt F) → (⟨S3x500000x32, .f32⟩ : BufTy).Contents (Elt F)),
    StableHlo.unary main_v135 main_v136 ((transpose S500000x3x32 [1, 0, 2] · transposes_S3x500000x32_S500000x3x32_1_0_2) : (⟨S3x500000x32, .f32⟩ : BufTy).Contents (Elt F) → (⟨S500000x3x32, .f32⟩ : BufTy).Contents (Elt F)),
    StableHlo.reshape main_v136 main_v137 rfl shapeCasts_S500000x3x32_S500000x96 ]

/-- The perceptron, in program order: the concatenation of the point's columns and features, the three products
    with their biases, each rectifier's three operations where it is called, the final reshape. -/
abbrev restMlp : List (HloOp τ sig (Elt F)) :=
  [ StableHlo.nary ![main_v0, main_v1, main_v137] main_v138 (fun u => concatenate S500000x227 1 [⟨S500000x128, u 0⟩, ⟨S500000x3, u 1⟩, ⟨S500000x96, u 2⟩] concatenates_S500000x128_S500000x3_S500000x96_S500000x227_d1),
    StableHlo.binary main_v138 main_arg2 main_v139 ((fun l r => Host.dotGeneral dot_S500000x227_S227x256_S500000x256_1_0_0_1_n_n none l r) : (⟨S500000x227, .f32⟩ : BufTy).Contents (Elt F) → (⟨S227x256, .f32⟩ : BufTy).Contents (Elt F) → (⟨S500000x256, .f32⟩ : BufTy).Contents (Elt F)),
    StableHlo.unary main_arg3 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S500000x256 ![0, 1] bcast_S1x256_S500000x256_0_1 : (⟨S1x256, .f32⟩ : BufTy).Contents (Elt F) → (⟨S500000x256, .f32⟩ : BufTy).Contents (Elt F)),
    StableHlo.binary main_v139 main_v141 main_v142 (addf : (⟨S500000x256, .f32⟩ : BufTy).Contents (Elt F) → (⟨S500000x256, .f32⟩ : BufTy).Contents (Elt F) → (⟨S500000x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S500000x256, .f32⟩) (broadcastInDim S500000x256 ![] bcast_S_S500000x256),
    StableHlo.TRef.binary (.of main_v142 : StableHlo.TRef sig ⟨S500000x256, .f32⟩) (.of main_call1_v0 : StableHlo.TRef sig ⟨S500000x256, .f32⟩) (.of main_v143 : StableHlo.TRef sig ⟨S500000x256, .f32⟩) maximumf,
    StableHlo.binary main_v143 main_arg4 main_v144 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    StableHlo.unary main_arg5 main_v145 (broadcastInDim S1x256 ![1] bcast_S256_S1x256_1 : (⟨S256, .f32⟩ : BufTy).Contents (Elt F) → (⟨S1x256, .f32⟩ : BufTy).Contents (Elt F)),
    StableHlo.unary main_v145 main_v146 (broadcastInDim S500000x256 ![0, 1] bcast_S1x256_S500000x256_0_1 : (⟨S1x256, .f32⟩ : BufTy).Contents (Elt F) → (⟨S500000x256, .f32⟩ : BufTy).Contents (Elt F)),
    StableHlo.binary main_v144 main_v146 main_v147 (addf : (⟨S500000x256, .f32⟩ : BufTy).Contents (Elt F) → (⟨S500000x256, .f32⟩ : BufTy).Contents (Elt F) → (⟨S500000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S500000x256, .f32⟩) (broadcastInDim S500000x256 ![] bcast_S_S500000x256),
    StableHlo.TRef.binary (.of main_v147 : StableHlo.TRef sig ⟨S500000x256, .f32⟩) (.of main_call2_v0 : StableHlo.TRef sig ⟨S500000x256, .f32⟩) (.of main_v148 : StableHlo.TRef sig ⟨S500000x256, .f32⟩) maximumf,
    StableHlo.binary main_v148 main_arg6 main_v149 ((fun l r => Host.dotGeneral dot_S500000x256_S256x1_S500000x1_1_0_0_1_n_n none l r) : (⟨S500000x256, .f32⟩ : BufTy).Contents (Elt F) → (⟨S256x1, .f32⟩ : BufTy).Contents (Elt F) → (⟨S500000x1, .f32⟩ : BufTy).Contents (Elt F)),
    StableHlo.unary main_arg7 main_v150 (broadcastInDim S1x1 ![1] bcast_S1_S1x1_1 : (⟨S1, .f32⟩ : BufTy).Contents (Elt F) → (⟨S1x1, .f32⟩ : BufTy).Contents (Elt F)),
    StableHlo.unary main_v150 main_v151 (broadcastInDim S500000x1 ![0, 1] bcast_S1x1_S500000x1_0_1 : (⟨S1x1, .f32⟩ : BufTy).Contents (Elt F) → (⟨S500000x1, .f32⟩ : BufTy).Contents (Elt F)),
    StableHlo.binary main_v149 main_v151 main_v152 (addf : (⟨S500000x1, .f32⟩ : BufTy).Contents (Elt F) → (⟨S500000x1, .f32⟩ : BufTy).Contents (Elt F) → (⟨S500000x1, .f32⟩ : BufTy).Contents (Elt F)),
    StableHlo.reshape main_v152 main_v153 rfl shapeCasts_S500000x1_S500000 ]

/-- Everything after the clipped coordinates. -/
abbrev rest : List (HloOp τ sig (Elt F)) := restFeats ++ restMlp

/-- The whole program: 200 operations. -/
abbrev ops : List (HloOp τ sig (Elt F)) := pre ++ rest

set_option maxRecDepth 16384 in
set_option maxHeartbeats 4000000 in
/-- The program is that straight line: its four windows and the helper functions unfolded, both sides are one chain
    of steps once sequencing is reassociated. -/
theorem main_eq (c : Dev nD) : main (F := F) c = StableHlo.seq ops := by
  show main (F := F) c = StableHlo.seq (pre ++ (restFeats ++ restMlp))
  rw [StableHlo.seq_append, StableHlo.seq_append]
  simp only [main, main_part0, main_part1, main_part2, main_part3, fn_clip.body, fn_relu.body, StableHlo.seq,
    bind_assoc, pure_bind]

end Cert.ReferenceIdeal.RefRun

end
-- ==== Proof.RefRun.lean ====
/-
  The reference program's run: every execution ends with each buffer at the fold of the program's operations over
  the launch contents, and the eight arguments as launched.

  The operation lists and their equality with the program are in the sibling module; here are the side conditions of
  running a straight line (nothing scoped, every operation on the core's own buffers, none leaving a buffer
  undetermined) and the consequences: the run, the fold through the whole list as the fold through each part over
  the fold through the parts before it, and each argument untouched by every part.
-/
import proofs.«108793_j65506841199156_2_alg».proof.Proof.RefOps

set_option maxRecDepth 4096

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun op h => (List.mem_append.mp h).elim
    (List.forall_iff_forall_mem.mp h₁ op) (List.forall_iff_forall_mem.mp h₂ op)

/-- Each operation touches the core's own buffers only. -/
theorem pre_sub : (pre : List (HloOp τ sig (Elt F))).Forall fun op => op.bufs ⊆ StableHlo.tcRefs τ sig :=
  ⟨StableHlo.nullary_bufs_sub .., StableHlo.nullary_bufs_sub .., StableHlo.nullary_bufs_sub .., StableHlo.unary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.unary_bufs_sub .., StableHlo.nary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.nullary_bufs_sub .., StableHlo.unary_bufs_sub ..,
    StableHlo.unary_bufs_sub .., StableHlo.binary_bufs_sub .., StableHlo.unary_bufs_sub .., StableHlo.unary_bufs_sub .., StableHlo.binary_bufs_sub ..⟩
theorem restFeats_sub : (restFeats : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.unary_bufs_sub ..,
    StableHlo.unary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.unary_bufs_sub .., StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.unary_bufs_sub .., StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.unary_bufs_sub .., StableHlo.binary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.unary_bufs_sub .., StableHlo.binary_bufs_sub .., StableHlo.binary_bufs_sub .., StableHlo.nullary_bufs_sub .., StableHlo.unary_bufs_sub ..,
    StableHlo.binary_bufs_sub .., StableHlo.unary_bufs_sub .., StableHlo.unary_bufs_sub .., StableHlo.binary_bufs_sub .., StableHlo.unary_bufs_sub .., StableHlo.unary_bufs_sub ..,
    StableHlo.binary_bufs_sub .., StableHlo.binary_bufs_sub .., StableHlo.nullary_bufs_sub .., StableHlo.unary_bufs_sub .., StableHlo.binary_bufs_sub .., StableHlo.unary_bufs_sub ..,
    StableHlo.unary_bufs_sub .., StableHlo.binary_bufs_sub .., StableHlo.unary_bufs_sub .., StableHlo.unary_bufs_sub .., StableHlo.binary_bufs_sub .., StableHlo.binary_bufs_sub ..,
    StableHlo.nullary_bufs_sub .., StableHlo.unary_bufs_sub .., StableHlo.binary_bufs_sub .., StableHlo.unary_bufs_sub .., StableHlo.unary_bufs_sub .., StableHlo.binary_bufs_sub ..,
    StableHlo.unary_bufs_sub .., StableHlo.unary_bufs_sub .., StableHlo.binary_bufs_sub .., StableHlo.binary_bufs_sub .., StableHlo.unary_bufs_sub .., StableHlo.unary_bufs_sub ..,
    StableHlo.reshape_bufs_sub ..⟩
theorem restMlp_sub : (restMlp : List (HloOp τ sig (Elt F))).Forall fun op => op.bufs ⊆ StableHlo.tcRefs τ sig :=
  ⟨StableHlo.nary_bufs_sub .., StableHlo.binary_bufs_sub .., StableHlo.unary_bufs_sub .., StableHlo.unary_bufs_sub .., StableHlo.binary_bufs_sub .., StableHlo.nullary_bufs_sub ..,
    StableHlo.unary_bufs_sub .., StableHlo.binary_bufs_sub .., StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.binary_bufs_sub .., StableHlo.unary_bufs_sub .., StableHlo.unary_bufs_sub ..,
    StableHlo.binary_bufs_sub .., StableHlo.reshape_bufs_sub ..⟩
theorem rest_sub : (rest : List (HloOp τ sig (Elt F))).Forall fun op => op.bufs ⊆ StableHlo.tcRefs τ sig :=
  forall_append restFeats_sub restMlp_sub
theorem ops_sub : (ops : List (HloOp τ sig (Elt F))).Forall fun op => op.bufs ⊆ StableHlo.tcRefs τ sig :=
  forall_append pre_sub rest_sub

/-- Each operation determines what it writes. -/
theorem pre_fresh : (pre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩
theorem restFeats_fresh : (restFeats : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl⟩
theorem restMlp_fresh : (restMlp : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp (forall_append pre_fresh (forall_append restFeats_fresh restMlp_fresh))

/-- On every device, for any float values, from any memory with zero counters: every weakly fair execution of the
    program terminates, and every final state has each buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => ops_fresh)

/-- The fold through a concatenation is the fold through the second list over the fold through the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, StableHlo.after_cons, StableHlo.after_cons, ih]

theorem after_ops (V : Valuation τ sig (Elt F)) :
    StableHlo.after ops V = StableHlo.after rest (StableHlo.after pre V) := after_append pre rest V
theorem after_rest (V : Valuation τ sig (Elt F)) :
    StableHlo.after rest V = StableHlo.after restMlp (StableHlo.after restFeats V) := after_append restFeats restMlp V

/-- Argument 0 is written by no operation: not up to the clip, not up to the feature rows, not by the perceptron. -/
theorem pre_kept_arg0 (V : Valuation τ sig (Elt F)) :
    StableHlo.after pre V (Proc.devRef .tc main_arg0) = V (Proc.devRef .tc main_arg0) :=
  StableHlo.after_of_forall_not_mem (b := Proc.devRef .tc main_arg0) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg0 (V : Valuation τ sig (Elt F)) :
    StableHlo.after restFeats V (Proc.devRef .tc main_arg0) = V (Proc.devRef .tc main_arg0) :=
  StableHlo.after_of_forall_not_mem (b := Proc.devRef .tc main_arg0) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg0 (V : Valuation τ sig (Elt F)) :
    StableHlo.after restMlp V (Proc.devRef .tc main_arg0) = V (Proc.devRef .tc main_arg0) :=
  StableHlo.after_of_forall_not_mem (b := Proc.devRef .tc main_arg0) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg0 (V : Valuation τ sig (Elt F)) :
    StableHlo.after rest V (Proc.devRef .tc main_arg0) = V (Proc.devRef .tc main_arg0) := by
  rw [after_rest, restMlp_kept_arg0, restFeats_kept_arg0]
theorem kept_arg0 (V : Valuation τ sig (Elt F)) :
    StableHlo.after ops V (Proc.devRef .tc main_arg0) = V (Proc.devRef .tc main_arg0) := by
  rw [after_ops, rest_kept_arg0, pre_kept_arg0]

/-- Argument 1 is written by no operation: not up to the clip, not up to the feature rows, not by the perceptron. -/
theorem pre_kept_arg1 (V : Valuation τ sig (Elt F)) :
    StableHlo.after pre V (Proc.devRef .tc main_arg1) = V (Proc.devRef .tc main_arg1) :=
  StableHlo.after_of_forall_not_mem (b := Proc.devRef .tc main_arg1) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg1 (V : Valuation τ sig (Elt F)) :
    StableHlo.after restFeats V (Proc.devRef .tc main_arg1) = V (Proc.devRef .tc main_arg1) :=
  StableHlo.after_of_forall_not_mem (b := Proc.devRef .tc main_arg1) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg1 (V : Valuation τ sig (Elt F)) :
    StableHlo.after restMlp V (Proc.devRef .tc main_arg1) = V (Proc.devRef .tc main_arg1) :=
  StableHlo.after_of_forall_not_mem (b := Proc.devRef .tc main_arg1) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg1 (V : Valuation τ sig (Elt F)) :
    StableHlo.after rest V (Proc.devRef .tc main_arg1) = V (Proc.devRef .tc main_arg1) := by
  rw [after_rest, restMlp_kept_arg1, restFeats_kept_arg1]
theorem kept_arg1 (V : Valuation τ sig (Elt F)) :
    StableHlo.after ops V (Proc.devRef .tc main_arg1) = V (Proc.devRef .tc main_arg1) := by
  rw [after_ops, rest_kept_arg1, pre_kept_arg1]

/-- Argument 2 is written by no operation: not up to the clip, not up to the feature rows, not by the perceptron. -/
theorem pre_kept_arg2 (V : Valuation τ sig (Elt F)) :
    StableHlo.after pre V (Proc.devRef .tc main_arg2) = V (Proc.devRef .tc main_arg2) :=
  StableHlo.after_of_forall_not_mem (b := Proc.devRef .tc main_arg2) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg2 (V : Valuation τ sig (Elt F)) :
    StableHlo.after restFeats V (Proc.devRef .tc main_arg2) = V (Proc.devRef .tc main_arg2) :=
  StableHlo.after_of_forall_not_mem (b := Proc.devRef .tc main_arg2) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg2 (V : Valuation τ sig (Elt F)) :
    StableHlo.after restMlp V (Proc.devRef .tc main_arg2) = V (Proc.devRef .tc main_arg2) :=
  StableHlo.after_of_forall_not_mem (b := Proc.devRef .tc main_arg2) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg2 (V : Valuation τ sig (Elt F)) :
    StableHlo.after rest V (Proc.devRef .tc main_arg2) = V (Proc.devRef .tc main_arg2) := by
  rw [after_rest, restMlp_kept_arg2, restFeats_kept_arg2]
theorem kept_arg2 (V : Valuation τ sig (Elt F)) :
    StableHlo.after ops V (Proc.devRef .tc main_arg2) = V (Proc.devRef .tc main_arg2) := by
  rw [after_ops, rest_kept_arg2, pre_kept_arg2]

/-- Argument 3 is written by no operation: not up to the clip, not up to the feature rows, not by the perceptron. -/
theorem pre_kept_arg3 (V : Valuation τ sig (Elt F)) :
    StableHlo.after pre V (Proc.devRef .tc main_arg3) = V (Proc.devRef .tc main_arg3) :=
  StableHlo.after_of_forall_not_mem (b := Proc.devRef .tc main_arg3) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg3 (V : Valuation τ sig (Elt F)) :
    StableHlo.after restFeats V (Proc.devRef .tc main_arg3) = V (Proc.devRef .tc main_arg3) :=
  StableHlo.after_of_forall_not_mem (b := Proc.devRef .tc main_arg3) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg3 (V : Valuation τ sig (Elt F)) :
    StableHlo.after restMlp V (Proc.devRef .tc main_arg3) = V (Proc.devRef .tc main_arg3) :=
  StableHlo.after_of_forall_not_mem (b := Proc.devRef .tc main_arg3) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg3 (V : Valuation τ sig (Elt F)) :
    StableHlo.after rest V (Proc.devRef .tc main_arg3) = V (Proc.devRef .tc main_arg3) := by
  rw [after_rest, restMlp_kept_arg3, restFeats_kept_arg3]
theorem kept_arg3 (V : Valuation τ sig (Elt F)) :
    StableHlo.after ops V (Proc.devRef .tc main_arg3) = V (Proc.devRef .tc main_arg3) := by
  rw [after_ops, rest_kept_arg3, pre_kept_arg3]

/-- Argument 4 is written by no operation: not up to the clip, not up to the feature rows, not by the perceptron. -/
theorem pre_kept_arg4 (V : Valuation τ sig (Elt F)) :
    StableHlo.after pre V (Proc.devRef .tc main_arg4) = V (Proc.devRef .tc main_arg4) :=
  StableHlo.after_of_forall_not_mem (b := Proc.devRef .tc main_arg4) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg4 (V : Valuation τ sig (Elt F)) :
    StableHlo.after restFeats V (Proc.devRef .tc main_arg4) = V (Proc.devRef .tc main_arg4) :=
  StableHlo.after_of_forall_not_mem (b := Proc.devRef .tc main_arg4) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg4 (V : Valuation τ sig (Elt F)) :
    StableHlo.after restMlp V (Proc.devRef .tc main_arg4) = V (Proc.devRef .tc main_arg4) :=
  StableHlo.after_of_forall_not_mem (b := Proc.devRef .tc main_arg4) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg4 (V : Valuation τ sig (Elt F)) :
    StableHlo.after rest V (Proc.devRef .tc main_arg4) = V (Proc.devRef .tc main_arg4) := by
  rw [after_rest, restMlp_kept_arg4, restFeats_kept_arg4]
theorem kept_arg4 (V : Valuation τ sig (Elt F)) :
    StableHlo.after ops V (Proc.devRef .tc main_arg4) = V (Proc.devRef .tc main_arg4) := by
  rw [after_ops, rest_kept_arg4, pre_kept_arg4]

/-- Argument 5 is written by no operation: not up to the clip, not up to the feature rows, not by the perceptron. -/
theorem pre_kept_arg5 (V : Valuation τ sig (Elt F)) :
    StableHlo.after pre V (Proc.devRef .tc main_arg5) = V (Proc.devRef .tc main_arg5) :=
  StableHlo.after_of_forall_not_mem (b := Proc.devRef .tc main_arg5) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg5 (V : Valuation τ sig (Elt F)) :
    StableHlo.after restFeats V (Proc.devRef .tc main_arg5) = V (Proc.devRef .tc main_arg5) :=
  StableHlo.after_of_forall_not_mem (b := Proc.devRef .tc main_arg5) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg5 (V : Valuation τ sig (Elt F)) :
    StableHlo.after restMlp V (Proc.devRef .tc main_arg5) = V (Proc.devRef .tc main_arg5) :=
  StableHlo.after_of_forall_not_mem (b := Proc.devRef .tc main_arg5) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg5 (V : Valuation τ sig (Elt F)) :
    StableHlo.after rest V (Proc.devRef .tc main_arg5) = V (Proc.devRef .tc main_arg5) := by
  rw [after_rest, restMlp_kept_arg5, restFeats_kept_arg5]
theorem kept_arg5 (V : Valuation τ sig (Elt F)) :
    StableHlo.after ops V (Proc.devRef .tc main_arg5) = V (Proc.devRef .tc main_arg5) := by
  rw [after_ops, rest_kept_arg5, pre_kept_arg5]

/-- Argument 6 is written by no operation: not up to the clip, not up to the feature rows, not by the perceptron. -/
theorem pre_kept_arg6 (V : Valuation τ sig (Elt F)) :
    StableHlo.after pre V (Proc.devRef .tc main_arg6) = V (Proc.devRef .tc main_arg6) :=
  StableHlo.after_of_forall_not_mem (b := Proc.devRef .tc main_arg6) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg6 (V : Valuation τ sig (Elt F)) :
    StableHlo.after restFeats V (Proc.devRef .tc main_arg6) = V (Proc.devRef .tc main_arg6) :=
  StableHlo.after_of_forall_not_mem (b := Proc.devRef .tc main_arg6) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg6 (V : Valuation τ sig (Elt F)) :
    StableHlo.after restMlp V (Proc.devRef .tc main_arg6) = V (Proc.devRef .tc main_arg6) :=
  StableHlo.after_of_forall_not_mem (b := Proc.devRef .tc main_arg6) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg6 (V : Valuation τ sig (Elt F)) :
    StableHlo.after rest V (Proc.devRef .tc main_arg6) = V (Proc.devRef .tc main_arg6) := by
  rw [after_rest, restMlp_kept_arg6, restFeats_kept_arg6]
theorem kept_arg6 (V : Valuation τ sig (Elt F)) :
    StableHlo.after ops V (Proc.devRef .tc main_arg6) = V (Proc.devRef .tc main_arg6) := by
  rw [after_ops, rest_kept_arg6, pre_kept_arg6]

/-- Argument 7 is written by no operation: not up to the clip, not up to the feature rows, not by the perceptron. -/
theorem pre_kept_arg7 (V : Valuation τ sig (Elt F)) :
    StableHlo.after pre V (Proc.devRef .tc main_arg7) = V (Proc.devRef .tc main_arg7) :=
  StableHlo.after_of_forall_not_mem (b := Proc.devRef .tc main_arg7) _ _ (List.forall_iff_forall_mem.mp (by
    simp only [pre, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restFeats_kept_arg7 (V : Valuation τ sig (Elt F)) :
    StableHlo.after restFeats V (Proc.devRef .tc main_arg7) = V (Proc.devRef .tc main_arg7) :=
  StableHlo.after_of_forall_not_mem (b := Proc.devRef .tc main_arg7) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem restMlp_kept_arg7 (V : Valuation τ sig (Elt F)) :
    StableHlo.after restMlp V (Proc.devRef .tc main_arg7) = V (Proc.devRef .tc main_arg7) :=
  StableHlo.after_of_forall_not_mem (b := Proc.devRef .tc main_arg7) _ _ (List.forall_iff_forall_mem.mp (by
    simp only [restMlp, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem rest_kept_arg7 (V : Valuation τ sig (Elt F)) :
    StableHlo.after rest V (Proc.devRef .tc main_arg7) = V (Proc.devRef .tc main_arg7) := by
  rw [after_rest, restMlp_kept_arg7, restFeats_kept_arg7]
theorem kept_arg7 (V : Valuation τ sig (Elt F)) :
    StableHlo.after ops V (Proc.devRef .tc main_arg7) = V (Proc.devRef .tc main_arg7) := by
  rw [after_ops, rest_kept_arg7, pre_kept_arg7]

/-- The operations from the clip to the feature rows do not write main_v0. -/
theorem restFeats_kept_v0 (V : Valuation τ sig (Elt F)) :
    StableHlo.after restFeats V (Proc.devRef .tc main_v0) = V (Proc.devRef .tc main_v0) :=
  StableHlo.after_of_forall_not_mem (b := Proc.devRef .tc main_v0) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- The operations from the clip to the feature rows do not write main_v1. -/
theorem restFeats_kept_v1 (V : Valuation τ sig (Elt F)) :
    StableHlo.after restFeats V (Proc.devRef .tc main_v1) = V (Proc.devRef .tc main_v1) :=
  StableHlo.after_of_forall_not_mem (b := Proc.devRef .tc main_v1) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- The operations from the clip to the feature rows do not write main_v33. -/
theorem restFeats_kept_v33 (V : Valuation τ sig (Elt F)) :
    StableHlo.after restFeats V (Proc.devRef .tc main_v33) = V (Proc.devRef .tc main_v33) :=
  StableHlo.after_of_forall_not_mem (b := Proc.devRef .tc main_v33) _ _ (List.forall_iff_forall_mem.mp (by
    simp only [restFeats, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.ReferenceIdeal.RefRun

end
-- ==== Proof.RefFeatsDefs.lean ====
/-
  The reference's feature rows as a composition of array functions.

  After the clip the reference takes, for every plane p and point n, the clipped coordinates g(p, n, 0) and g(p, n, 1);
  their whole parts, converted to 32-bit words, name the lower grid lines of the cell, the next line capped at 512 the
  upper ones, and the fractional parts are the blending weights.  Each of the four corners is fetched by one gather
  of the planes at the pair of words (y line, x line), after a wrap of negative words; the four fetched arrays are
  blended along x, then along y, and the result is laid out point-major with the planes' channels side by side.
  Each stage is named here as a function of the arrays it reads.
-/
import proofs.«108793_j65506841199156_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-! ## The stages, as functions of arrays -/

/-- The x coordinates (entry 0 of the last axis) as a [3, 500000] array. -/
def c0 (g : FVec Ideal S3x500000x2 .f32) : FVec Ideal S3x500000 .f32 :=
  shapeCast S3x500000 (extractStridedSlice S3x500000x1 ![0, 0, 0] g slices_S3x500000x2_S3x500000x1_0_0_0) shapeCasts_S3x500000x1_S3x500000
/-- The y coordinates (entry 1 of the last axis). -/
def c1 (g : FVec Ideal S3x500000x2 .f32) : FVec Ideal S3x500000 .f32 :=
  shapeCast S3x500000 (extractStridedSlice S3x500000x1 ![0, 0, 1] g slices_S3x500000x2_S3x500000x1_0_0_1) shapeCasts_S3x500000x1_S3x500000

/-- An integer scalar spread over [3, 500000]. -/
def kI (b : BitVec 32) : IVec S3x500000 32 := broadcastInDim S3x500000 ![] bcast_S_S3x500000 (constantI S_ 32 b)
/-- The float one spread over [3, 500000]. -/
def one2 : FVec Ideal S3x500000 .f32 := broadcastInDim S3x500000 ![] bcast_S_S3x500000 (constant S_ .f32 0x3F800000#32)

/-- Lower and upper grid-line words and fractional parts, along x (0) and y (1). -/
def lo0 (g : FVec Ideal S3x500000x2 .f32) : IVec S3x500000 32 := fptosi 32 (Host.floor (c0 g))
def lo1 (g : FVec Ideal S3x500000x2 .f32) : IVec S3x500000 32 := fptosi 32 (Host.floor (c1 g))
def hi0 (g : FVec Ideal S3x500000x2 .f32) : IVec S3x500000 32 := minsi (addi (lo0 g) (kI 1#32)) (kI 512#32)
def hi1 (g : FVec Ideal S3x500000x2 .f32) : IVec S3x500000 32 := minsi (addi (lo1 g) (kI 1#32)) (kI 512#32)
def fr0 (g : FVec Ideal S3x500000x2 .f32) : FVec Ideal S3x500000 .f32 := subf (c0 g) (Host.floor (c0 g))
def fr1 (g : FVec Ideal S3x500000x2 .f32) : FVec Ideal S3x500000 .f32 := subf (c1 g) (Host.floor (c1 g))

/-- A negative word moved up by 513 (an index counted from the end), any other left alone. -/
def wrap (w : IVec S3x500000 32) : IVec S3x500000 32 := select (cmpi .slt w (kI 0#32)) (addi w (kI 513#32)) w

/-- Two word arrays side by side as the [3, 500000, 2] array of index pairs. -/
def pairIdx (wy wx : IVec S3x500000 32) : IVec S3x500000x2 32 :=
  concatenate S3x500000x2 2
    [⟨S3x500000x1, broadcastInDim S3x500000x1 ![0, 1] bcast_S3x500000_S3x500000x1_0_1 wy⟩,
     ⟨S3x500000x1, broadcastInDim S3x500000x1 ![0, 1] bcast_S3x500000_S3x500000x1_0_1 wx⟩]
    concatenates_S3x500000x1_S3x500000x1_S3x500000x2_d2

/-- The dimension numbers of the four gathers: plane by plane, all 32 channels at one (y line, x line) pair. -/
abbrev gd := gather_S3x32x513x513_S3x500000x2_S3x32x500000_1_23_0_0_23_2_13211

/-- The gathered corner entries for the grid lines two word arrays name. -/
def cornerArr (P : FVec Ideal S3x32x513x513 .f32) (wy wx : IVec S3x500000 32) : FVec Ideal S3x32x500000 .f32 :=
  Host.gather gd P (pairIdx (wrap wy) (wrap wx))

/-- A per-point weight spread over the 32 channels. -/
def wgt (f : FVec Ideal S3x500000 .f32) : FVec Ideal S3x32x500000 .f32 :=
  broadcastInDim S3x32x500000 ![0, 1, 2] bcast_S3x1x500000_S3x32x500000_0_1_2
    (broadcastInDim S3x1x500000 ![0, 2] bcast_S3x500000_S3x1x500000_0_2 f)

/-- The bilinear blend of the four corner arrays: along x on the lower and the upper y line, then along y. -/
def blend (g : FVec Ideal S3x500000x2 .f32) (P : FVec Ideal S3x32x513x513 .f32) : FVec Ideal S3x32x500000 .f32 :=
  addf
    (mulf (addf (mulf (cornerArr P (lo1 g) (lo0 g)) (wgt (subf one2 (fr0 g)))) (mulf (cornerArr P (lo1 g) (hi0 g)) (wgt (fr0 g))))
      (wgt (subf one2 (fr1 g))))
    (mulf (addf (mulf (cornerArr P (hi1 g) (lo0 g)) (wgt (subf one2 (fr0 g)))) (mulf (cornerArr P (hi1 g) (hi0 g)) (wgt (fr0 g))))
      (wgt (fr1 g)))

/-- The features as rows: point-major, the three planes' 32 channels side by side. -/
def feats (g : FVec Ideal S3x500000x2 .f32) (P : FVec Ideal S3x32x513x513 .f32) : FVec Ideal S500000x96 .f32 :=
  shapeCast S500000x96
    (transpose S500000x3x32 [1, 0, 2]
      (transpose S3x500000x32 [0, 2, 1] (blend g P) transposes_S3x32x500000_S3x500000x32_0_2_1)
      transposes_S3x500000x32_S500000x3x32_1_0_2)
    shapeCasts_S500000x3x32_S500000x96

end Cert.ReferenceIdeal.RefValue

end
-- ==== Proof.RefFeatsTerm.lean ====
/-
  The fold of the reference's operations from the clip to the feature rows, at the feature rows' buffer, is the
  composition of array functions named in the sibling module, applied to the clipped coordinates and the planes:
  each operation's result rewritten at its own buffer, every other buffer left as it was, one pass.
-/
import proofs.«108793_j65506841199156_2_alg».proof.Proof.RefOps
import proofs.«108793_j65506841199156_2_alg».proof.Proof.RefFeatsDefs

noncomputable section

namespace Cert.ReferenceIdeal.RefValue

open Cert.ReferenceIdeal Cert.ReferenceIdeal.Gen Cert.ReferenceIdeal.RefRun Idealize.ShloMosaic Idealize.ShloMosaic.TcCoe Idealize.SL.Sem

set_option maxRecDepth 16384 in
set_option maxHeartbeats 8000000 in
/-- The feature rows' buffer after the operations from the clip on: the composition, of the clipped coordinates and
    the planes as they stand before those operations. -/
theorem v137_eq (W : Valuation τ sig (Elt Ideal)) :
    StableHlo.after (restFeats (F := Ideal)) W (Proc.devRef .tc main_v137)
      = feats (W (Proc.devRef .tc main_v33)) (W (Proc.devRef .tc main_arg1)) := by
  after_results_simp
  rfl

end Cert.ReferenceIdeal.RefValue

end
-- ==== Proof.RefFeats.lean ====
/-
  The reference's feature rows, read at an index.

  Each stage of the composition named in the sibling module is read at an index written by its coordinates: the two
  coordinate columns, the cell's corner words and the fractional parts (the specification's, by definition), the
  pair of words a gather reads, the batched gather itself (plane by plane, every channel at the two clamped words),
  the weights spread over the channels, and the two transposes and the reshape that lay the blend out point-major.
  With the clipped coordinates in [0, 512] every corner word lies between 0 and 512, so the wrap of negative words
  returns the word, the gather's clamp is the identity, and the grid line read is the specification's.  The fold of
  the program's operations at the feature rows' buffer is that composition, so the feature rows at (n, q) are the
  specification's bilinear blend of plane q / 32, channel q % 32 at point n.
-/
import proofs.«108793_j65506841199156_2_alg».proof.Proof.RefFeatsDefs
import proofs.«108793_j65506841199156_2_alg».proof.Proof.RefFeatsTerm
import proofs.«108793_j65506841199156_2_alg».proof.Proof.Spec
import proofs.«108793_j65506841199156_2_alg».proof.Proof.SpecWords
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.ValueIdx
/-! ## The gather read at an index -/

theorem gd_siIdx0 (p : Fin 3) (ch : Fin 32) (n : Fin 500000) (h) :
    gd.siIdx (ix3 p ch n) ⟨0, h⟩ = ix3 p n (0 : Fin 2) := by
  funext b; refine Fin.ext ?_
  match b with
  | ⟨0, _⟩ => rfl
  | ⟨1, _⟩ => rfl
  | ⟨2, _⟩ => rfl

theorem gd_siIdx1 (p : Fin 3) (ch : Fin 32) (n : Fin 500000) (h) :
    gd.siIdx (ix3 p ch n) ⟨1, h⟩ = ix3 p n (1 : Fin 2) := by
  funext b; refine Fin.ext ?_
  match b with
  | ⟨0, _⟩ => rfl
  | ⟨1, _⟩ => rfl
  | ⟨2, _⟩ => rfl

/-- The batched gather read at (plane, channel, point): the plane's channel at the two start words of the point,
    each read signed and clamped to the grid lines 0 … 512.  Operand axis 0 is the batching axis (the result's
    plane), axis 1 the offset axis (the result's channel), axes 2 and 3 are collapsed and take the clamped words. -/
theorem gather_apply {α : Type} {w : Nat} (P : S3x32x513x513.Idx → α) (idx : IVec S3x500000x2 w)
    (p : Fin 3) (ch : Fin 32) (n : Fin 500000) :
    Host.gather gd P idx (ix3 p ch n)
      = P (ix4 p ch ⟨min (idx (ix3 p n (0 : Fin 2))).toInt.toNat 512, by omega⟩
            ⟨min (idx (ix3 p n (1 : Fin 2))).toInt.toNat 512, by omega⟩) := by
  have b0 : (⟨0, by decide⟩ : Fin S3x32x513x513.rank) ∈ gd.operandBatchingDims := by decide
  have b1 : (⟨1, by decide⟩ : Fin S3x32x513x513.rank) ∉ gd.operandBatchingDims := by decide
  have b2 : (⟨2, by decide⟩ : Fin S3x32x513x513.rank) ∉ gd.operandBatchingDims := by decide
  have b3 : (⟨3, by decide⟩ : Fin S3x32x513x513.rank) ∉ gd.operandBatchingDims := by decide
  have k0 : (⟨0, by decide⟩ : Fin S3x32x513x513.rank) ∉ gd.sKept := by decide
  have k2 : (⟨2, by decide⟩ : Fin S3x32x513x513.rank) ∉ gd.sKept := by decide
  have k3 : (⟨3, by decide⟩ : Fin S3x32x513x513.rank) ∉ gd.sKept := by decide
  have m1 : (⟨1, by decide⟩ : Fin S3x32x513x513.rank) ∉ gd.startIndexMap := by decide
  have m2 : (⟨2, by decide⟩ : Fin S3x32x513x513.rank) ∈ gd.startIndexMap := by decide
  have m3 : (⟨3, by decide⟩ : Fin S3x32x513x513.rank) ∈ gd.startIndexMap := by decide
  unfold Host.gather
  refine congrArg P (funext fun a => Fin.ext ?_)
  show gd.start (ix3 p ch n) idx a + gd.batchCoord (ix3 p ch n) a + gd.offCoord (ix3 p ch n) a = _
  match a with
  | ⟨0, _⟩ =>
    rw [GatherDims.start_batching gd _ _ _ b0, GatherDims.offCoord_eq_zero gd _ _ k0, Nat.zero_add, Nat.add_zero]
    unfold GatherDims.batchCoord
    rw [dif_pos b0]
    rfl
  | ⟨1, _⟩ =>
    rw [GatherDims.batchCoord_eq_zero gd _ _ b1, Nat.add_zero]
    unfold GatherDims.start
    rw [dif_neg m1, Nat.zero_add]
    rfl
  | ⟨2, _⟩ =>
    rw [GatherDims.batchCoord_eq_zero gd _ _ b2, GatherDims.offCoord_eq_zero gd _ _ k2, Nat.add_zero]
    unfold GatherDims.start
    rw [dif_pos m2]
    show min (idx (gd.siIdx (ix3 p ch n) ⟨0, by decide⟩)).toInt.toNat 512 = _
    rw [gd_siIdx0]
  | ⟨3, _⟩ =>
    rw [GatherDims.batchCoord_eq_zero gd _ _ b3, GatherDims.offCoord_eq_zero gd _ _ k3, Nat.add_zero]
    unfold GatherDims.start
    rw [dif_pos m3]
    show min (idx (gd.siIdx (ix3 p ch n) ⟨1, by decide⟩)).toInt.toNat 512 = _
    rw [gd_siIdx1]

/-! ## Words in range: the wrap and the clamp do nothing -/

/-- A word between 0 and 512 is not negative: the wrap returns it. -/
theorem wrap_word {w : BitVec 32} (h : 0 ≤ w.toInt ∧ w.toInt ≤ 512) :
    Scalar.select (IntOp.cmpi .slt w 0#32) (IntOp.addi w 513#32) w = w := by
  have hs : w.slt 0#32 = false := by
    rw [BitVec.slt_eq_decide, BitVec.toInt_zero]
    exact decide_eq_false (by omega)
  show Scalar.select (BitVec.ofBool (w.slt 0#32)) (IntOp.addi w 513#32) w = w
  rw [hs]
  exact select_zero _ _

/-- A word between 0 and 512 read signed, then clamped to 512, is the word read unsigned and clamped. -/
theorem clamp_word {w : BitVec 32} (h : 0 ≤ w.toInt ∧ w.toInt ≤ 512) : min w.toInt.toNat 512 = min w.toNat 512 := by
  have e := (Cert.Spec.toNat_of_range h).1
  rw [← e, Int.toNat_natCast]

/-! ## Each stage read at an index -/

theorem c0_apply (g : FVec Ideal S3x500000x2 .f32) (p : Fin 3) (n : Fin 500000) :
    c0 g (ix2 p n) = g (ix3 p n (0 : Fin 2)) := by
  unfold c0
  refine (shapeCast_apply _ _ _ (ix3 p n (0 : Fin 1)) ?_).trans ?_
  · rw [Shape.rowMajor_val_three, Shape.rowMajor_val_two]
    show (p.val * 500000 + n.val) * 1 + 0 = p.val * 500000 + n.val
    omega
  · exact extractStridedSlice_apply _ _ _ _ (ix3 p n (0 : Fin 2)) fun a => match a with
      | ⟨0, _⟩ => (Nat.zero_add _).symm
      | ⟨1, _⟩ => (Nat.zero_add _).symm
      | ⟨2, _⟩ => rfl

theorem c1_apply (g : FVec Ideal S3x500000x2 .f32) (p : Fin 3) (n : Fin 500000) :
    c1 g (ix2 p n) = g (ix3 p n (1 : Fin 2)) := by
  unfold c1
  refine (shapeCast_apply _ _ _ (ix3 p n (0 : Fin 1)) ?_).trans ?_
  · rw [Shape.rowMajor_val_three, Shape.rowMajor_val_two]
    show (p.val * 500000 + n.val) * 1 + 0 = p.val * 500000 + n.val
    omega
  · exact extractStridedSlice_apply _ _ _ _ (ix3 p n (1 : Fin 2)) fun a => match a with
      | ⟨0, _⟩ => (Nat.zero_add _).symm
      | ⟨1, _⟩ => (Nat.zero_add _).symm
      | ⟨2, _⟩ => rfl

theorem lo0_apply (g : FVec Ideal S3x500000x2 .f32) (p : Fin 3) (n : Fin 500000) :
    lo0 g (ix2 p n) = Cert.Spec.lo g p n 0 := by
  show Ideal.fptosi 32 (Ideal.liftRound Int.floor (c0 g (ix2 p n))) = _
  rw [c0_apply]; rfl
theorem lo1_apply (g : FVec Ideal S3x500000x2 .f32) (p : Fin 3) (n : Fin 500000) :
    lo1 g (ix2 p n) = Cert.Spec.lo g p n 1 := by
  show Ideal.fptosi 32 (Ideal.liftRound Int.floor (c1 g (ix2 p n))) = _
  rw [c1_apply]; rfl
theorem hi0_apply (g : FVec Ideal S3x500000x2 .f32) (p : Fin 3) (n : Fin 500000) :
    hi0 g (ix2 p n) = Cert.Spec.hi g p n 0 := by
  show IntOp.minsi (IntOp.addi (lo0 g (ix2 p n)) 1#32) 512#32 = _
  rw [lo0_apply]; rfl
theorem hi1_apply (g : FVec Ideal S3x500000x2 .f32) (p : Fin 3) (n : Fin 500000) :
    hi1 g (ix2 p n) = Cert.Spec.hi g p n 1 := by
  show IntOp.minsi (IntOp.addi (lo1 g (ix2 p n)) 1#32) 512#32 = _
  rw [lo1_apply]; rfl
theorem fr0_apply (g : FVec Ideal S3x500000x2 .f32) (p : Fin 3) (n : Fin 500000) :
    fr0 g (ix2 p n) = Cert.Spec.frac g p n 0 := by
  show c0 g (ix2 p n) - Ideal.liftRound Int.floor (c0 g (ix2 p n)) = _
  rw [c0_apply]; rfl
theorem fr1_apply (g : FVec Ideal S3x500000x2 .f32) (p : Fin 3) (n : Fin 500000) :
    fr1 g (ix2 p n) = Cert.Spec.frac g p n 1 := by
  show c1 g (ix2 p n) - Ideal.liftRound Int.floor (c1 g (ix2 p n)) = _
  rw [c1_apply]; rfl

/-- The wrap at a point whose word is in range returns the word. -/
theorem wrap_apply (w : IVec S3x500000 32) (i : S3x500000.Idx) (h : 0 ≤ (w i).toInt ∧ (w i).toInt ≤ 512) :
    wrap w i = w i :=
  wrap_word h

theorem pairIdx_apply0 (wy wx : IVec S3x500000 32) (p : Fin 3) (n : Fin 500000) :
    pairIdx wy wx (ix3 p n (0 : Fin 2)) = wy (ix2 p n) := by
  unfold pairIdx
  refine (concatenate_pair_apply_left (t := S3x500000x2) (s₁ := S3x500000x1) (s₂ := S3x500000x1) 2 _ _ _
    (ix3 p n (0 : Fin 2)) (by rfl) (ix3 p n (0 : Fin 1))
    (fun b => match b with | ⟨0, _⟩ => rfl | ⟨1, _⟩ => rfl | ⟨2, _⟩ => rfl)).trans ?_
  exact broadcastInDim_apply _ _ _ _ (ix2 p n) fun a => match a with | ⟨0, _⟩ => rfl | ⟨1, _⟩ => rfl

theorem pairIdx_apply1 (wy wx : IVec S3x500000 32) (p : Fin 3) (n : Fin 500000) :
    pairIdx wy wx (ix3 p n (1 : Fin 2)) = wx (ix2 p n) := by
  unfold pairIdx
  refine (concatenate_pair_apply_right (t := S3x500000x2) (s₁ := S3x500000x1) (s₂ := S3x500000x1) 2 _ _ _
    (ix3 p n (1 : Fin 2)) (by rfl) (by rfl) (ix3 p n (0 : Fin 1))
    (fun b hb => match b, hb with
      | ⟨0, _⟩, _ => rfl
      | ⟨1, _⟩, _ => rfl
      | ⟨2, _⟩, hb => (hb rfl).elim) rfl).trans ?_
  exact broadcastInDim_apply _ _ _ _ (ix2 p n) fun a => match a with | ⟨0, _⟩ => rfl | ⟨1, _⟩ => rfl

/-- A gathered corner array at (plane, channel, point), the two word arrays in range there: the planes' entry at
    the grid lines the words name. -/
theorem cornerArr_apply (P : FVec Ideal S3x32x513x513 .f32) (wy wx : IVec S3x500000 32) (p : Fin 3) (ch : Fin 32)
    (n : Fin 500000) (hy : 0 ≤ (wy (ix2 p n)).toInt ∧ (wy (ix2 p n)).toInt ≤ 512)
    (hx : 0 ≤ (wx (ix2 p n)).toInt ∧ (wx (ix2 p n)).toInt ≤ 512) :
    cornerArr P wy wx (ix3 p ch n) = Cert.Spec.corner P p ch (wy (ix2 p n)) (wx (ix2 p n)) := by
  have e0 : pairIdx (wrap wy) (wrap wx) (ix3 p n (0 : Fin 2)) = wy (ix2 p n) :=
    (pairIdx_apply0 _ _ p n).trans (wrap_apply wy _ hy)
  have e1 : pairIdx (wrap wy) (wrap wx) (ix3 p n (1 : Fin 2)) = wx (ix2 p n) :=
    (pairIdx_apply1 _ _ p n).trans (wrap_apply wx _ hx)
  unfold cornerArr
  refine (gather_apply P _ p ch n).trans ?_
  unfold Cert.Spec.corner
  refine congrArg P (congrArg₂ (ix4 p ch) (Fin.ext ?_) (Fin.ext ?_))
  · show min (pairIdx (wrap wy) (wrap wx) (ix3 p n (0 : Fin 2))).toInt.toNat 512 = min (wy (ix2 p n)).toNat 512
    rw [e0]; exact clamp_word hy
  · show min (pairIdx (wrap wy) (wrap wx) (ix3 p n (1 : Fin 2))).toInt.toNat 512 = min (wx (ix2 p n)).toNat 512
    rw [e1]; exact clamp_word hx

theorem wgt_apply (f : FVec Ideal S3x500000 .f32) (p : Fin 3) (ch : Fin 32) (n : Fin 500000) :
    wgt f (ix3 p ch n) = f (ix2 p n) := by
  unfold wgt
  refine (broadcastInDim_apply _ _ _ _ (ix3 p (0 : Fin 1) n)
    fun a => match a with | ⟨0, _⟩ => rfl | ⟨1, _⟩ => rfl | ⟨2, _⟩ => rfl).trans ?_
  exact broadcastInDim_apply _ _ _ _ (ix2 p n) fun a => match a with | ⟨0, _⟩ => rfl | ⟨1, _⟩ => rfl

/-- The blend at (plane, channel, point), the clipped coordinates in [0, 512]: the bilinear blend of the four corner
    entries with the fractional parts as weights. -/
theorem blend_apply (g : FVec Ideal S3x500000x2 .f32) (P : FVec Ideal S3x32x513x513 .f32) (hg : Cert.Spec.InGrid g)
    (p : Fin 3) (ch : Fin 32) (n : Fin 500000) :
    blend g P (ix3 p ch n) = Cert.Spec.feat g P n p ch := by
  have rl0 : 0 ≤ (lo0 g (ix2 p n)).toInt ∧ (lo0 g (ix2 p n)).toInt ≤ 512 := by
    rw [lo0_apply]; exact Cert.Spec.lo_range hg p n 0
  have rl1 : 0 ≤ (lo1 g (ix2 p n)).toInt ∧ (lo1 g (ix2 p n)).toInt ≤ 512 := by
    rw [lo1_apply]; exact Cert.Spec.lo_range hg p n 1
  have rh0 : 0 ≤ (hi0 g (ix2 p n)).toInt ∧ (hi0 g (ix2 p n)).toInt ≤ 512 := by
    rw [hi0_apply]; exact Cert.Spec.hi_range hg p n 0
  have rh1 : 0 ≤ (hi1 g (ix2 p n)).toInt ∧ (hi1 g (ix2 p n)).toInt ≤ 512 := by
    rw [hi1_apply]; exact Cert.Spec.hi_range hg p n 1
  show (cornerArr P (lo1 g) (lo0 g) (ix3 p ch n) * wgt (subf one2 (fr0 g)) (ix3 p ch n)
          + cornerArr P (lo1 g) (hi0 g) (ix3 p ch n) * wgt (fr0 g) (ix3 p ch n)) * wgt (subf one2 (fr1 g)) (ix3 p ch n)
        + (cornerArr P (hi1 g) (lo0 g) (ix3 p ch n) * wgt (subf one2 (fr0 g)) (ix3 p ch n)
          + cornerArr P (hi1 g) (hi0 g) (ix3 p ch n) * wgt (fr0 g) (ix3 p ch n)) * wgt (fr1 g) (ix3 p ch n) = _
  rw [cornerArr_apply P _ _ p ch n rl1 rl0, cornerArr_apply P _ _ p ch n rl1 rh0,
    cornerArr_apply P _ _ p ch n rh1 rl0, cornerArr_apply P _ _ p ch n rh1 rh0]
  simp only [wgt_apply]
  show (Cert.Spec.corner P p ch (lo1 g (ix2 p n)) (lo0 g (ix2 p n)) * (Cert.Spec.one - fr0 g (ix2 p n))
          + Cert.Spec.corner P p ch (lo1 g (ix2 p n)) (hi0 g (ix2 p n)) * fr0 g (ix2 p n)) * (Cert.Spec.one - fr1 g (ix2 p n))
        + (Cert.Spec.corner P p ch (hi1 g (ix2 p n)) (lo0 g (ix2 p n)) * (Cert.Spec.one - fr0 g (ix2 p n))
          + Cert.Spec.corner P p ch (hi1 g (ix2 p n)) (hi0 g (ix2 p n)) * fr0 g (ix2 p n)) * fr1 g (ix2 p n) = _
  rw [lo0_apply, lo1_apply, hi0_apply, hi1_apply, fr0_apply, fr1_apply]
  rfl

/-- The feature rows at (point, column): the blend of plane column / 32, channel column % 32. -/
theorem feats_apply (g : FVec Ideal S3x500000x2 .f32) (P : FVec Ideal S3x32x513x513 .f32) (n : Fin 500000) (q : Fin 96) :
    feats g P (ix2 n q) = blend g P (ix3 (⟨q.val / 32, by omega⟩ : Fin 3) (⟨q.val % 32, by omega⟩ : Fin 32) n) := by
  unfold feats
  refine (shapeCast_apply _ _ _ (ix3 n (⟨q.val / 32, by omega⟩ : Fin 3) (⟨q.val % 32, by omega⟩ : Fin 32)) ?_).trans ?_
  · rw [Shape.rowMajor_val_three, Shape.rowMajor_val_two]
    show (n.val * 3 + q.val / 32) * 32 + q.val % 32 = n.val * 96 + q.val
    omega
  refine (transpose_apply _ _ _ _ (ix3 (⟨q.val / 32, by omega⟩ : Fin 3) n (⟨q.val % 32, by omega⟩ : Fin 32))
    fun b => match b with | ⟨0, _⟩ => rfl | ⟨1, _⟩ => rfl | ⟨2, _⟩ => rfl).trans ?_
  exact transpose_ix3_021_apply _ _ _ _ _

/-! ## The feature rows of the program -/

/-- After the operations from the clip to the feature rows, the clipped coordinates in [0, 512]: the feature rows'
    buffer at (n, q) holds the specification's feature q of point n, over the clipped coordinates and the planes as
    they stand before those operations. -/
theorem feats_read (W : Valuation τ sig (Elt Ideal)) (n : Fin 500000) (q : Fin 96)
    (hg : Cert.Spec.InGrid (W (Proc.devRef .tc main_v33))) :
    (StableHlo.after restFeats W (Proc.devRef .tc main_v137) : S500000x96.Idx → EReal) (ix2 n q)
      = Cert.Spec.featRow (W (Proc.devRef .tc main_v33)) (W (Proc.devRef .tc main_arg1)) n q := by
  refine (congrFun (v137_eq W) (ix2 n q)).trans ?_
  refine (feats_apply _ _ n q).trans ?_
  exact blend_apply _ _ hg _ _ n

end Cert.ReferenceIdeal.RefValue

end
-- ==== Proof.RefMlp.lean ====
/-
  The reference program's last stage, read at a point.

  After the 96 features of every point are in place, the reference lays each point's first 128 columns, its last
  three columns and its features side by side as a row of 227, and runs a three-layer perceptron on the rows: a
  product with the first weight matrix plus its bias, rectified; a product with the second plus its bias, rectified;
  a product with the last weight column plus the last bias; the one-column result flattened.  Over the extended
  reals a host product at an index is the plain sum over the contracted axis, a bias broadcast down the rows reads
  the bias, and rectifying is the maximum with zero, so the flattened result at point n is

      (∑ k, max ((∑ j, max ((∑ i, in n i · W0 i j) + b0 j) 0 · W1 j k) + b1 k) 0 · W2 k 0) + b2 0

  with in n i the point's i-th own column for i < 131 and its (i − 131)-th feature otherwise.
-/
import proofs.«108793_j65506841199156_2_alg».proof.Proof.Gen.ReferenceIdeal
import proofs.«108793_j65506841199156_2_alg».proof.Proof.Spec
import proofs.«108793_j65506841199156_2_alg».proof.Proof.LibPlainDot
import proofs.«108793_j65506841199156_2_alg».proof.Proof.RefOps
import Idealize.ShloMosaic.Lib.ValueLayout
import Idealize.ShloMosaic.Lib.Pipeline.Value
import Idealize.ShloMosaic.Lib.KernelVsHost
import Idealize.ShloMosaic.Lib.IdealHost
import Idealize.ShloMosaic.Lib.StableHlo.Run

noncomputable section

namespace Cert.ReferenceIdeal.RefValue

open Idealize.ShloMosaic Idealize.ShloMosaic.ValueIdx Cert.ReferenceIdeal Cert.ReferenceIdeal.Gen
open scoped BigOperators

/-! ## The pieces, over arrays of literal shapes -/

/-- Three blocks of columns laid side by side, read at (n, k): the block whose span holds k, at k less the widths
    before it. -/
theorem concat_apply (X0 : S500000x128.Idx → EReal) (X1 : S500000x3.Idx → EReal) (Fe : S500000x96.Idx → EReal)
    (n : Fin 500000) (k : Fin 227) :
    concatenate S500000x227 1 [⟨S500000x128, X0⟩, ⟨S500000x3, X1⟩, ⟨S500000x96, Fe⟩]
        concatenates_S500000x128_S500000x3_S500000x96_S500000x227_d1 (ix2 n k)
      = if h : k.val < 128 then X0 (ix2 n ⟨k.val, h⟩)
        else if h' : k.val < 131 then X1 (ix2 n ⟨k.val - 128, by omega⟩)
        else Fe (ix2 n ⟨k.val - 131, by omega⟩) := by
  by_cases h : k.val < 128
  · rw [dif_pos h]
    refine concatenate_apply_piece (1 : Fin S500000x227.rank) _ _ (ix2 n k) 0 (by show 0 < 3; decide) S500000x128 X0 rfl rfl 0 rfl
      (ix2 n ⟨k.val, h⟩) (fun b hb => ?_) (Nat.zero_add _)
    fin_cases b
    · rfl
    · exact absurd rfl hb
  · rw [dif_neg h]
    by_cases h' : k.val < 131
    · rw [dif_pos h']
      refine concatenate_apply_piece (1 : Fin S500000x227.rank) _ _ (ix2 n k) 1 (by show 1 < 3; decide) S500000x3 X1 rfl rfl 128 rfl
        (ix2 n ⟨k.val - 128, by omega⟩) (fun b hb => ?_) (by show 128 + (k.val - 128) = k.val; omega)
      fin_cases b
      · rfl
      · exact absurd rfl hb
    · rw [dif_neg h']
      refine concatenate_apply_piece (1 : Fin S500000x227.rank) _ _ (ix2 n k) 2 (by show 2 < 3; decide) S500000x96 Fe rfl rfl 131 rfl
        (ix2 n ⟨k.val - 131, by omega⟩) (fun b hb => ?_) (by show 131 + (k.val - 131) = k.val; omega)
      fin_cases b
      · rfl
      · exact absurd rfl hb

/-- With the first two blocks the points' own columns 0 … 127 and 128 … 130, the rows of 227 are the perceptron's
    inputs: the 131 own columns, then the 96 features. -/
theorem concat_netIn (x : S500000x131.Idx → EReal) (Fe : S500000x96.Idx → EReal) (n : Fin 500000) (k : Fin 227) :
    concatenate S500000x227 1
        [⟨S500000x128, extractStridedSlice S500000x128 ![0, 0] x slices_S500000x131_S500000x128_0_0⟩,
         ⟨S500000x3, extractStridedSlice S500000x3 ![0, 128] x slices_S500000x131_S500000x3_0_128⟩,
         ⟨S500000x96, Fe⟩]
        concatenates_S500000x128_S500000x3_S500000x96_S500000x227_d1 (ix2 n k)
      = Cert.Spec.netIn (fun n q => Fe (ix2 n q)) x n k := by
  rw [concat_apply]
  unfold Cert.Spec.netIn
  by_cases h : k.val < 128
  · rw [dif_pos h, dif_pos (show k.val < 131 by omega)]
    exact slice2_axis1_apply 0 x _ n ⟨k.val, h⟩ ⟨k.val, by omega⟩ (Nat.zero_add _).symm
  · rw [dif_neg h]
    by_cases h' : k.val < 131
    · rw [dif_pos h', dif_pos h']
      exact slice2_axis1_apply 128 x _ n ⟨k.val - 128, by omega⟩ ⟨k.val, h'⟩ (by show k.val = 128 + (k.val - 128); omega)
    · rw [dif_neg h', dif_neg h']

/-- A bias vector laid as one row and repeated down the rows reads, at (n, j), the bias at j. -/
theorem bias_apply {M N : Nat} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → EReal)
    (n : Fin M) (j : Fin N) :
    broadcastInDim ⟨2, ![M, N]⟩ ![0, 1] h2 (broadcastInDim ⟨2, ![1, N]⟩ ![1] h1 b) (ix2 n j) = b (ix1 j) := by
  refine (broadcastInDim_oneRow_apply h2 _ n j).trans ?_
  refine broadcastInDim_apply ![1] h1 b (ix2 (0 : Fin 1) j) (ix1 j) (fun a => ?_)
  fin_cases a
  show j.val = if N = 1 then 0 else j.val
  split_ifs with hN
  · have := j.isLt; omega
  · rfl

/-- The float zero repeated over an array reads the zero everywhere. -/
theorem zeros_apply {T : Shape} (h : (⟨0, ![]⟩ : Shape).BroadcastsInDim T ![]) (i : T.Idx) :
    broadcastInDim T ![] h (constant (F := Ideal) ⟨0, ![]⟩ .f32 0x00000000#32) i = Cert.Spec.zero :=
  broadcastInDim_scalar_apply h _ i

/-- A rectified layer as the reference spells it — product, bias down the rows, maximum with zeros — at (n, j). -/
theorem hiddenLayer_apply {K : Nat} (d : DotDims ⟨2, ![500000, K]⟩ ⟨2, ![K, 256]⟩ ⟨2, ![500000, 256]⟩) (hd : Cert.LibPlainDot.Plain d)
    (In : FVec Ideal ⟨2, ![500000, K]⟩ .f32) (Wt : FVec Ideal ⟨2, ![K, 256]⟩ .f32) (b : FVec Ideal S256 .f32)
    (n : Fin 500000) (j : Fin 256) :
    maximumf (addf (Host.dotGeneral d none In Wt)
        (broadcastInDim S500000x256 ![0, 1] bcast_S1x256_S500000x256_0_1 (broadcastInDim S1x256 ![1] bcast_S256_S1x256_1 b)))
      (broadcastInDim S500000x256 ![] bcast_S_S500000x256 (constant (F := Ideal) S_ .f32 0x00000000#32)) (ix2 n j)
      = max ((∑ k : Fin K, In (ix2 n k) * Wt (ix2 k j)) + b (ix1 j)) Cert.Spec.zero := by
  show max (Host.dotGeneral d none In Wt (ix2 n j)
      + broadcastInDim S500000x256 ![0, 1] bcast_S1x256_S500000x256_0_1 (broadcastInDim S1x256 ![1] bcast_S256_S1x256_1 b) (ix2 n j))
      (broadcastInDim S500000x256 ![] bcast_S_S500000x256 (constant (F := Ideal) S_ .f32 0x00000000#32) (ix2 n j)) = _
  rw [zeros_apply]
  refine congrArg (fun s => max s Cert.Spec.zero) ?_
  refine congrArg₂ (· + ·) ?_ ?_
  · exact Cert.LibPlainDot.dotGeneral_apply d hd none .single In Wt n j
  · exact bias_apply _ _ b n j

/-- The last layer as the reference spells it — product with the weight column, the one-entry bias down the rows —
    flattened, at n. -/
theorem outLayer_apply (H : FVec Ideal S500000x256 .f32) (W2 : FVec Ideal S256x1 .f32) (b2 : FVec Ideal S1 .f32) (n : Fin 500000) :
    shapeCast S500000 (addf (Host.dotGeneral dot_S500000x256_S256x1_S500000x1_1_0_0_1_n_n none H W2)
        (broadcastInDim S500000x1 ![0, 1] bcast_S1x1_S500000x1_0_1 (broadcastInDim S1x1 ![1] bcast_S1_S1x1_1 b2)))
      shapeCasts_S500000x1_S500000 (ix1 n)
      = (∑ k : Fin 256, H (ix2 n k) * W2 (ix2 k (0 : Fin 1))) + b2 (ix1 (0 : Fin 1)) := by
  refine (shapeCast_apply _ shapeCasts_S500000x1_S500000 (ix1 n) (ix2 n (0 : Fin 1)) ?_).trans ?_
  · rw [Shape.rowMajor_val_two, Shape.rowMajor_val_one]
    show n.val * 1 + 0 = n.val
    omega
  show Host.dotGeneral dot_S500000x256_S256x1_S500000x1_1_0_0_1_n_n none H W2 (ix2 n (0 : Fin 1))
      + broadcastInDim S500000x1 ![0, 1] bcast_S1x1_S500000x1_0_1 (broadcastInDim S1x1 ![1] bcast_S1_S1x1_1 b2) (ix2 n (0 : Fin 1)) = _
  refine congrArg₂ (· + ·) ?_ ?_
  · exact Cert.LibPlainDot.dotGeneral_apply _ ⟨rfl, rfl, rfl, rfl, rfl, rfl⟩ none .single H W2 n (0 : Fin 1)
  · exact bias_apply _ _ b2 n (0 : Fin 1)

section Stage

open Cert.ReferenceIdeal.RefRun Idealize.ShloMosaic.TcCoe Idealize.SL.Sem Idealize.ShloMosaic.StableHlo

/-! ## The stage itself -/

/-- With the first two blocks the points' own columns 0 … 127 and 128 … 130 (`h0`, `h1`), the rows of 227 are the
    perceptron's inputs. -/
theorem concat_netIn_of (x : S500000x131.Idx → EReal) (X0 : S500000x128.Idx → EReal) (X1 : S500000x3.Idx → EReal)
    (Fe : S500000x96.Idx → EReal)
    (h0 : X0 = extractStridedSlice S500000x128 ![0, 0] x slices_S500000x131_S500000x128_0_0)
    (h1 : X1 = extractStridedSlice S500000x3 ![0, 128] x slices_S500000x131_S500000x3_0_128) (n : Fin 500000) (k : Fin 227) :
    concatenate S500000x227 1 [⟨S500000x128, X0⟩, ⟨S500000x3, X1⟩, ⟨S500000x96, Fe⟩]
        concatenates_S500000x128_S500000x3_S500000x96_S500000x227_d1 (ix2 n k)
      = Cert.Spec.netIn (fun n q => Fe (ix2 n q)) x n k := by
  subst h0 h1
  exact concat_netIn x Fe n k

set_option maxHeartbeats 1000000 in
/-- The reference's perceptron stage, run from any contents `W` whose first two column blocks are the points' own
    columns: the flattened result at point n is the three-layer perceptron of the point's 131 own columns and the 96
    features found in the feature rows. -/
theorem mlp_read (W : Valuation τ sig (Elt Ideal)) (n : Fin 500000)
    (h0 : (W (Proc.devRef .tc main_v0) : S500000x128.Idx → EReal)
      = extractStridedSlice S500000x128 ![0, 0] (W (Proc.devRef .tc main_arg0) : S500000x131.Idx → EReal) slices_S500000x131_S500000x128_0_0)
    (h1 : (W (Proc.devRef .tc main_v1) : S500000x3.Idx → EReal)
      = extractStridedSlice S500000x3 ![0, 128] (W (Proc.devRef .tc main_arg0) : S500000x131.Idx → EReal) slices_S500000x131_S500000x3_0_128) :
    (StableHlo.after restMlp W (Proc.devRef .tc main_v153) : S500000.Idx → EReal) (ix1 n)
      = Cert.Spec.outOf (Cert.Spec.hidden2 (Cert.Spec.hidden1
            (fun n q => (W (Proc.devRef .tc main_v137) : S500000x96.Idx → EReal) (ix2 n q))
            (W (Proc.devRef .tc main_arg0) : S500000x131.Idx → EReal) (W (Proc.devRef .tc main_arg2) : S227x256.Idx → EReal) (W (Proc.devRef .tc main_arg3) : S256.Idx → EReal))
          (W (Proc.devRef .tc main_arg4) : S256x256.Idx → EReal) (W (Proc.devRef .tc main_arg5) : S256.Idx → EReal))
        (W (Proc.devRef .tc main_arg6) : S256x1.Idx → EReal) (W (Proc.devRef .tc main_arg7) : S1.Idx → EReal) n := by
  simp only [restMlp]
  after_results_simp
  show shapeCast S500000 (addf (Host.dotGeneral dot_S500000x256_S256x1_S500000x1_1_0_0_1_n_n none
        (maximumf (addf (Host.dotGeneral dot_S500000x256_S256x256_S500000x256_1_0_0_1_n_n none
            (maximumf (addf (Host.dotGeneral dot_S500000x227_S227x256_S500000x256_1_0_0_1_n_n none
                (concatenate S500000x227 1 [⟨S500000x128, (W (Proc.devRef .tc main_v0) : S500000x128.Idx → EReal)⟩,
                    ⟨S500000x3, (W (Proc.devRef .tc main_v1) : S500000x3.Idx → EReal)⟩, ⟨S500000x96, (W (Proc.devRef .tc main_v137) : S500000x96.Idx → EReal)⟩]
                  concatenates_S500000x128_S500000x3_S500000x96_S500000x227_d1)
                (W (Proc.devRef .tc main_arg2) : S227x256.Idx → EReal))
              (broadcastInDim S500000x256 ![0, 1] bcast_S1x256_S500000x256_0_1 (broadcastInDim S1x256 ![1] bcast_S256_S1x256_1 (W (Proc.devRef .tc main_arg3) : S256.Idx → EReal)))) (broadcastInDim S500000x256 ![] bcast_S_S500000x256 (constant (F := Ideal) S_ .f32 0x00000000#32)))
            (W (Proc.devRef .tc main_arg4) : S256x256.Idx → EReal))
          (broadcastInDim S500000x256 ![0, 1] bcast_S1x256_S500000x256_0_1 (broadcastInDim S1x256 ![1] bcast_S256_S1x256_1 (W (Proc.devRef .tc main_arg5) : S256.Idx → EReal)))) (broadcastInDim S500000x256 ![] bcast_S_S500000x256 (constant (F := Ideal) S_ .f32 0x00000000#32)))
        (W (Proc.devRef .tc main_arg6) : S256x1.Idx → EReal))
      (broadcastInDim S500000x1 ![0, 1] bcast_S1x1_S500000x1_0_1 (broadcastInDim S1x1 ![1] bcast_S1_S1x1_1 (W (Proc.devRef .tc main_arg7) : S1.Idx → EReal))))
    shapeCasts_S500000x1_S500000 (ix1 n) = _
  refine (outLayer_apply _ _ _ n).trans ?_
  unfold Cert.Spec.outOf
  refine congrArg₂ (· + ·) ?_ rfl
  refine Finset.sum_congr rfl fun k _ => ?_
  refine congrArg₂ (· * ·) ?_ rfl
  refine (hiddenLayer_apply _ ⟨rfl, rfl, rfl, rfl, rfl, rfl⟩ _ _ _ n k).trans ?_
  unfold Cert.Spec.hidden2
  refine congrArg₂ max ?_ rfl
  refine congrArg₂ (· + ·) ?_ rfl
  refine Finset.sum_congr rfl fun j _ => ?_
  refine congrArg₂ (· * ·) ?_ rfl
  refine (hiddenLayer_apply _ ⟨rfl, rfl, rfl, rfl, rfl, rfl⟩ _ _ _ n j).trans ?_
  unfold Cert.Spec.hidden1
  refine congrArg₂ max ?_ rfl
  refine congrArg₂ (· + ·) ?_ rfl
  refine Finset.sum_congr rfl fun i _ => ?_
  refine congrArg₂ (· * ·) ?_ rfl
  exact concat_netIn_of _ _ _ _ h0 h1 n i

end Stage

end Cert.ReferenceIdeal.RefValue

end
-- ==== Proof.LibNary.lean ====
import Idealize.ShloMosaic.Lib.StableHlo.Run

/-!
# A concatenate of two or of three operands, its result at its own buffer

A host operation over a LITERAL family of two or three buffers (a concatenate of two or three operands) leaves in
its result buffer its function applied to the operands' contents, each operand's contents written AT ITS OWN
BUFFER — so that a rewriting that follows each buffer back to the operation that wrote it can go on through the
operands.  (The family's value at a variable position is no literal buffer; its values at the literal positions
0, 1, 2 are.)  Stated twice: as an equation at the result buffer, and with the result buffer left free.  Following every buffer back to
the operation that wrote it then goes through the two- and three-operand forms.
-/

noncomputable section

namespace Cert.LibNary

open Idealize.ShloMosaic Idealize.ShloMosaic.StableHlo Idealize.SL.Sem

variable {τ : Topo} {sig : RefSig} {Val : EltTy → Type}
variable {x a b y : Ref sig .tc}

/-- Three operands. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Two operands. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl

theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Cert.LibNary

/-- One pass that follows every buffer of a fold of host operations back to the operation that wrote it, through the
    two- and three-operand forms above. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Cert.LibNary.nary2_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.RefBridge.lean ====
/-
  The reference's result is the specification, in the reference's arrangement.

  The reference's operations fall into three stretches: up to the coordinate clip; from there to the feature rows;
  and the perceptron over [own columns | features].  After the first stretch the two column slices of x are in
  place and the arguments untouched; the second leaves the feature rows, read at an index as the specification's
  features; the third is the specification's three layers over them.
-/
import proofs.«108793_j65506841199156_2_alg».proof.Proof.RefRun
import proofs.«108793_j65506841199156_2_alg».proof.Proof.RefFeats
import proofs.«108793_j65506841199156_2_alg».proof.Proof.RefMlp
import proofs.«108793_j65506841199156_2_alg».proof.Proof.SpecWords
import proofs.«108793_j65506841199156_2_alg».proof.Proof.LibNary

set_option maxRecDepth 16384

noncomputable section

namespace Cert.ReferenceIdeal.RBridge

open Cert.ReferenceIdeal Cert.ReferenceIdeal.Gen Cert.ReferenceIdeal.RefRun Cert.ReferenceIdeal.RefValue
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- Core c's buffer contents right after the clip. -/
def Wr (c : Dev nD) : Valuation τ sig (Elt Ideal) := StableHlo.after pre (StableHlo.launchContents m c)

theorem Wr_arg0 (c : Dev nD) : Wr m c (Proc.devRef .tc main_arg0) = m ((c.tc : Thread nD τ).loc main_arg0) := pre_kept_arg0 _
theorem Wr_arg1 (c : Dev nD) : Wr m c (Proc.devRef .tc main_arg1) = m ((c.tc : Thread nD τ).loc main_arg1) := pre_kept_arg1 _
theorem Wr_arg2 (c : Dev nD) : Wr m c (Proc.devRef .tc main_arg2) = m ((c.tc : Thread nD τ).loc main_arg2) := pre_kept_arg2 _
theorem Wr_arg3 (c : Dev nD) : Wr m c (Proc.devRef .tc main_arg3) = m ((c.tc : Thread nD τ).loc main_arg3) := pre_kept_arg3 _
theorem Wr_arg4 (c : Dev nD) : Wr m c (Proc.devRef .tc main_arg4) = m ((c.tc : Thread nD τ).loc main_arg4) := pre_kept_arg4 _
theorem Wr_arg5 (c : Dev nD) : Wr m c (Proc.devRef .tc main_arg5) = m ((c.tc : Thread nD τ).loc main_arg5) := pre_kept_arg5 _
theorem Wr_arg6 (c : Dev nD) : Wr m c (Proc.devRef .tc main_arg6) = m ((c.tc : Thread nD τ).loc main_arg6) := pre_kept_arg6 _
theorem Wr_arg7 (c : Dev nD) : Wr m c (Proc.devRef .tc main_arg7) = m ((c.tc : Thread nD τ).loc main_arg7) := pre_kept_arg7 _

set_option maxHeartbeats 2000000 in
/-- The first 128 columns of x, sliced off before the clip. -/
theorem Wr_v0 (c : Dev nD) :
    (Wr m c (Proc.devRef .tc main_v0) : S500000x128.Idx → EReal)
      = extractStridedSlice S500000x128 ![0, 0] (Wr m c (Proc.devRef .tc main_arg0) : S500000x131.Idx → EReal) slices_S500000x131_S500000x128_0_0 := by
  rw [Wr_arg0]
  unfold Wr
  simp only [pre, StableHlo.TRef.unary, StableHlo.TRef.binary]
  after_results_cat

set_option maxHeartbeats 2000000 in
/-- The last three columns of x. -/
theorem Wr_v1 (c : Dev nD) :
    (Wr m c (Proc.devRef .tc main_v1) : S500000x3.Idx → EReal)
      = extractStridedSlice S500000x3 ![0, 128] (Wr m c (Proc.devRef .tc main_arg0) : S500000x131.Idx → EReal) slices_S500000x131_S500000x3_0_128 := by
  rw [Wr_arg0]
  unfold Wr
  simp only [pre, StableHlo.TRef.unary, StableHlo.TRef.binary]
  after_results_cat

/-- The reference's result at n is the specification's output at n. -/
theorem ref_read (c : Dev nD) (n : Fin 500000) (hg : Cert.Spec.InGrid (Wr m c (Proc.devRef .tc main_v33))) :
    (StableHlo.after ops (StableHlo.launchContents m c) (Proc.devRef .tc main_v153) : S500000.Idx → EReal) (ix1 n)
      = Cert.Spec.out (Wr m c (Proc.devRef .tc main_v33)) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) n := by
  rw [after_ops, after_rest]
  show (StableHlo.after restMlp (StableHlo.after restFeats (Wr m c)) (Proc.devRef .tc main_v153) : S500000.Idx → EReal) (ix1 n) = _
  have h0 : (StableHlo.after restFeats (Wr m c) (Proc.devRef .tc main_v0) : S500000x128.Idx → EReal)
      = extractStridedSlice S500000x128 ![0, 0] (StableHlo.after restFeats (Wr m c) (Proc.devRef .tc main_arg0) : S500000x131.Idx → EReal) slices_S500000x131_S500000x128_0_0 := by
    rw [restFeats_kept_v0, restFeats_kept_arg0]; exact Wr_v0 m c
  have h1 : (StableHlo.after restFeats (Wr m c) (Proc.devRef .tc main_v1) : S500000x3.Idx → EReal)
      = extractStridedSlice S500000x3 ![0, 128] (StableHlo.after restFeats (Wr m c) (Proc.devRef .tc main_arg0) : S500000x131.Idx → EReal) slices_S500000x131_S500000x3_0_128 := by
    rw [restFeats_kept_v1, restFeats_kept_arg0]; exact Wr_v1 m c
  refine (mlp_read (StableHlo.after restFeats (Wr m c)) n h0 h1).trans ?_
  have hft : (fun (n : Fin 500000) (q : Fin 96) => (StableHlo.after restFeats (Wr m c) (Proc.devRef .tc main_v137) : S500000x96.Idx → EReal) (ix2 n q))
      = Cert.Spec.featRow (Wr m c (Proc.devRef .tc main_v33)) (m ((c.tc : Thread nD τ).loc main_arg1)) := by
    funext n q
    rw [feats_read (Wr m c) n q hg, Wr_arg1]
  rw [hft, restFeats_kept_arg0, restFeats_kept_arg2, restFeats_kept_arg3, restFeats_kept_arg4, restFeats_kept_arg5,
    restFeats_kept_arg6, restFeats_kept_arg7, Wr_arg0, Wr_arg2, Wr_arg3, Wr_arg4, Wr_arg5, Wr_arg6, Wr_arg7]
  rfl

end Cert.ReferenceIdeal.RBridge

end
-- ==== Proof.GridAgree.lean ====
/-
  Both programs compute the clipped coordinates by the same operations.

  From the points' array x, each program takes the last three columns, gathers the column pairs (0,1), (0,2), (1,2)
  (each pair's column numbers first wrapped as NumPy wraps negative indices), stacks the three [500000, 2] arrays,
  adds one, halves, multiplies by 512 and clips to [0, 512] — operation for operation the same chain, written out
  here once.  So from equal arrays x the two programs hold equal clipped coordinates.
-/
import proofs.«108793_j65506841199156_2_alg».proof.Proof.Gen.KernelIdeal.Launch
import proofs.«108793_j65506841199156_2_alg».proof.Proof.RefOps
import proofs.«108793_j65506841199156_2_alg».proof.Proof.LibNary
import Idealize.ShloMosaic.Lib.StableHlo.Run
import Idealize.ShloMosaic.PureOps.Ideal

set_option maxRecDepth 16384

noncomputable section

namespace Cert.GridAgree

open Idealize.ShloMosaic Idealize.ShloMosaic.TcCoe Idealize.ShloMosaic.StableHlo Idealize.SL.Sem
open Cert.KernelIdeal Cert.KernelIdeal.Gen

/-- One pair of coordinate columns: the pair's column numbers, wrapped, gather two of the three columns. -/
def colPair (lit : Fin 2 → BitVec 32) (x3 : FVec Ideal S500000x3 .f32) : FVec Ideal S500000x2 .f32 :=
  Host.gather gather_S500000x3_S2x1_S500000x2_0_1_n_n_1_1_5000001 x3
    (broadcastInDim S2x1 ![0] bcast_S2_S2x1_0
      (select (cmpi .slt (fun i => lit (S2.rowMajor i)) (broadcastInDim S2 ![] bcast_S_S2 (constantI S_ 32 0#32)))
        (addi (fun i => lit (S2.rowMajor i)) (broadcastInDim S2 ![] bcast_S_S2 (constantI S_ 32 3#32)))
        (fun i => lit (S2.rowMajor i))))

/-- The clipped coordinates of all three planes, from the points' array. -/
def gOf (x : FVec Ideal S500000x131 .f32) : FVec Ideal S3x500000x2 .f32 :=
  minimumf (broadcastInDim S3x500000x2 ![] bcast_S_S3x500000x2 (sitofp .f32 (constantI S_ 32 512#32)))
    (maximumf (broadcastInDim S3x500000x2 ![] bcast_S_S3x500000x2 (id (constant (F := Ideal) S_ .f32 0x00000000#32)))
      (mulf (mulf (addf
        (concatenate S3x500000x2 0
          [⟨S1x500000x2, broadcastInDim S1x500000x2 ![1, 2] bcast_S500000x2_S1x500000x2_1_2
              (colPair lit0 (extractStridedSlice S500000x3 ![0, 128] x slices_S500000x131_S500000x3_0_128))⟩,
           ⟨S1x500000x2, broadcastInDim S1x500000x2 ![1, 2] bcast_S500000x2_S1x500000x2_1_2
              (colPair lit1 (extractStridedSlice S500000x3 ![0, 128] x slices_S500000x131_S500000x3_0_128))⟩,
           ⟨S1x500000x2, broadcastInDim S1x500000x2 ![1, 2] bcast_S500000x2_S1x500000x2_1_2
              (colPair lit2 (extractStridedSlice S500000x3 ![0, 128] x slices_S500000x131_S500000x3_0_128))⟩]
          concatenates_S1x500000x2_S1x500000x2_S1x500000x2_S3x500000x2_d0)
        (broadcastInDim S3x500000x2 ![] bcast_S_S3x500000x2 (constant (F := Ideal) S_ .f32 0x3F800000#32)))
        (broadcastInDim S3x500000x2 ![] bcast_S_S3x500000x2 (constant (F := Ideal) S_ .f32 0x3F000000#32)))
        (broadcastInDim S3x500000x2 ![] bcast_S_S3x500000x2 (constant (F := Ideal) S_ .f32 0x44000000#32))))

set_option maxHeartbeats 4000000 in
/-- The kernel program's clipped coordinates are that chain of its points' array. -/
theorem kernel_grid (VK : Valuation Cert.KernelIdeal.τ Cert.KernelIdeal.sig (Elt Ideal)) :
    (StableHlo.after (hostOps0 ++ hostOps0_1) VK (Proc.devRef .tc main_v33) : S3x500000x2.Idx → EReal)
      = gOf (VK (Proc.devRef .tc main_arg0)) := by
  simp only [hostOps0, hostOps0_1, StableHlo.TRef.unary, StableHlo.TRef.binary, List.cons_append, List.nil_append]
  after_results_cat
  rfl

set_option maxHeartbeats 4000000 in
/-- The reference's clipped coordinates are the same chain of its points' array. -/
theorem reference_grid (VR : Valuation Cert.ReferenceIdeal.τ Cert.ReferenceIdeal.sig (Elt Ideal)) :
    (StableHlo.after Cert.ReferenceIdeal.RefRun.pre VR (Proc.devRef .tc Cert.ReferenceIdeal.main_v33) : S3x500000x2.Idx → EReal)
      = gOf (VR (Proc.devRef .tc Cert.ReferenceIdeal.main_arg0)) := by
  simp only [Cert.ReferenceIdeal.RefRun.pre, StableHlo.TRef.unary, StableHlo.TRef.binary]
  after_results_cat
  rfl

end Cert.GridAgree

end
-- ==== Proof.lean ====
/-
  The certificate's claims, assembled.

  The kernel program gathers, on the host, the bilinear tri-plane features of 500000 query points and runs a
  three-layer perceptron over [the point's 131 columns | its 96 features] in a tiled kernel, the first layer as two
  partial products; the reference computes the same features in another layout and runs the perceptron over the
  concatenated 227 columns.  Read over the extended reals both end, at every point, at one function of the argument
  arrays (Proof/Spec.lean).  The three frames: the kernel program's run around its one region, written generically in
  the float instance (Proof/FrameIdeal.lean, Proof/FrameBits.lean), and the reference's straight line of host
  operations (Proof/RefRun.lean).  The values: the kernel's blocks joined into the output column (Proof/KernelValue.lean,
  Proof/KernelRun.lean), the staged arrays read back to the arguments (Proof/HostVal*.lean, Proof/KernelBridge.lean),
  the reference's stretches read at an index (Proof/RefFeats.lean, Proof/RefMlp.lean, Proof/RefBridge.lean), and the
  clipped coordinates of the two programs identified (Proof/GridAgree.lean).
-/
import proofs.«108793_j65506841199156_2_alg».proof.Defs
import proofs.«108793_j65506841199156_2_alg».proof.Proof.Gen.Kernel
import proofs.«108793_j65506841199156_2_alg».proof.Proof.Gen.KernelIdeal
import proofs.«108793_j65506841199156_2_alg».proof.Proof.Gen.ReferenceIdeal
import proofs.«108793_j65506841199156_2_alg».proof.Proof.Gen.Pre_finite_inputs
import proofs.«108793_j65506841199156_2_alg».proof.Proof.FrameBits
import proofs.«108793_j65506841199156_2_alg».proof.Proof.KernelBridge
import proofs.«108793_j65506841199156_2_alg».proof.Proof.RefBridge
import proofs.«108793_j65506841199156_2_alg».proof.Proof.GridAgree
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to its end, faults nowhere and leaves its arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame m ρ

/-- So does the reference: a straight line of host operations, none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.kept_arg0 _),
     (h c Cert.ReferenceIdeal.main_arg1).trans (Cert.ReferenceIdeal.RefRun.kept_arg1 _),
     (h c Cert.ReferenceIdeal.main_arg2).trans (Cert.ReferenceIdeal.RefRun.kept_arg2 _),
     (h c Cert.ReferenceIdeal.main_arg3).trans (Cert.ReferenceIdeal.RefRun.kept_arg3 _),
     (h c Cert.ReferenceIdeal.main_arg4).trans (Cert.ReferenceIdeal.RefRun.kept_arg4 _),
     (h c Cert.ReferenceIdeal.main_arg5).trans (Cert.ReferenceIdeal.RefRun.kept_arg5 _),
     (h c Cert.ReferenceIdeal.main_arg6).trans (Cert.ReferenceIdeal.RefRun.kept_arg6 _),
     (h c Cert.ReferenceIdeal.main_arg7).trans (Cert.ReferenceIdeal.RefRun.kept_arg7 _)⟩)
    (Cert.ReferenceIdeal.RefRun.run_after (F := Ideal) m ρ)

/-- The ideal pass rewrote nothing. -/
theorem preserves : Cert.preserves_Kernel_KernelIdeal := trivial

/-- From memories that agree on the arguments both idealized programs end with the same result: at every n the
    specification's output — the kernel's with the first layer's sum in two parts, the reference's with it whole, and a
    sum over 227 terms is the sum of its first 131 and its last 96 —, over clipped coordinates that the two programs
    compute from equal arrays by the same operations. -/
theorem algebraic : Cert.algebraic_KernelIdeal_ReferenceIdeal := by
  intro m ρ m' ρ' _ hagree
  refine ⟨fun c => (fun i => Cert.Spec.out (Cert.KernelIdeal.KBridge.Wc m c (Proc.devRef .tc Cert.KernelIdeal.main_v33))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (⟨(i 0).val, (i 0).isLt⟩ : Fin 500000)), ?_, ?_⟩
  · refine (θ_run Cert.KernelIdeal.defs _ _).mono (fun _ h c => ⟨?_, (h c).2⟩) (Cert.KernelIdeal.KRun.run m ρ)
    rw [(h c).1]
    funext i
    obtain ⟨n, rfl⟩ : ∃ n : Fin 500000, i = ix1 n := ⟨i 0, eq_ix1 i⟩
    rw [Cert.KernelIdeal.KBridge.result_read, ← Cert.Spec.out_eq_split]
    rfl
  · refine (θ_run Cert.ReferenceIdeal.defs _ _).mono (fun _ h c =>
      ⟨?_, (h c Cert.ReferenceIdeal.main_arg0).trans (Cert.ReferenceIdeal.RefRun.kept_arg0 _),
        (h c Cert.ReferenceIdeal.main_arg1).trans (Cert.ReferenceIdeal.RefRun.kept_arg1 _),
        (h c Cert.ReferenceIdeal.main_arg2).trans (Cert.ReferenceIdeal.RefRun.kept_arg2 _),
        (h c Cert.ReferenceIdeal.main_arg3).trans (Cert.ReferenceIdeal.RefRun.kept_arg3 _),
        (h c Cert.ReferenceIdeal.main_arg4).trans (Cert.ReferenceIdeal.RefRun.kept_arg4 _),
        (h c Cert.ReferenceIdeal.main_arg5).trans (Cert.ReferenceIdeal.RefRun.kept_arg5 _),
        (h c Cert.ReferenceIdeal.main_arg6).trans (Cert.ReferenceIdeal.RefRun.kept_arg6 _),
        (h c Cert.ReferenceIdeal.main_arg7).trans (Cert.ReferenceIdeal.RefRun.kept_arg7 _)⟩)
      (Cert.ReferenceIdeal.RefRun.run_after (F := Ideal) m' ρ')
    obtain ⟨a0, a1, a2, a3, a4, a5, a6, a7⟩ := hagree c
    have hgrid : Cert.ReferenceIdeal.RBridge.Wr m' c (Proc.devRef .tc Cert.ReferenceIdeal.main_v33)
        = Cert.KernelIdeal.KBridge.Wc m c (Proc.devRef .tc Cert.KernelIdeal.main_v33) := by
      unfold Cert.ReferenceIdeal.RBridge.Wr Cert.KernelIdeal.KBridge.Wc Cert.KernelIdeal.KBridge.pre
      rw [Cert.GridAgree.reference_grid, Cert.GridAgree.kernel_grid]
      exact congrArg Cert.GridAgree.gOf a0
    have hg : Cert.Spec.InGrid (Cert.ReferenceIdeal.RBridge.Wr m' c (Proc.devRef .tc Cert.ReferenceIdeal.main_v33)) := by
      rw [hgrid]; exact Cert.KernelIdeal.KBridge.inGrid m c
    rw [h c Cert.ReferenceIdeal.main_v153]
    funext i
    obtain ⟨n, rfl⟩ : ∃ n : Fin 500000, i = ix1 n := ⟨i 0, eq_ix1 i⟩
    rw [Cert.ReferenceIdeal.RBridge.ref_read m' c n hg, hgrid, a0, a1, a2, a3, a4, a5, a6, a7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
